-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S8256x128 : Shape := ⟨2, ![8256, 128]⟩
abbrev S128 : Shape := ⟨1, ![128]⟩
abbrev S8256x64 : Shape := ⟨2, ![8256, 64]⟩
abbrev S64 : Shape := ⟨1, ![64]⟩
abbrev S2x262144 : Shape := ⟨2, ![2, 262144]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8256x128 : S_.BroadcastsInDim S8256x128 (![] : Fin 0 → Fin S8256x128.rank)
  reducesTo_S8256x128_S_d0_1 : S8256x128.ReducesTo [0, 1] S_
  bcast_S_S128 : S_.BroadcastsInDim S128 (![] : Fin 0 → Fin S128.rank)
  reducesTo_S128_S_d0 : S128.ReducesTo [0] S_
  bcast_S_S8256x64 : S_.BroadcastsInDim S8256x64 (![] : Fin 0 → Fin S8256x64.rank)
  reducesTo_S8256x64_S_d0_1 : S8256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S8256x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8256x64 .f32 := Host.absf main_arg4
  let main_cst_6 : FVec F S_ .f32 := constant S_ .f32 0x7F800000#32
  let main_v20 : FVec F S8256x64 .f32 := broadcastInDim S8256x64 ![] bcast_S_S8256x64 main_cst_6
  let main_v21 : IVec S8256x64 1 := cmpf .olt main_v19 main_v20
  let main_c_7 : IVec S_ 1 := constantI S_ 1 1#1
  let main_v22 : IVec S_ 1 := (fun x v => Host.reduce IntOp.andi x v reducesTo_S8256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8192x8192 .f32) (main_arg1 : FVec F S8192x64 .f32) (main_arg2 : FVec F S8256x128 .f32) (main_arg3 : FVec F S128 .f32) (main_arg4 : FVec F S8256x64 .f32) (main_arg5 : FVec F S64 .f32) (main_arg6 : IVec S2x262144 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8256x128 .f32 := Host.absf main_arg2
  let main_cst_2 : FVec F S_ .f32 := constant S_ .f32 0x7F800000#32
  let main_v10 : FVec F S8256x128 .f32 := broadcastInDim S8256x128 ![] bcast_S_S8256x128 main_cst_2
  let main_v11 : IVec S8256x128 1 := cmpf .olt main_v9 main_v10
  let main_c_3 : IVec S_ 1 := constantI S_ 1 1#1
  let main_v12 : IVec S_ 1 := (fun x v => Host.reduce IntOp.andi x v reducesTo_S8256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x8192 : Shape := ⟨2, ![8192, 8192]⟩
abbrev S8192x64 : Shape := ⟨2, ![8192, 64]⟩
abbrev S8256x128 : Shape := ⟨2, ![8256, 128]⟩
abbrev S128 : Shape := ⟨1, ![128]⟩
abbrev S8256x64 : Shape := ⟨2, ![8256, 64]⟩
abbrev S64 : Shape := ⟨1, ![64]⟩
abbrev S2x262144 : Shape := ⟨2, ![2, 262144]⟩
abbrev S1x262144 : Shape := ⟨2, ![1, 262144]⟩
abbrev S262144 : Shape := ⟨1, ![262144]⟩
abbrev S8192x128 : Shape := ⟨2, ![8192, 128]⟩
abbrev S64x128 : Shape := ⟨2, ![64, 128]⟩
abbrev S64x64 : Shape := ⟨2, ![64, 64]⟩
abbrev S1024x2048 : Shape := ⟨2, ![1024, 2048]⟩
abbrev S1024x64 : Shape := ⟨2, ![1024, 64]⟩
abbrev S2048x128 : Shape := ⟨2, ![2048, 128]⟩
abbrev S1024x128 : Shape := ⟨2, ![1024, 128]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S1x1048576 : Shape := ⟨2, ![1, 1048576]⟩
abbrev S1x524288 : Shape := ⟨2, ![1, 524288]⟩
abbrev S2048x64 : Shape := ⟨2, ![2048, 64]⟩
abbrev S270336x64 : Shape := ⟨2, ![270336, 64]⟩
abbrev S1x64 : Shape := ⟨2, ![1, 64]⟩

abbrev nBuf : Space → Nat
  | .hbm => 112
  | .vmem => 20
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8256x128, .f32⟩
  | .hbm, ⟨3, _⟩ => ⟨S128, .f32⟩
  | .hbm, ⟨4, _⟩ => ⟨S8256x64, .f32⟩
  | .hbm, ⟨5, _⟩ => ⟨S64, .f32⟩
  | .hbm, ⟨6, _⟩ => ⟨S2x262144, .i32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S8192x128, .f32⟩
  | .hbm, ⟨12, _⟩ => ⟨S64x128, .f32⟩
  | .hbm, ⟨13, _⟩ => ⟨S8192x64, .f32⟩
  | .hbm, ⟨14, _⟩ => ⟨S64x64, .f32⟩
  | .hbm, ⟨15, _⟩ => ⟨S8192x128, .f32⟩
  | .hbm, ⟨16, _⟩ => ⟨S8192, .i32⟩
  | .hbm, ⟨17, _⟩ => ⟨S270336, .i32⟩
  | .hbm, ⟨18, _⟩ => ⟨S270336, .i32⟩
  | .hbm, ⟨19, _⟩ => ⟨S_, .f32⟩
  | .hbm, ⟨20, _⟩ => ⟨S270336, .f32⟩
  | .hbm, ⟨21, _⟩ => ⟨S_, .f32⟩
  | .hbm, ⟨22, _⟩ => ⟨S8192, .f32⟩
  | .hbm, ⟨23, _⟩ => ⟨S270336x1, .i32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .i32⟩
  | .hbm, ⟨34, _⟩ => ⟨S270336, .i32⟩
  | .hbm, ⟨35, _⟩ => ⟨S270336, .i1⟩
  | .hbm, ⟨36, _⟩ => ⟨S_, .i32⟩
  | .hbm, ⟨37, _⟩ => ⟨S270336, .i32⟩
  | .hbm, ⟨38, _⟩ => ⟨S270336, .i32⟩
  | .hbm, ⟨39, _⟩ => ⟨S270336, .i32⟩
  | .hbm, ⟨40, _⟩ => ⟨S270336x1, .i32⟩
  | .hbm, ⟨41, _⟩ => ⟨S270336, .f32⟩
  | .hbm, ⟨42, _⟩ => ⟨S_, .i32⟩
  | .hbm, ⟨43, _⟩ => ⟨S270336, .i32⟩
  | .hbm, ⟨44, _⟩ => ⟨S270336, .i1⟩
  | .hbm, ⟨45, _⟩ => ⟨S_, .i32⟩
  | .hbm, ⟨46, _⟩ => ⟨S270336, .i32⟩
  | .hbm, ⟨47, _⟩ => ⟨S270336, .i32⟩
  | .hbm, ⟨48, _⟩ => ⟨S270336, .i32⟩
  | .hbm, ⟨49, _⟩ => ⟨S270336x1, .i32⟩
  | .hbm, ⟨50, _⟩ => ⟨S270336, .f32⟩
  | .hbm, ⟨51, _⟩ => ⟨S270336, .f32⟩
  | .hbm, ⟨52, _⟩ => ⟨S_, .i32⟩
  | .hbm, ⟨53, _⟩ => ⟨S270336, .i32⟩
  | .hbm, ⟨54, _⟩ => ⟨S270336, .i1⟩
  | .hbm, ⟨55, _⟩ => ⟨S_, .i32⟩
  | .hbm, ⟨56, _⟩ => ⟨S270336, .i32⟩
  | .hbm, ⟨57, _⟩ => ⟨S270336, .i32⟩
  | .hbm, ⟨58, _⟩ => ⟨S270336, .i32⟩
  | .hbm, ⟨59, _⟩ => ⟨S270336x1, .i32⟩
  | .hbm, ⟨60, _⟩ => ⟨S270336x128, .f32⟩
  | .hbm, ⟨61, _⟩ => ⟨S270336x1, .f32⟩
  | .hbm, ⟨62, _⟩ => ⟨S270336x128, .f32⟩
  | .hbm, ⟨63, _⟩ => ⟨S270336x128, .f32⟩
  | .hbm, ⟨64, _⟩ => ⟨S_, .f32⟩
  | .hbm, ⟨65, _⟩ => ⟨S8192x128, .f32⟩
  | .hbm, ⟨66, _⟩ => ⟨S270336x1, .i32⟩
  | .hbm, ⟨67, _⟩ => ⟨S8192x128, .f32⟩
  | .hbm, ⟨68, _⟩ => ⟨S1x128, .f32⟩
  | .hbm, ⟨69, _⟩ => ⟨S8192x128, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192x128, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | .hbm, ⟨79, _⟩ => ⟨S1x1048576, .f32⟩
  | .hbm, ⟨80, _⟩ => ⟨S1x524288, .f32⟩
  | .hbm, ⟨81, _⟩ => ⟨S8192x64, .f32⟩
  | .hbm, ⟨82, _⟩ => ⟨S1x524288, .f32⟩
  | .hbm, ⟨83, _⟩ => ⟨S8192x64, .f32⟩
  | .hbm, ⟨84, _⟩ => ⟨S8192x64, .f32⟩
  | .hbm, ⟨85, _⟩ => ⟨S8192x64, .f32⟩
  | .hbm, ⟨86, _⟩ => ⟨S_, .i32⟩
  | .hbm, ⟨87, _⟩ => ⟨S270336, .i32⟩
  | .hbm, ⟨88, _⟩ => ⟨S270336, .i1⟩
  | .hbm, ⟨89, _⟩ => ⟨S_, .i32⟩
  | .hbm, ⟨90, _⟩ => ⟨S270336, .i32⟩
  | .hbm, ⟨91, _⟩ => ⟨S270336, .i32⟩
  | .hbm, ⟨92, _⟩ => ⟨S270336, .i32⟩
  | .hbm, ⟨93, _⟩ => ⟨S270336x1, .i32⟩
  | .hbm, ⟨94, _⟩ => ⟨S270336x64, .f32⟩
  | .hbm, ⟨95, _⟩ => ⟨S270336x1, .f32⟩
  | .hbm, ⟨96, _⟩ => ⟨S270336x64, .f32⟩
  | .hbm, ⟨97, _⟩ => ⟨S270336x64, .f32⟩
  | .hbm, ⟨98, _⟩ => ⟨S_, .f32⟩
  | .hbm, ⟨99, _⟩ => ⟨S8192x64, .f32⟩
  | .hbm, ⟨100, _⟩ => ⟨S270336x1, .i32⟩
  | .hbm, ⟨101, _⟩ => ⟨S8192x64, .f32⟩
  | .hbm, ⟨102, _⟩ => ⟨S1x64, .f32⟩
  | .hbm, ⟨103, _⟩ => ⟨S8192x64, .f32⟩
  | .hbm, ⟨104, _⟩ => ⟨S8192x64, .f32⟩
  | .hbm, ⟨105, _⟩ => ⟨S8192x64, .f32⟩
  | .hbm, ⟨106, _⟩ => ⟨S8192x64, .f32⟩
  | .hbm, ⟨107, _⟩ => ⟨S_, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x64, .f32⟩
  | .local _ .vmem, ⟨3, _⟩ => ⟨S1024x64, .f32⟩
  | .local _ .vmem, ⟨4, _⟩ => ⟨S2048x128, .f32⟩
  | .local _ .vmem, ⟨5, _⟩ => ⟨S2048x128, .f32⟩
  | .local _ .vmem, ⟨6, _⟩ => ⟨S64x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2048, .f32⟩
  | .local _ .vmem, ⟨11, _⟩ => ⟨S1024x2048, .f32⟩
  | .local _ .vmem, ⟨12, _⟩ => ⟨S1024x64, .f32⟩
  | .local _ .vmem, ⟨13, _⟩ => ⟨S1024x64, .f32⟩
  | .local _ .vmem, ⟨14, _⟩ => ⟨S2048x64, .f32⟩
  | .local _ .vmem, ⟨15, _⟩ => ⟨S2048x64, .f32⟩
  | .local _ .vmem, ⟨16, _⟩ => ⟨S64x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S8256x128_S8192x128_0_0 : S8256x128.Slices ![0, 0] S8192x128
  slices_S8256x128_S64x128_8192_0 : S8256x128.Slices ![8192, 0] S64x128
  slices_S8256x64_S8192x64_0_0 : S8256x64.Slices ![0, 0] S8192x64
  slices_S8256x64_S64x64_8192_0 : S8256x64.Slices ![8192, 0] S64x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x64_S1024x64_0_0 : ∀ a, (![0, 0] : Fin 2 → Nat) a + S1024x64.size a ≤ S1024x64.size a
  h_S1024x64 : 0 < S1024x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S1x1048576 : S8192x128.ShapeCasts S1x1048576
  slices_S1x1048576_S1x524288_0_0 : S1x1048576.Slices ![0, 0] S1x524288
  shapeCasts_S1x524288_S8192x64 : S1x524288.ShapeCasts S8192x64
  slices_S1x1048576_S1x524288_0_524288 : S1x1048576.Slices ![0, 524288] S1x524288
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S1024x2048_S2048x128_S1024x128_1_0_0_1_n_n_wf : DotDims.WF S1024x2048 S2048x128 S1024x128 [1] [0] [0] [1] [] []
  dot_S1024x64_S64x128_S1024x128_1_0_0_1_n_n_wf : DotDims.WF S1024x64 S64x128 S1024x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S8256x128 : Shape := ⟨2, ![8256, 128]⟩
abbrev S128 : Shape := ⟨1, ![128]⟩
abbrev S8256x64 : Shape := ⟨2, ![8256, 64]⟩
abbrev S64 : Shape := ⟨1, ![64]⟩
abbrev S2x262144 : Shape := ⟨2, ![2, 262144]⟩
abbrev S1x262144 : Shape := ⟨2, ![1, 262144]⟩
abbrev S262144 : Shape := ⟨1, ![262144]⟩
abbrev S8192x8256 : Shape := ⟨2, ![8192, 8256]⟩
abbrev S8192x128 : Shape := ⟨2, ![8192, 128]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S1x1048576 : Shape := ⟨2, ![1, 1048576]⟩
abbrev S1x524288 : Shape := ⟨2, ![1, 524288]⟩
abbrev S270336x64 : Shape := ⟨2, ![270336, 64]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S8192x8192, .f32⟩
  | 1 => ⟨S8192x64, .f32⟩
  | 2 => ⟨S8256x128, .f32⟩
  | 3 => ⟨S128, .f32⟩
  | 4 => ⟨S8256x64, .f32⟩
  | 5 => ⟨S64, .f32⟩
  | 6 => ⟨S2x262144, .i32⟩
  | 7 => ⟨S1x262144, .i32⟩
  | 8 => ⟨S262144, .i32⟩
  | 9 => ⟨S1x262144, .i32⟩
  | 10 => ⟨S262144, .i32⟩
  | 11 => ⟨S8192x8256, .f32⟩
  | 12 => ⟨S8192x128, .f32⟩
  | 13 => ⟨S8192, .i32⟩
  | 14 => ⟨S270336, .i32⟩
  | 15 => ⟨S270336, .i32⟩
  | 16 => ⟨S_, .f32⟩
  | 17 => ⟨S270336, .f32⟩
  | 18 => ⟨S_, .f32⟩
  | 19 => ⟨S8192, .f32⟩
  | 20 => ⟨S270336x1, .i32⟩
  | 21 => ⟨S8192, .f32⟩
  | 22 => ⟨S_, .f32⟩
  | 23 => ⟨S8192, .f32⟩
  | 24 => ⟨S8192, .i1⟩
  | 25 => ⟨S8192, .f32⟩
  | 26 => ⟨S_, .f32⟩
  | 27 => ⟨S_, .f32⟩
  | 28 => ⟨S8192, .f32⟩
  | 29 => ⟨S8192, .f32⟩
  | 30 => ⟨S_, .i32⟩
  | 31 => ⟨S270336, .i32⟩
  | 32 => ⟨S270336, .i1⟩
  | 33 => ⟨S_, .i32⟩
  | 34 => ⟨S270336, .i32⟩
  | 35 => ⟨S270336, .i32⟩
  | 36 => ⟨S270336, .i32⟩
  | 37 => ⟨S270336x1, .i32⟩
  | 38 => ⟨S270336, .f32⟩
  | 39 => ⟨S_, .i32⟩
  | 40 => ⟨S270336, .i32⟩
  | 41 => ⟨S270336, .i1⟩
  | 42 => ⟨S_, .i32⟩
  | 43 => ⟨S270336, .i32⟩
  | 44 => ⟨S270336, .i32⟩
  | 45 => ⟨S270336, .i32⟩
  | 46 => ⟨S270336x1, .i32⟩
  | 47 => ⟨S270336, .f32⟩
  | 48 => ⟨S270336, .f32⟩
  | 49 => ⟨S_, .i32⟩
  | 50 => ⟨S270336, .i32⟩
  | 51 => ⟨S270336, .i1⟩
  | 52 => ⟨S_, .i32⟩
  | 53 => ⟨S270336, .i32⟩
  | 54 => ⟨S270336, .i32⟩
  | 55 => ⟨S270336, .i32⟩
  | 56 => ⟨S270336x1, .i32⟩
  | 57 => ⟨S270336x128, .f32⟩
  | 58 => ⟨S270336x1, .f32⟩
  | 59 => ⟨S270336x128, .f32⟩
  | 60 => ⟨S270336x128, .f32⟩
  | 61 => ⟨S_, .f32⟩
  | 62 => ⟨S8192x128, .f32⟩
  | 63 => ⟨S270336x1, .i32⟩
  | 64 => ⟨S8192x128, .f32⟩
  | 65 => ⟨S1x128, .f32⟩
  | 66 => ⟨S8192x128, .f32⟩
  | 67 => ⟨S8192x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S_, .f32⟩
  | 74 => ⟨S8192x128, .f32⟩
  | 75 => ⟨S8192x128, .f32⟩
  | 76 => ⟨S1x1048576, .f32⟩
  | 77 => ⟨S1x524288, .f32⟩
  | 78 => ⟨S8192x64, .f32⟩
  | 79 => ⟨S1x524288, .f32⟩
  | 80 => ⟨S8192x64, .f32⟩
  | 81 => ⟨S8192x64, .f32⟩
  | 82 => ⟨S8192x8256, .f32⟩
  | 83 => ⟨S8192x64, .f32⟩
  | 84 => ⟨S8192, .i32⟩
  | 85 => ⟨S270336, .i32⟩
  | 86 => ⟨S270336, .i32⟩
  | 87 => ⟨S_, .f32⟩
  | 88 => ⟨S270336, .f32⟩
  | 89 => ⟨S_, .f32⟩
  | 90 => ⟨S8192, .f32⟩
  | 91 => ⟨S270336x1, .i32⟩
  | 92 => ⟨S8192, .f32⟩
  | 93 => ⟨S_, .f32⟩
  | 94 => ⟨S8192, .f32⟩
  | 95 => ⟨S8192, .i1⟩
  | 96 => ⟨S8192, .f32⟩
  | 97 => ⟨S_, .f32⟩
  | 98 => ⟨S_, .f32⟩
  | 99 => ⟨S8192, .f32⟩
  | 100 => ⟨S8192, .f32⟩
  | 101 => ⟨S_, .i32⟩
  | 102 => ⟨S270336, .i32⟩
  | 103 => ⟨S270336, .i1⟩
  | 104 => ⟨S_, .i32⟩
  | 105 => ⟨S270336, .i32⟩
  | 106 => ⟨S270336, .i32⟩
  | 107 => ⟨S270336, .i32⟩
  | 108 => ⟨S270336x1, .i32⟩
  | 109 => ⟨S270336, .f32⟩
  | 110 => ⟨S_, .i32⟩
  | 111 => ⟨S270336, .i32⟩
  | 112 => ⟨S270336, .i1⟩
  | 113 => ⟨S_, .i32⟩
  | 114 => ⟨S270336, .i32⟩
  | 115 => ⟨S270336, .i32⟩
  | 116 => ⟨S270336, .i32⟩
  | 117 => ⟨S270336x1, .i32⟩
  | 118 => ⟨S270336, .f32⟩
  | 119 => ⟨S270336, .f32⟩
  | 120 => ⟨S_, .i32⟩
  | 121 => ⟨S270336, .i32⟩
  | 122 => ⟨S270336, .i1⟩
  | 123 => ⟨S_, .i32⟩
  | 124 => ⟨S270336, .i32⟩
  | 125 => ⟨S270336, .i32⟩
  | 126 => ⟨S270336, .i32⟩
  | 127 => ⟨S270336x1, .i32⟩
  | _ => ⟨S8192x8192, .f32⟩

abbrev hbmTy0_1 (i : Nat) : BufTy := match i % 128 with
  | 0 => ⟨S270336x64, .f32⟩
  | 1 => ⟨S270336x1, .f32⟩
  | 2 => ⟨S270336x64, .f32⟩
  | 3 => ⟨S270336x64, .f32⟩
  | 4 => ⟨S_, .f32⟩
  | 5 => ⟨S8192x64, .f32⟩
  | 6 => ⟨S270336x1, .i32⟩
  | 7 => ⟨S8192x64, .f32⟩
  | 8 => ⟨S1x64, .f32⟩
  | 9 => ⟨S8192x64, .f32⟩
  | 10 => ⟨S8192x64, .f32⟩
  | 11 => ⟨S8192x64, .f32⟩
  | 12 => ⟨S8192x64, .f32⟩
  | 13 => ⟨S_, .f32⟩
  | 14 => ⟨S8192x64, .f32⟩
  | 15 => ⟨S8192x64, .f32⟩
  | 16 => ⟨S8192x64, .f32⟩
  | 17 => ⟨S8192x64, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_call1_v0 : Ref sig .tc := ⟨.hbm, 98, rfl⟩
abbrev main_call1_v1 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_17 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_c_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S8192x8192_S8192x64_S8192x8256_d1 : Shape.Concatenates [S8192x8192, S8192x64] S8192x8256 1
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192x128_S1x1048576 : S8192x128.ShapeCasts S1x1048576
  slices_S1x1048576_S1x524288_0_0 : S1x1048576.Slices ![0, 0] S1x524288
  shapeCasts_S1x524288_S8192x64 : S1x524288.ShapeCasts S8192x64
  slices_S1x1048576_S1x524288_0_524288 : S1x1048576.Slices ![0, 524288] S1x524288
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x8256_S8256x128_S8192x128_1_0_0_1_n_n_wf : DotDims.WF S8192x8256 S8256x128 S8192x128 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x8256_S8256x64_S8192x64_1_0_0_1_n_n_wf : DotDims.WF S8192x8256 S8256x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1

variable [Facts₀]

def dot_S8192x8256_S8256x128_S8192x128_1_0_0_1_n_n : DotDims S8192x8256 S8256x128 S8192x128 where
  lhsContracting := [1]
  rhsContracting := [0]
  lhsNonContracting := [0]
  rhsNonContracting := [1]
  lhsBatch := []
  rhsBatch := []
  wf := dot_S8192x8256_S8256x128_S8192x128_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x8256_S8256x64_S8192x64_1_0_0_1_n_n : DotDims S8192x8256 S8256x64 S8192x64 where
  lhsContracting := [1]
  rhsContracting := [0]
  lhsNonContracting := [0]
  rhsNonContracting := [1]
  lhsBatch := []
  rhsBatch := []
  wf := dot_S8192x8256_S8256x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf

class Facts : Prop extends Facts₀ where

variable [Facts]
-- ==== Proof.R0Setup.lean ====
/-
  Region 0 (the first fused product): what the three control cases of its body share.

  The grid is 8 row blocks by 4 contraction tiles, a point t at row block t / 4 and tile t % 4. The body zeroes its
  accumulator at tile 0, adds the tile's product x·Wx at every tile, and at tile 3 adds hfeat·Wh and stores the accumulator
  into the output block. Here: a window's block read off the array the region finds, each input's staging buffer at its
  block whether or not it was fetched at the point, the two branch conditions decided over the grid, where the output
  window is idle, and the scoped buffers the kernel may use split into its accumulator and the others.
-/
import proofs.«112653_j60352880443527_1_alg».proof.Proof.Gen.KernelIdeal.Launch
import proofs.«112653_j60352880443527_1_alg».proof.Proof.Gen.KernelIdeal.Skeleton
import proofs.«112653_j60352880443527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions over the grid -/

/-- The first branch (zero the accumulator): the contraction tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (add the hfeat product and store the output): the contraction tile is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from tile 3 the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At tile 3 it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0 : Memref sig .tc .vmem S1024x128 .f32 := Memref.whole cc0_scratch0
abbrev VS0 : View sig .tc .vmem S1024x128 .f32 := (scM0).view
/-- One staging buffer of the output window, through which its contents are stated. -/
abbrev VO0 : View sig .tc .vmem S1024x128 .f32 := (Memref.whole cc0_stg4_0 : Memref sig .tc .vmem S1024x128 .f32).view

/-! ## The scoped buffers the kernel may use -/

/-- The scoped buffers other than this region's accumulator and staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant opened: the accumulator at some contents, the others, the generator register. -/
theorem PhiA0_elim (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]
  iintro ⟨⟨Hs, H1, H2, H3, H4, H5, H6, H7, H8, H9, H10⟩, Hg⟩
  isplitl [Hs]
  · icases Hs with ⟨%f, Hs⟩; iexists f; rw [owns_whole]; iexact Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And closed again, whatever the accumulator holds. -/
theorem PhiA0_intro (c : Dev nD) :
    iprop((∃ d, owns (c : Thread nD τ) scM0 fullShare d) ∗ others0 c ∗ (∃ r, prngReg c r)) ⊢ (Pipeline.ΦA spec0 c : sProp 𝕄) := by
  unfold Pipeline.ΦA others0; rw [scopedRest0_eq]
  iintro ⟨Hs, ⟨H1, H2, H3, H4, H5, H6, H7, H8, H9, H10⟩, Hg⟩
  isplitr [Hg]
  · isplitl [Hs]
    · icases Hs with ⟨%d, Hs⟩; iexists d; rw [← owns_whole]; iexact Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

end Cert.KernelIdeal.Hand

end
-- ==== Proof.R0RunA.lean ====
/-
  Region 0, the body at a point of tile 0: the accumulator is zeroed, then the tile's product is added.
  On whole memrefs holding the blocks, the body runs to the end; what it leaves in each buffer it writes is the list of
  its stores there, last first, which the run itself finds.
-/
import proofs.«112653_j60352880443527_1_alg».proof.Proof.R0Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x2 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg4 fullShare x2 ∗ (∃ d, owns (c : Thread nD τ) arg7 fullShare d)
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, fun E K => ?run⟩
  case run =>
    simp only [cc0__linear_fused_kernel_eq_skeleton]; unfold cc0__linear_fused_kernel_skel
    unfold owns
    iintro ⟨⟨%f0, %hf0, H0⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.KernelIdeal.Hand

end
-- ==== Proof.R0RunB.lean ====
/-
  Region 0, the body at a point of tiles 1 and 2: the tile's product is added to the accumulator the point before left.
  On whole memrefs holding the blocks, the body runs to the end; what it leaves in each buffer it writes is the list of
  its stores there, last first, which the run itself finds.
-/
import proofs.«112653_j60352880443527_1_alg».proof.Proof.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x2 : Vec F S2048x128 .f32) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg4 fullShare x2 ∗ owns (c : Thread nD τ) arg7 fullShare xs
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, fun E K => ?run⟩
  case run =>
    simp only [cc0__linear_fused_kernel_eq_skeleton]; unfold cc0__linear_fused_kernel_skel
    unfold owns
    iintro ⟨⟨%f0, %hf0, H0⟩, ⟨%f2, %hf2, H2⟩, ⟨%fs, %hfs, HS⟩, Hk⟩
    obtain rfl := harg2.eq_unread hf0; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.KernelIdeal.Hand

end
-- ==== Proof.R0RunC.lean ====
/-
  Region 0, the body at a point of tile 3: the tile's product and the hfeat product are added, and the accumulator is stored into the output block.
  On whole memrefs holding the blocks, the body runs to the end; what it leaves in each buffer it writes is the list of
  its stores there, last first, which the run itself finds.
-/
import proofs.«112653_j60352880443527_1_alg».proof.Proof.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S1024x64 .f32) (x2 : Vec F S2048x128 .f32) (x3 : Vec F S64x128 .f32) (xs : Vec F S1024x128 .f32) :
    Σ' (L4 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, ?_, fun E K => ?run⟩
  case run =>
    simp only [cc0__linear_fused_kernel_eq_skeleton]; unfold cc0__linear_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.R0Frame.lean ====
/-
  Region 0: the accumulator after each grid point, the proof data of the pipeline, and the body obligation.

  After point n the accumulator holds: at tile 0 the tile's product added to zero; at tiles 1 and 2 the tile's product added
  to what point n - 1 left; at tile 3 that and the hfeat product. The output block is stored at tile 3 only, from the
  accumulator; at the other tiles the output window is idle and keeps what it held.
-/
import proofs.«112653_j60352880443527_1_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, as contents -/

theorem scover0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x2 : Vec F S2048x128 .f32) (y : S1024x128.Idx) :
    ∃ pc ∈ (kernelRun0_A c i arg2 harg2 arg3 harg3 arg4 harg4 arg5 harg5 arg6 harg6 arg7 harg7 hc0 hc1 x0 x2).1, y ∈ pc.1.set :=
  View.cover_of_tiledL (kernelRun0_A c i arg2 harg2 arg3 harg3 arg4 harg4 arg5 harg5 arg6 harg6 arg7 harg7 hc0 hc1 x0 x2).1 S1024x128.size (by sl_kernel_rfl) y
/-- What tile 0 leaves in the accumulator. -/
def sout0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x2 : Vec F S2048x128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x2).1)

theorem scover0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x2 : Vec F S2048x128 .f32) (xs : Vec F S1024x128 .f32) (y : S1024x128.Idx) :
    ∃ pc ∈ (kernelRun0_B c i arg2 harg2 arg3 harg3 arg4 harg4 arg5 harg5 arg6 harg6 arg7 harg7 hc0 hc1 x0 x2 xs).1, y ∈ pc.1.set :=
  View.cover_of_tiledL (kernelRun0_B c i arg2 harg2 arg3 harg3 arg4 harg4 arg5 harg5 arg6 harg6 arg7 harg7 hc0 hc1 x0 x2 xs).1 S1024x128.size (by sl_kernel_rfl) y
/-- What tiles 1 and 2 leave in the accumulator. -/
def sout0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x2 : Vec F S2048x128 .f32) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x2 xs).1)

theorem cover0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x128.size (by sl_kernel_rfl) y
/-- What tile 3 leaves in the output block's staging buffer. -/
def out0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) : Vec F S1024x128 .f32 :=
  VO0.read (Elt F) (VO0.writes (Elt F) VO0.junk (kernelRun0_C c i arg2 harg2 arg3 harg3 arg4 harg4 arg5 harg5 arg6 harg6 arg7 harg7 hc0 hc1 x0 x1 x2 x3 xs).1)
theorem scover0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x128.size (by sl_kernel_rfl) y
/-- What tile 3 leaves in the accumulator. -/
def sout0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## The accumulator after each point -/

/-- THE ACCUMULATION: what the accumulator holds after the body at position `n`. -/
def accAt0 (c : Dev nD) : (n : ℕ) → n < cfg0.N → Vec F S1024x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 2 ⟨0, hn⟩)
  | n + 1, hn =>
    if h1 : (n + 1) % 4 = 3 then
      if h0 : (n + 1) % 4 = 0 then False.elim (by omega)
      else sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      if h0 : (n + 1) % 4 = 0 then sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 2 ⟨n + 1, hn⟩)
      else sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 2 t) := by
  obtain ⟨n, hn⟩ := t
  cases n with
  | zero => exact rfl
  | succ n => exact (dif_neg h1).trans ((dif_pos h0).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans ((dif_neg h0).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans ((dif_neg h0).trans rfl)

/-- What the output block's staging buffer holds after the body: at tile 3 what that case stores; elsewhere the window is
    idle and this value is never consulted. -/
def outAt0 (c : Dev nD) (t : Fin cfg0.N) : Vec F S1024x128 .f32 :=
  if h1 : t.val % 4 = 3 then
    out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => (fun h0 : t.val % 4 = 0 => by omega) ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt))
  else VO0.read (Elt F) VO0.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  unfold outAt0; rw [dif_pos h1]

/-! ## The invariant: the accumulator carried from point to point -/

/-- Before position `n`: before the first point the class invariant (the accumulator at anything); afterwards the
    accumulator at what the point before left, the other scoped buffers at anything, the generator register. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ others0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ others0 c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ others0 c ∗ (∃ r, prngReg c r)) := by
  cases n with
  | zero => exact absurd rfl hz
  | succ n => rfl

/-! ## The pipeline's proof data -/

/-- The arrays as the region finds them; after the body each input's buffer at its block, the output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the tile says which case the point is in; the invariant
    hands the body the accumulator at what the point before left (at anything at the first point) and takes it back at
    this point's contents; at tile 3 the output block's buffer is left at what that case stores, elsewhere as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves0_in V c t).1, (leaves0_in V c t).2.1, (leaves0_in V c t).2.2.1, (leaves0_in V c t).2.2.2]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [outAt0_C V c t h0 h1, accAt0_C V c t h0 h1]
    unfold out0_C sout0_C; (try dsimp only)
    rw [PhiS0_castSucc V c t, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scover0_C c _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 4 = 0
    · rw [accAt0_A V c t h0 h1]
      unfold sout0_A; (try dsimp only)
      have hPhi : (dat0 V c).Φ t.castSucc ⊢ iprop((∃ d, owns (c : Thread nD τ) scM0 fullShare d) ∗ others0 c ∗ (∃ r, prngReg c r)) := by
        rw [PhiS0_castSucc V c t]
        by_cases hz : t.val = 0
        · rw [PhiS0_zero V c _ _ hz]; exact PhiA0_elim c
        · rw [PhiS0_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hPhi $$ HΦ
      icases HΦ' with ⟨HS, Hoth, Hg⟩
      iapply ((kernelRun0_A c (grid0.coords t) _ _ _ _ _ _ _ _ _ _ _ _ ((hcond0_0 t).mpr h0) (fun h => h1 ((hcond0_1 t).mp h)) (iblk0 V c 0 t) (iblk0 V c 2 t)).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover0_A c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [accAt0_B V c t h0 h1]
      unfold sout0_B; (try dsimp only)
      rw [PhiS0_castSucc V c t, PhiS0_pos V c _ _ hz]
      iintro ⟨⟨HS, Hoth, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 2 t) _).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover0_B c _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne]
  have h : (iprop(owns (c : Thread nD τ) scM0 fullShare (accAt0 V c ((Fin.last cfg0.N).val - 1) (by omega)) ∗ others0 c ∗ (∃ r, prngReg c r)) : sProp 𝕄)
      ⊢ iprop((∃ d, owns (c : Thread nD τ) scM0 fullShare d) ∗ others0 c ∗ (∃ r, prngReg c r)) := by
    iintro ⟨HS, Hoth, Hg⟩
    isplitl [HS]; · iexists _; iexact HS
    isplitl [Hoth]; · iexact Hoth
    iexact Hg
  exact h.trans (PhiA0_intro c)

end

end Cert.KernelIdeal.Hand

end
-- ==== Proof.R1Setup.lean ====
/-
  Region 1 (the second fused product): what the three control cases of its body share.

  The grid is 8 row blocks by 4 contraction tiles, a point t at row block t / 4 and tile t % 4. The body zeroes its
  accumulator at tile 0, adds the tile's product x·Wx at every tile, and at tile 3 adds hfeat·Wh and stores the accumulator
  into the output block. Here: a window's block read off the array the region finds, each input's staging buffer at its
  block whether or not it was fetched at the point, the two branch conditions decided over the grid, where the output
  window is idle, and the scoped buffers the kernel may use split into its accumulator and the others.
-/
import proofs.«112653_j60352880443527_1_alg».proof.Proof.Gen.KernelIdeal.Launch
import proofs.«112653_j60352880443527_1_alg».proof.Proof.Gen.KernelIdeal.Skeleton
import proofs.«112653_j60352880443527_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The first branch (zero the accumulator): the contraction tile is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch (add the hfeat product and store the output): the contraction tile is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from tile 3 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At tile 3 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1 : Memref sig .tc .vmem S1024x64 .f32 := Memref.whole cc1_scratch0
abbrev VS1 : View sig .tc .vmem S1024x64 .f32 := (scM1).view
/-- One staging buffer of the output window, through which its contents are stated. -/
abbrev VO1 : View sig .tc .vmem S1024x64 .f32 := (Memref.whole cc1_stg4_0 : Memref sig .tc .vmem S1024x64 .f32).view

/-! ## The scoped buffers the kernel may use -/

/-- The scoped buffers other than this region's accumulator and staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant opened: the accumulator at some contents, the others, the generator register. -/
theorem PhiA1_elim (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]
  iintro ⟨⟨H1, H2, H3, H4, H5, H6, H7, H8, H9, H10, Hs⟩, Hg⟩
  isplitl [Hs]
  · icases Hs with ⟨%f, Hs⟩; iexists f; rw [owns_whole]; iexact Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And closed again, whatever the accumulator holds. -/
theorem PhiA1_intro (c : Dev nD) :
    iprop((∃ d, owns (c : Thread nD τ) scM1 fullShare d) ∗ others1 c ∗ (∃ r, prngReg c r)) ⊢ (Pipeline.ΦA spec1 c : sProp 𝕄) := by
  unfold Pipeline.ΦA others1; rw [scopedRest1_eq]
  iintro ⟨Hs, ⟨H1, H2, H3, H4, H5, H6, H7, H8, H9, H10⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    icases Hs with ⟨%d, Hs⟩; iexists d; rw [← owns_whole]; iexact Hs
  iexact Hg

end Cert.KernelIdeal.Hand

end
-- ==== Proof.R1RunA.lean ====
/-
  Region 1, the body at a point of tile 0: the accumulator is zeroed, then the tile's product is added.
  On whole memrefs holding the blocks, the body runs to the end; what it leaves in each buffer it writes is the list of
  its stores there, last first, which the run itself finds.
-/
import proofs.«112653_j60352880443527_1_alg».proof.Proof.R1Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x2048 .f32) (x2 : Vec F S2048x64 .f32) :
    { LS : List (View.Piece (Elt F) S1024x64 .f32) //
      ∀ (E : Set ℕ) (K : PUnit → sProp 𝕄),
        iprop(owns (c : Thread nD τ) arg2 fullShare x0 ∗ owns (c : Thread nD τ) arg4 fullShare x2 ∗ (∃ d, owns (c : Thread nD τ) arg7 fullShare d)
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, fun E K => ?run⟩
  case run =>
    simp only [cc1__linear_fused_kernel_eq_skeleton]; unfold cc1__linear_fused_kernel_skel
    unfold owns
    iintro ⟨⟨%f0, %hf0, H0⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.KernelIdeal.Hand

end
-- ==== Proof.R1RunB.lean ====
/-
  Region 1, the body at a point of tiles 1 and 2: the tile's product is added to the accumulator the point before left.
  On whole memrefs holding the blocks, the body runs to the end; what it leaves in each buffer it writes is the list of
  its stores there, last first, which the run itself finds.
-/
import proofs.«112653_j60352880443527_1_alg».proof.Proof.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x2048 .f32) (x2 : Vec F S2048x64 .f32) (xs : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg4 fullShare x2 ∗ owns (c : Thread nD τ) arg7 fullShare xs
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, fun E K => ?run⟩
  case run =>
    simp only [cc1__linear_fused_kernel_eq_skeleton]; unfold cc1__linear_fused_kernel_skel
    unfold owns
    iintro ⟨⟨%f0, %hf0, H0⟩, ⟨%f2, %hf2, H2⟩, ⟨%fs, %hfs, HS⟩, Hk⟩
    obtain rfl := harg2.eq_unread hf0; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.KernelIdeal.Hand

end
-- ==== Proof.R1RunC.lean ====
/-
  Region 1, the body at a point of tile 3: the tile's product and the hfeat product are added, and the accumulator is stored into the output block.
  On whole memrefs holding the blocks, the body runs to the end; what it leaves in each buffer it writes is the list of
  its stores there, last first, which the run itself finds.
-/
import proofs.«112653_j60352880443527_1_alg».proof.Proof.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x2048 .f32) (x1 : Vec F S1024x64 .f32) (x2 : Vec F S2048x64 .f32) (x3 : Vec F S64x64 .f32) (xs : Vec F S1024x64 .f32) :
    Σ' (L4 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, ?_, fun E K => ?run⟩
  case run =>
    simp only [cc1__linear_fused_kernel_eq_skeleton]; unfold cc1__linear_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.R1Frame.lean ====
/-
  Region 1: the accumulator after each grid point, the proof data of the pipeline, and the body obligation.

  After point n the accumulator holds: at tile 0 the tile's product added to zero; at tiles 1 and 2 the tile's product added
  to what point n - 1 left; at tile 3 that and the hfeat product. The output block is stored at tile 3 only, from the
  accumulator; at the other tiles the output window is idle and keeps what it held.
-/
import proofs.«112653_j60352880443527_1_alg».proof.Proof.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, as contents -/

theorem scover1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i) (x0 : Vec F S1024x2048 .f32) (x2 : Vec F S2048x64 .f32) (y : S1024x64.Idx) :
    ∃ pc ∈ (kernelRun1_A c i arg2 harg2 arg3 harg3 arg4 harg4 arg5 harg5 arg6 harg6 arg7 harg7 hc0 hc1 x0 x2).1, y ∈ pc.1.set :=
  View.cover_of_tiledL (kernelRun1_A c i arg2 harg2 arg3 harg3 arg4 harg4 arg5 harg5 arg6 harg6 arg7 harg7 hc0 hc1 x0 x2).1 S1024x64.size (by sl_kernel_rfl) y
/-- What tile 0 leaves in the accumulator. -/
def sout1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i) (x0 : Vec F S1024x2048 .f32) (x2 : Vec F S2048x64 .f32) : Vec F S1024x64 .f32 :=
  VS1.read (Elt F) (VS1.writes (Elt F) VS1.junk (kernelRun1_A c i arg2 harg2 arg3 harg3 arg4 harg4 arg5 harg5 arg6 harg6 arg7 harg7 hc0 hc1 x0 x2).1)

theorem scover1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i) (x0 : Vec F S1024x2048 .f32) (x2 : Vec F S2048x64 .f32) (xs : Vec F S1024x64 .f32) (y : S1024x64.Idx) :
    ∃ pc ∈ (kernelRun1_B c i arg2 harg2 arg3 harg3 arg4 harg4 arg5 harg5 arg6 harg6 arg7 harg7 hc0 hc1 x0 x2 xs).1, y ∈ pc.1.set :=
  View.cover_of_tiledL (kernelRun1_B c i arg2 harg2 arg3 harg3 arg4 harg4 arg5 harg5 arg6 harg6 arg7 harg7 hc0 hc1 x0 x2 xs).1 S1024x64.size (by sl_kernel_rfl) y
/-- What tiles 1 and 2 leave in the accumulator. -/
def sout1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i) (x0 : Vec F S1024x2048 .f32) (x2 : Vec F S2048x64 .f32) (xs : Vec F S1024x64 .f32) : Vec F S1024x64 .f32 :=
  VS1.read (Elt F) (VS1.writes (Elt F) VS1.junk (kernelRun1_B c i arg2 harg2 arg3 harg3 arg4 harg4 arg5 harg5 arg6 harg6 arg7 harg7 hc0 hc1 x0 x2 xs).1)

theorem cover1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) (y : S1024x64.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S1024x64.size (by sl_kernel_rfl) y
/-- What tile 3 leaves in the output block's staging buffer. -/
def out1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) : Vec F S1024x64 .f32 :=
  VO1.read (Elt F) (VO1.writes (Elt F) VO1.junk (kernelRun1_C c i arg2 harg2 arg3 harg3 arg4 harg4 arg5 harg5 arg6 harg6 arg7 harg7 hc0 hc1 x0 x1 x2 x3 xs).1)
theorem scover1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) (y : S1024x64.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S1024x64.size (by sl_kernel_rfl) y
/-- What tile 3 leaves in the accumulator. -/
def sout1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) : Vec F S1024x64 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## The accumulator after each point -/

/-- THE ACCUMULATION: what the accumulator holds after the body at position `n`. -/
def accAt1 (c : Dev nD) : (n : ℕ) → n < cfg1.N → Vec F S1024x64 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩)
  | n + 1, hn =>
    if h1 : (n + 1) % 4 = 3 then
      if h0 : (n + 1) % 4 = 0 then False.elim (by omega)
      else sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      if h0 : (n + 1) % 4 = 0 then sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩)
      else sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 2 t) := by
  obtain ⟨n, hn⟩ := t
  cases n with
  | zero => exact rfl
  | succ n => exact (dif_neg h1).trans ((dif_pos h0).trans rfl)

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans ((dif_neg h0).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans ((dif_neg h0).trans rfl)

/-- What the output block's staging buffer holds after the body: at tile 3 what that case stores; elsewhere the window is
    idle and this value is never consulted. -/
def outAt1 (c : Dev nD) (t : Fin cfg1.N) : Vec F S1024x64 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => (fun h0 : t.val % 4 = 0 => by omega) ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt))
  else VO1.read (Elt F) VO1.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  unfold outAt1; rw [dif_pos h1]

/-! ## The invariant: the accumulator carried from point to point -/

/-- Before position `n`: before the first point the class invariant (the accumulator at anything); afterwards the
    accumulator at what the point before left, the other scoped buffers at anything, the generator register. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ others1 c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ others1 c ∗ (∃ r, prngReg c r)) := by
  cases n with
  | zero => exact absurd rfl hz
  | succ n => rfl

/-! ## The pipeline's proof data -/

/-- The arrays as the region finds them; after the body each input's buffer at its block, the output's at `outAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) := by
  refine ⟨?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the tile says which case the point is in; the invariant
    hands the body the accumulator at what the point before left (at anything at the first point) and takes it back at
    this point's contents; at tile 3 the output block's buffer is left at what that case stores, elsewhere as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [(leaves1_in V c t).1, (leaves1_in V c t).2.1, (leaves1_in V c t).2.2.1, (leaves1_in V c t).2.2.2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outAt1_C V c t h0 h1, accAt1_C V c t h0 h1]
    unfold out1_C sout1_C; (try dsimp only)
    rw [PhiS1_castSucc V c t, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scover1_C c _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [accAt1_A V c t h0 h1]
      unfold sout1_A; (try dsimp only)
      have hPhi : (dat1 V c).Φ t.castSucc ⊢ iprop((∃ d, owns (c : Thread nD τ) scM1 fullShare d) ∗ others1 c ∗ (∃ r, prngReg c r)) := by
        rw [PhiS1_castSucc V c t]
        by_cases hz : t.val = 0
        · rw [PhiS1_zero V c _ _ hz]; exact PhiA1_elim c
        · rw [PhiS1_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hPhi $$ HΦ
      icases HΦ' with ⟨HS, Hoth, Hg⟩
      iapply ((kernelRun1_A c (grid1.coords t) _ _ _ _ _ _ _ _ _ _ _ _ ((hcond1_0 t).mpr h0) (fun h => h1 ((hcond1_1 t).mp h)) (iblk1 V c 0 t) (iblk1 V c 2 t)).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover1_A c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [accAt1_B V c t h0 h1]
      unfold sout1_B; (try dsimp only)
      rw [PhiS1_castSucc V c t, PhiS1_pos V c _ _ hz]
      iintro ⟨⟨HS, Hoth, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 2 t) _).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover1_B c _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  have h : (iprop(owns (c : Thread nD τ) scM1 fullShare (accAt1 V c ((Fin.last cfg1.N).val - 1) (by omega)) ∗ others1 c ∗ (∃ r, prngReg c r)) : sProp 𝕄)
      ⊢ iprop((∃ d, owns (c : Thread nD τ) scM1 fullShare d) ∗ others1 c ∗ (∃ r, prngReg c r)) := by
    iintro ⟨HS, Hoth, Hg⟩
    isplitl [HS]; · iexists _; iexact HS
    isplitl [Hoth]; · iexact Hoth
    iexact Hg
  exact h.trans (PhiA1_intro c)

end

end Cert.KernelIdeal.Hand

end
-- ==== Proof.TwoRegions.lean ====
/-
  The whole program: host operations, the first fused product, host operations, the second fused product, host operations.

  Between @main's items core c holds every unscoped buffer at a valuation: the launch contents, then each host stretch
  applied, then what a region leaves in its output array. What region 0 leaves in its output is the fold of its
  write-backs over the array it found; region 1 is entered from the contents so obtained, and leaves the fold of its own
  write-backs. Every weakly fair execution ends with every unscoped buffer at the last valuation.
-/
import proofs.«112653_j60352880443527_1_alg».proof.Proof.R0Frame
import proofs.«112653_j60352880443527_1_alg».proof.Proof.R1Frame
import proofs.«112653_j60352880443527_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- What region 0 is entered from: the launch contents after the first host stretch, read at a TensorCore reference. -/
abbrev entry0 : (c : Dev nD) → (b : Ref sig .tc) → Buf (Elt F) ((c : Thread nD τ).loc b) := fun c b => V1 m c b
/-- What region 0 leaves in its output array: its write-backs folded over what it found there. -/
def left0 (c : Dev nD) : Buf (Elt F) ((c : Thread nD τ).loc main_v8) := (dat0 (entry0 m) c).arrAt 4 cfg0.N
/-- The regions' leavings with only region 0's named. -/
def outs₁ : Outs (F := F) := fun _ r c => Function.update (V1 m c) main_v8 (left0 m c) (Proc.devRef .tc r)
/-- What region 1 is entered from. -/
abbrev entry1 : (c : Dev nD) → (b : Ref sig .tc) → Buf (Elt F) ((c : Thread nD τ).loc b) := fun c b => V5 m (outs₁ m) c b
/-- What region 1 leaves in its output array. -/
def left1 (c : Dev nD) : Buf (Elt F) ((c : Thread nD τ).loc main_v63) := (dat1 (entry1 m) c).arrAt 4 cfg1.N
/-- What the two regions leave. -/
def outs : Outs (F := F) := fun j r c =>
  if j = 6 then Function.update (V5 m (outs₁ m) c) main_v63 (left1 m c) (Proc.devRef .tc r) else outs₁ m j r c

theorem outs₁_2 (c : Dev nD) : outs₁ m 2 main_v8 c = left0 m c := by
  unfold outs₁; exact Function.update_self _ _ _
theorem outs_2 (c : Dev nD) : outs m 2 main_v8 c = left0 m c := by
  unfold outs; rw [if_neg (by decide)]; exact outs₁_2 m c
theorem outs_6 (c : Dev nD) : outs m 6 main_v63 c = left1 m c := by
  unfold outs; rw [if_pos rfl]; exact Function.update_self _ _ _
/-- Up to region 1's entry the valuations read only region 0's leaving. -/
theorem V2_outs (c : Dev nD) : V2 m (outs m) c = V2 m (outs₁ m) c := by
  show Function.update (V1 m c) main_v8 (outs m 2 main_v8 c) = Function.update (V1 m c) main_v8 (outs₁ m 2 main_v8 c)
  rw [outs_2, outs₁_2]
theorem V5_outs (c : Dev nD) : V5 m (outs m) c = V5 m (outs₁ m) c := by
  show StableHlo.after hostOps1_2 (StableHlo.after hostOps1_1 (StableHlo.after hostOps1 (V2 m (outs m) c))) = StableHlo.after hostOps1_2 (StableHlo.after hostOps1_1 (StableHlo.after hostOps1 (V2 m (outs₁ m) c)))
  rw [V2_outs]

/-! ## The regions' arrays at their exits -/

theorem hF0_4 (c : Dev nD) : (dat0 (entry0 m) c).arrAt 4 cfg0.N = V2 m (outs m) c (Pipeline.arrRef spec0 4) := by
  show left0 m c = Function.update (V1 m c) main_v8 (outs m 2 main_v8 c) (Proc.devRef .tc main_v8)
  rw [Function.update_self]; exact (outs_2 m c).symm
theorem hF0 (c : Dev nD) (w : Fin cfg0.W) : (dat0 (entry0 m) c).arrAt w cfg0.N = V2 m (outs m) c (Pipeline.arrRef spec0 w) := by
  match w with
  | ⟨0, _⟩ => exact ((dat0 (entry0 m) c).arrAt_in 0 rfl _).trans ((A_eq0 (entry0 m) c 0).trans (V2_of m (outs m) c _ (by decide)).symm)
  | ⟨1, _⟩ => exact ((dat0 (entry0 m) c).arrAt_in 1 rfl _).trans ((A_eq0 (entry0 m) c 1).trans (V2_of m (outs m) c _ (by decide)).symm)
  | ⟨2, _⟩ => exact ((dat0 (entry0 m) c).arrAt_in 2 rfl _).trans ((A_eq0 (entry0 m) c 2).trans (V2_of m (outs m) c _ (by decide)).symm)
  | ⟨3, _⟩ => exact ((dat0 (entry0 m) c).arrAt_in 3 rfl _).trans ((A_eq0 (entry0 m) c 3).trans (V2_of m (outs m) c _ (by decide)).symm)
  | ⟨4, _⟩ => exact hF0_4 m c
theorem hrest0 (c : Dev nD) : ∀ b, b ∉ Finset.univ.image (Pipeline.arrRef spec0) → V2 m (outs m) c b = entry0 m c b :=
  fun b hb => V2_of m (outs m) c b (fun h => hb (Finset.mem_image.mpr ⟨4, Finset.mem_univ _, (List.mem_singleton.mp h).symm⟩))

theorem hF1_4 (c : Dev nD) : (dat1 (entry1 m) c).arrAt 4 cfg1.N = V6 m (outs m) c (Pipeline.arrRef spec1 4) := by
  show left1 m c = Function.update (V5 m (outs m) c) main_v63 (outs m 6 main_v63 c) (Proc.devRef .tc main_v63)
  rw [Function.update_self]; exact (outs_6 m c).symm
theorem hF1 (c : Dev nD) (w : Fin cfg1.W) : (dat1 (entry1 m) c).arrAt w cfg1.N = V6 m (outs m) c (Pipeline.arrRef spec1 w) := by
  match w with
  | ⟨0, _⟩ => exact ((dat1 (entry1 m) c).arrAt_in 0 rfl _).trans ((A_eq1 (entry1 m) c 0).trans (((V6_of m (outs m) c _ (by decide)).trans (congrFun (V5_outs m c) _)).symm))
  | ⟨1, _⟩ => exact ((dat1 (entry1 m) c).arrAt_in 1 rfl _).trans ((A_eq1 (entry1 m) c 1).trans (((V6_of m (outs m) c _ (by decide)).trans (congrFun (V5_outs m c) _)).symm))
  | ⟨2, _⟩ => exact ((dat1 (entry1 m) c).arrAt_in 2 rfl _).trans ((A_eq1 (entry1 m) c 2).trans (((V6_of m (outs m) c _ (by decide)).trans (congrFun (V5_outs m c) _)).symm))
  | ⟨3, _⟩ => exact ((dat1 (entry1 m) c).arrAt_in 3 rfl _).trans ((A_eq1 (entry1 m) c 3).trans (((V6_of m (outs m) c _ (by decide)).trans (congrFun (V5_outs m c) _)).symm))
  | ⟨4, _⟩ => exact hF1_4 m c
theorem hrest1 (c : Dev nD) : ∀ b, b ∉ Finset.univ.image (Pipeline.arrRef spec1) → V6 m (outs m) c b = entry1 m c b :=
  fun b hb => (V6_of m (outs m) c b (fun h => hb (Finset.mem_image.mpr ⟨4, Finset.mem_univ _, (List.mem_singleton.mp h).symm⟩))).trans (congrFun (V5_outs m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

-- a library lemma stated over `pin pcs a p` unifies with the pinned configuration only when unification may unfold plain
-- definitions in a metavariable's type
set_option backward.isDefEq.respectTransparency.types false in
/-- Region 0 over the thread state: entered from every unscoped buffer at `V1 m`, left at `V2 m (outs m)`. Its arrays are split
    out of the unscoped buffers and put back at the exit contents; the generator register enters the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (entry0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem entry1_eq (c : Dev nD) : (StableHlo.held (c : Thread nD τ) (Pipeline.ucRefs τ sig) (V5 m (outs m) c) : sProp 𝕄) = StableHlo.held (c : Thread nD τ) (Pipeline.ucRefs τ sig) (V5 m (outs₁ m) c) := by
  rw [V5_outs]

-- a library lemma stated over `pin pcs a p` unifies with the pinned configuration only when unification may unfold plain
-- definitions in a metavariable's type
set_option backward.isDefEq.respectTransparency.types false in
/-- Region 1 over the thread state: entered from every unscoped buffer at `V5 m (outs₁ m)`, left at `V6 m (outs m)`. Its arrays are split
    out of the unscoped buffers and put back at the exit contents; the generator register enters the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V5 m (outs₁ m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (entry1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.WholeRun.lean ====
/-
  The kernel program's run: from any memory with zero counters every weakly fair execution of @main terminates, nothing
  faulting, with every unscoped buffer at the last valuation of the fold through @main's items. Read at the argument
  arrays that is the frame; read at the result array it is the value the last host stretch computes from what the two
  regions left.
-/
import proofs.«112653_j60352880443527_1_alg».proof.Proof.TwoRegions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation, the generator register. -/
abbrev Tend (c : Dev nD) : sProp 𝕄 :=
  iprop(StableHlo.held (c : Thread nD τ) (Pipeline.ucRefs τ sig) (V7 m (outs m) c) ∗ ∃ r, prngReg c r)

-- the library theorem's implicit arguments are found by unifying its conclusion with this one, which takes unfolding
-- plain definitions in a metavariable's type
set_option backward.isDefEq.respectTransparency.types false in
set_option maxHeartbeats 4000000 in
/-- THE RUN. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv ER () (pdats m) (reg0 m) (reg1 m))
    (fun c Q => by
      rewrite [main_chain c, Pipeline.Seg.run_eq_chain,
        show (segs m (outs m) 𝒱₀ L lv ER () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tend m)
    (hch := fun c => ⟨.rfl, .rfl, .rfl, .rfl, .rfl,
      (by
        show (iprop(StableHlo.held (c : Thread nD τ) (Pipeline.ucRefs τ sig) (V5 m (outs m) c) ∗ R c) : sProp 𝕄)
          ⊢ iprop(StableHlo.held (c : Thread nD τ) (Pipeline.ucRefs τ sig) (V5 m (outs₁ m) c) ∗ R c)
        rw [V5_outs]),
      .rfl,
      (by
        show (iprop(StableHlo.held (c : Thread nD τ) (Pipeline.ucRefs τ sig) (V7 m (outs m) c) ∗ R c) : sProp 𝕄)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V7 m (outs m) c) s')
      isplitl [Hh] <;> iassumption)
    (hQ := fun s h c => h c)

/-- THE FRAME: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c)⟩) (run_all m ρ)

end Cert.KernelIdeal.Hand

end
-- ==== Proof.BR0Setup.lean ====
/-
  Region 0 (the first fused product): what the three control cases of its body share.

  The grid is 8 row blocks by 4 contraction tiles, a point t at row block t / 4 and tile t % 4. The body zeroes its
  accumulator at tile 0, adds the tile's product x·Wx at every tile, and at tile 3 adds hfeat·Wh and stores the accumulator
  into the output block. Here: a window's block read off the array the region finds, each input's staging buffer at its
  block whether or not it was fetched at the point, the two branch conditions decided over the grid, where the output
  window is idle, and the scoped buffers the kernel may use split into its accumulator and the others.
-/
import proofs.«112653_j60352880443527_1_alg».proof.Proof.Gen.Kernel.Launch
import proofs.«112653_j60352880443527_1_alg».proof.Proof.Gen.Kernel.Skeleton
import proofs.«112653_j60352880443527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions over the grid -/

/-- The first branch (zero the accumulator): the contraction tile is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (add the hfeat product and store the output): the contraction tile is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from tile 3 the output window is idle and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At tile 3 it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The accumulator: a whole scoped buffer of the kernel's own, carried from point to point. -/
abbrev scM0 : Memref sig .tc .vmem S1024x128 .f32 := Memref.whole cc0_scratch0
abbrev VS0 : View sig .tc .vmem S1024x128 .f32 := (scM0).view
/-- One staging buffer of the output window, through which its contents are stated. -/
abbrev VO0 : View sig .tc .vmem S1024x128 .f32 := (Memref.whole cc0_stg4_0 : Memref sig .tc .vmem S1024x128 .f32).view

/-! ## The scoped buffers the kernel may use -/

/-- The scoped buffers other than this region's accumulator and staging buffers, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant opened: the accumulator at some contents, the others, the generator register. -/
theorem PhiA0_elim (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]
  iintro ⟨⟨Hs, H1, H2, H3, H4, H5, H6, H7, H8, H9, H10⟩, Hg⟩
  isplitl [Hs]
  · icases Hs with ⟨%f, Hs⟩; iexists f; rw [owns_whole]; iexact Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And closed again, whatever the accumulator holds. -/
theorem PhiA0_intro (c : Dev nD) :
    iprop((∃ d, owns (c : Thread nD τ) scM0 fullShare d) ∗ others0 c ∗ (∃ r, prngReg c r)) ⊢ (Pipeline.ΦA spec0 c : sProp 𝕄) := by
  unfold Pipeline.ΦA others0; rw [scopedRest0_eq]
  iintro ⟨Hs, ⟨H1, H2, H3, H4, H5, H6, H7, H8, H9, H10⟩, Hg⟩
  isplitr [Hg]
  · isplitl [Hs]
    · icases Hs with ⟨%d, Hs⟩; iexists d; rw [← owns_whole]; iexact Hs
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

end Cert.Kernel.Hand

end
-- ==== Proof.BR0RunA.lean ====
/-
  Region 0, the body at a point of tile 0: the accumulator is zeroed, then the tile's product is added.
  On whole memrefs holding the blocks, the body runs to the end; what it leaves in each buffer it writes is the list of
  its stores there, last first, which the run itself finds.
-/
import proofs.«112653_j60352880443527_1_alg».proof.Proof.BR0Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i)
    (x0 : Vec F S1024x2048 .f32) (x2 : Vec F S2048x128 .f32) :
    { LS : List (View.Piece (Elt F) S1024x128 .f32) //
      ∀ (E : Set ℕ) (K : PUnit → sProp 𝕄),
        iprop(owns (c : Thread nD τ) arg2 fullShare x0 ∗ owns (c : Thread nD τ) arg4 fullShare x2 ∗ (∃ d, owns (c : Thread nD τ) arg7 fullShare d)
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, fun E K => ?run⟩
  case run =>
    simp only [cc0__linear_fused_kernel_eq_skeleton]; unfold cc0__linear_fused_kernel_skel
    unfold owns
    iintro ⟨⟨%f0, %hf0, H0⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.Kernel.Hand

end
-- ==== Proof.BR0RunB.lean ====
/-
  Region 0, the body at a point of tiles 1 and 2: the tile's product is added to the accumulator the point before left.
  On whole memrefs holding the blocks, the body runs to the end; what it leaves in each buffer it writes is the list of
  its stores there, last first, which the run itself finds.
-/
import proofs.«112653_j60352880443527_1_alg».proof.Proof.BR0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i)
    (x0 : Vec F S1024x2048 .f32) (x2 : Vec F S2048x128 .f32) (xs : Vec F S1024x128 .f32) :
    { LS : List (View.Piece (Elt F) S1024x128 .f32) //
      ∀ (E : Set ℕ) (K : PUnit → sProp 𝕄),
        iprop(owns (c : Thread nD τ) arg2 fullShare x0 ∗ owns (c : Thread nD τ) arg4 fullShare x2 ∗ owns (c : Thread nD τ) arg7 fullShare xs
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, fun E K => ?run⟩
  case run =>
    simp only [cc0__linear_fused_kernel_eq_skeleton]; unfold cc0__linear_fused_kernel_skel
    unfold owns
    iintro ⟨⟨%f0, %hf0, H0⟩, ⟨%f2, %hf2, H2⟩, ⟨%fs, %hfs, HS⟩, Hk⟩
    obtain rfl := harg2.eq_unread hf0; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.Kernel.Hand

end
-- ==== Proof.BR0RunC.lean ====
/-
  Region 0, the body at a point of tile 3: the tile's product and the hfeat product are added, and the accumulator is stored into the output block.
  On whole memrefs holding the blocks, the body runs to the end; what it leaves in each buffer it writes is the list of
  its stores there, last first, which the run itself finds.
-/
import proofs.«112653_j60352880443527_1_alg».proof.Proof.BR0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i)
    (x0 : Vec F S1024x2048 .f32) (x1 : Vec F S1024x64 .f32) (x2 : Vec F S2048x128 .f32) (x3 : Vec F S64x128 .f32) (xs : Vec F S1024x128 .f32) :
    Σ' (L4 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__linear_fused_kernel i arg2 harg2 arg3 harg3 arg4 harg4 arg5 harg5 arg6 harg6 arg7 harg7) K } := by
  refine ⟨?_, ?_, fun E K => ?run⟩
  case run =>
    simp only [cc0__linear_fused_kernel_eq_skeleton]; unfold cc0__linear_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.BR0Frame.lean ====
/-
  Region 0: the accumulator after each grid point, the proof data of the pipeline, and the body obligation.

  After point n the accumulator holds: at tile 0 the tile's product added to zero; at tiles 1 and 2 the tile's product added
  to what point n - 1 left; at tile 3 that and the hfeat product. The output block is stored at tile 3 only, from the
  accumulator; at the other tiles the output window is idle and keeps what it held.
-/
import proofs.«112653_j60352880443527_1_alg».proof.Proof.BR0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, as contents -/

theorem scover0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x2 : Vec F S2048x128 .f32) (y : S1024x128.Idx) :
    ∃ pc ∈ (kernelRun0_A c i arg2 harg2 arg3 harg3 arg4 harg4 arg5 harg5 arg6 harg6 arg7 harg7 hc0 hc1 x0 x2).1, y ∈ pc.1.set :=
  View.cover_of_tiledL (kernelRun0_A c i arg2 harg2 arg3 harg3 arg4 harg4 arg5 harg5 arg6 harg6 arg7 harg7 hc0 hc1 x0 x2).1 S1024x128.size (by sl_kernel_rfl) y
/-- What tile 0 leaves in the accumulator. -/
def sout0_A (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x2 : Vec F S2048x128 .f32) : Vec F S1024x128 .f32 :=
  VS0.read (Elt F) (VS0.writes (Elt F) VS0.junk (kernelRun0_A c i arg2 harg2 arg3 harg3 arg4 harg4 arg5 harg5 arg6 harg6 arg7 harg7 hc0 hc1 x0 x2).1)

theorem scover0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x2 : Vec F S2048x128 .f32) (xs : Vec F S1024x128 .f32) (y : S1024x128.Idx) :
    ∃ pc ∈ (kernelRun0_B c i arg2 harg2 arg3 harg3 arg4 harg4 arg5 harg5 arg6 harg6 arg7 harg7 hc0 hc1 x0 x2 xs).1, y ∈ pc.1.set :=
  View.cover_of_tiledL (kernelRun0_B c i arg2 harg2 arg3 harg3 arg4 harg4 arg5 harg5 arg6 harg6 arg7 harg7 hc0 hc1 x0 x2 xs).1 S1024x128.size (by sl_kernel_rfl) y
/-- What tiles 1 and 2 leave in the accumulator. -/
def sout0_B (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x2 : Vec F S2048x128 .f32) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 hc0 hc1 x0 x2 xs).1)

theorem cover0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x128.size (by sl_kernel_rfl) y
/-- What tile 3 leaves in the output block's staging buffer. -/
def out0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) : Vec F S1024x128 .f32 :=
  VO0.read (Elt F) (VO0.writes (Elt F) VO0.junk (kernelRun0_C c i arg2 harg2 arg3 harg3 arg4 harg4 arg5 harg5 arg6 harg6 arg7 harg7 hc0 hc1 x0 x1 x2 x3 xs).1)
theorem scover0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) (y : S1024x128.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x128.size (by sl_kernel_rfl) y
/-- What tile 3 leaves in the accumulator. -/
def sout0_C (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## The accumulator after each point -/

/-- THE ACCUMULATION: what the accumulator holds after the body at position `n`. -/
def accAt0 (c : Dev nD) : (n : ℕ) → n < cfg0.N → Vec F S1024x128 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 2 ⟨0, hn⟩)
  | n + 1, hn =>
    if h1 : (n + 1) % 4 = 3 then
      if h0 : (n + 1) % 4 = 0 then False.elim (by omega)
      else sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      if h0 : (n + 1) % 4 = 0 then sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 2 ⟨n + 1, hn⟩)
      else sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 2 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 2 t) := by
  obtain ⟨n, hn⟩ := t
  cases n with
  | zero => exact rfl
  | succ n => exact (dif_neg h1).trans ((dif_pos h0).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans ((dif_neg h0).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans ((dif_neg h0).trans rfl)

/-- What the output block's staging buffer holds after the body: at tile 3 what that case stores; elsewhere the window is
    idle and this value is never consulted. -/
def outAt0 (c : Dev nD) (t : Fin cfg0.N) : Vec F S1024x128 .f32 :=
  if h1 : t.val % 4 = 3 then
    out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => (fun h0 : t.val % 4 = 0 => by omega) ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt))
  else VO0.read (Elt F) VO0.junk

theorem outAt0_C (c : Dev nD) (t : Fin cfg0.N) (h0 : ¬t.val % 4 = 0) (h1 : t.val % 4 = 3) :
    outAt0 V c t = out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  unfold outAt0; rw [dif_pos h1]

/-! ## The invariant: the accumulator carried from point to point -/

/-- Before position `n`: before the first point the class invariant (the accumulator at anything); afterwards the
    accumulator at what the point before left, the other scoped buffers at anything, the generator register. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ others0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ others0 c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ others0 c ∗ (∃ r, prngReg c r)) := by
  cases n with
  | zero => exact absurd rfl hz
  | succ n => rfl

/-! ## The pipeline's proof data -/

/-- The arrays as the region finds them; after the body each input's buffer at its block, the output's at `outAt0`;
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the tile says which case the point is in; the invariant
    hands the body the accumulator at what the point before left (at anything at the first point) and takes it back at
    this point's contents; at tile 3 the output block's buffer is left at what that case stores, elsewhere as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [(leaves0_in V c t).1, (leaves0_in V c t).2.1, (leaves0_in V c t).2.2.1, (leaves0_in V c t).2.2.2]
  have hN : t.val < 32 := lt_of_lt_of_eq t.isLt (show cfg0.N = 32 from N_0)
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [outAt0_C V c t h0 h1, accAt0_C V c t h0 h1]
    unfold out0_C sout0_C; (try dsimp only)
    rw [PhiS0_castSucc V c t, PhiS0_pos V c _ _ hz]
    iintro ⟨⟨HS, Hoth, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scover0_C c _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val % 4 = 0
    · rw [accAt0_A V c t h0 h1]
      unfold sout0_A; (try dsimp only)
      have hPhi : (dat0 V c).Φ t.castSucc ⊢ iprop((∃ d, owns (c : Thread nD τ) scM0 fullShare d) ∗ others0 c ∗ (∃ r, prngReg c r)) := by
        rw [PhiS0_castSucc V c t]
        by_cases hz : t.val = 0
        · rw [PhiS0_zero V c _ _ hz]; exact PhiA0_elim c
        · rw [PhiS0_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hPhi $$ HΦ
      icases HΦ' with ⟨HS, Hoth, Hg⟩
      iapply ((kernelRun0_A c (grid0.coords t) _ _ _ _ _ _ _ _ _ _ _ _ ((hcond0_0 t).mpr h0) (fun h => h1 ((hcond0_1 t).mp h)) (iblk0 V c 0 t) (iblk0 V c 2 t)).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover0_A c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [accAt0_B V c t h0 h1]
      unfold sout0_B; (try dsimp only)
      rw [PhiS0_castSucc V c t, PhiS0_pos V c _ _ hz]
      iintro ⟨⟨HS, Hoth, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 2 t) _).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover0_B c _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne]
  have h : (iprop(owns (c : Thread nD τ) scM0 fullShare (accAt0 V c ((Fin.last cfg0.N).val - 1) (by omega)) ∗ others0 c ∗ (∃ r, prngReg c r)) : sProp 𝕄)
      ⊢ iprop((∃ d, owns (c : Thread nD τ) scM0 fullShare d) ∗ others0 c ∗ (∃ r, prngReg c r)) := by
    iintro ⟨HS, Hoth, Hg⟩
    isplitl [HS]; · iexists _; iexact HS
    isplitl [Hoth]; · iexact Hoth
    iexact Hg
  exact h.trans (PhiA0_intro c)

end

end Cert.Kernel.Hand

end
-- ==== Proof.BR1Setup.lean ====
/-
  Region 1 (the second fused product): what the three control cases of its body share.

  The grid is 8 row blocks by 4 contraction tiles, a point t at row block t / 4 and tile t % 4. The body zeroes its
  accumulator at tile 0, adds the tile's product x·Wx at every tile, and at tile 3 adds hfeat·Wh and stores the accumulator
  into the output block. Here: a window's block read off the array the region finds, each input's staging buffer at its
  block whether or not it was fetched at the point, the two branch conditions decided over the grid, where the output
  window is idle, and the scoped buffers the kernel may use split into its accumulator and the others.
-/
import proofs.«112653_j60352880443527_1_alg».proof.Proof.Gen.Kernel.Launch
import proofs.«112653_j60352880443527_1_alg».proof.Proof.Gen.Kernel.Skeleton
import proofs.«112653_j60352880443527_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The first branch (zero the accumulator): the contraction tile is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second branch (add the hfeat product and store the output): the contraction tile is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from tile 3 the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At tile 3 it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from point to point. -/
abbrev scM1 : Memref sig .tc .vmem S1024x64 .f32 := Memref.whole cc1_scratch0
abbrev VS1 : View sig .tc .vmem S1024x64 .f32 := (scM1).view
/-- One staging buffer of the output window, through which its contents are stated. -/
abbrev VO1 : View sig .tc .vmem S1024x64 .f32 := (Memref.whole cc1_stg4_0 : Memref sig .tc .vmem S1024x64 .f32).view

/-! ## The scoped buffers the kernel may use -/

/-- The scoped buffers other than this region's accumulator and staging buffers, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The class invariant opened: the accumulator at some contents, the others, the generator register. -/
theorem PhiA1_elim (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]
  iintro ⟨⟨H1, H2, H3, H4, H5, H6, H7, H8, H9, H10, Hs⟩, Hg⟩
  isplitl [Hs]
  · icases Hs with ⟨%f, Hs⟩; iexists f; rw [owns_whole]; iexact Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And closed again, whatever the accumulator holds. -/
theorem PhiA1_intro (c : Dev nD) :
    iprop((∃ d, owns (c : Thread nD τ) scM1 fullShare d) ∗ others1 c ∗ (∃ r, prngReg c r)) ⊢ (Pipeline.ΦA spec1 c : sProp 𝕄) := by
  unfold Pipeline.ΦA others1; rw [scopedRest1_eq]
  iintro ⟨Hs, ⟨H1, H2, H3, H4, H5, H6, H7, H8, H9, H10⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    icases Hs with ⟨%d, Hs⟩; iexists d; rw [← owns_whole]; iexact Hs
  iexact Hg

end Cert.Kernel.Hand

end
-- ==== Proof.BR1RunA.lean ====
/-
  Region 1, the body at a point of tile 0: the accumulator is zeroed, then the tile's product is added.
  On whole memrefs holding the blocks, the body runs to the end; what it leaves in each buffer it writes is the list of
  its stores there, last first, which the run itself finds.
-/
import proofs.«112653_j60352880443527_1_alg».proof.Proof.BR1Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i)
    (x0 : Vec F S1024x2048 .f32) (x2 : Vec F S2048x64 .f32) :
    { LS : List (View.Piece (Elt F) S1024x64 .f32) //
      ∀ (E : Set ℕ) (K : PUnit → sProp 𝕄),
        iprop(owns (c : Thread nD τ) arg2 fullShare x0 ∗ owns (c : Thread nD τ) arg4 fullShare x2 ∗ (∃ d, owns (c : Thread nD τ) arg7 fullShare d)
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, fun E K => ?run⟩
  case run =>
    simp only [cc1__linear_fused_kernel_eq_skeleton]; unfold cc1__linear_fused_kernel_skel
    unfold owns
    iintro ⟨⟨%f0, %hf0, H0⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.Kernel.Hand

end
-- ==== Proof.BR1RunB.lean ====
/-
  Region 1, the body at a point of tiles 1 and 2: the tile's product is added to the accumulator the point before left.
  On whole memrefs holding the blocks, the body runs to the end; what it leaves in each buffer it writes is the list of
  its stores there, last first, which the run itself finds.
-/
import proofs.«112653_j60352880443527_1_alg».proof.Proof.BR1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i)
    (x0 : Vec F S1024x2048 .f32) (x2 : Vec F S2048x64 .f32) (xs : Vec F S1024x64 .f32) :
    { LS : List (View.Piece (Elt F) S1024x64 .f32) //
      ∀ (E : Set ℕ) (K : PUnit → sProp 𝕄),
        iprop(owns (c : Thread nD τ) arg2 fullShare x0 ∗ owns (c : Thread nD τ) arg4 fullShare x2 ∗ owns (c : Thread nD τ) arg7 fullShare xs
            ∗ (iprop(owns (c : Thread nD τ) arg2 fullShare x0 ∗ owns (c : Thread nD τ) arg4 fullShare x2 ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, fun E K => ?run⟩
  case run =>
    simp only [cc1__linear_fused_kernel_eq_skeleton]; unfold cc1__linear_fused_kernel_skel
    unfold owns
    iintro ⟨⟨%f0, %hf0, H0⟩, ⟨%f2, %hf2, H2⟩, ⟨%fs, %hfs, HS⟩, Hk⟩
    obtain rfl := harg2.eq_unread hf0; obtain rfl := harg4.eq_unread hf2; obtain rfl := harg7.eq_unread hfs
    sl_exec (disch := first | exact hc0 | exact hc1)
    sl_step
    iapply Hk
    isplitl [H0]
    · iexists _; isplitr; · ipureintro; exact harg2.read_unread _
      iexact H0
    isplitl [H2]
    · iexists _; isplitr; · ipureintro; exact harg4.read_unread _
      iexact H2
    iexists _; iexact HS

end Cert.Kernel.Hand

end
-- ==== Proof.BR1RunC.lean ====
/-
  Region 1, the body at a point of tile 3: the tile's product and the hfeat product are added, and the accumulator is stored into the output block.
  On whole memrefs holding the blocks, the body runs to the end; what it leaves in each buffer it writes is the list of
  its stores there, last first, which the run itself finds.
-/
import proofs.«112653_j60352880443527_1_alg».proof.Proof.BR1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body's triple in this case, with the pieces each written buffer ends with. -/
noncomputable def kernelRun1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i)
    (x0 : Vec F S1024x2048 .f32) (x1 : Vec F S1024x64 .f32) (x2 : Vec F S2048x64 .f32) (x3 : Vec F S64x64 .f32) (xs : Vec F S1024x64 .f32) :
    Σ' (L4 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__linear_fused_kernel i arg2 harg2 arg3 harg3 arg4 harg4 arg5 harg5 arg6 harg6 arg7 harg7) K } := by
  refine ⟨?_, ?_, fun E K => ?run⟩
  case run =>
    simp only [cc1__linear_fused_kernel_eq_skeleton]; unfold cc1__linear_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.BR1Frame.lean ====
/-
  Region 1: the accumulator after each grid point, the proof data of the pipeline, and the body obligation.

  After point n the accumulator holds: at tile 0 the tile's product added to zero; at tiles 1 and 2 the tile's product added
  to what point n - 1 left; at tile 3 that and the hfeat product. The output block is stored at tile 3 only, from the
  accumulator; at the other tiles the output window is idle and keeps what it held.
-/
import proofs.«112653_j60352880443527_1_alg».proof.Proof.BR1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, as contents -/

theorem scover1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i) (x0 : Vec F S1024x2048 .f32) (x2 : Vec F S2048x64 .f32) (y : S1024x64.Idx) :
    ∃ pc ∈ (kernelRun1_A c i arg2 harg2 arg3 harg3 arg4 harg4 arg5 harg5 arg6 harg6 arg7 harg7 hc0 hc1 x0 x2).1, y ∈ pc.1.set :=
  View.cover_of_tiledL (kernelRun1_A c i arg2 harg2 arg3 harg3 arg4 harg4 arg5 harg5 arg6 harg6 arg7 harg7 hc0 hc1 x0 x2).1 S1024x64.size (by sl_kernel_rfl) y
/-- What tile 0 leaves in the accumulator. -/
def sout1_A (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i) (x0 : Vec F S1024x2048 .f32) (x2 : Vec F S2048x64 .f32) : Vec F S1024x64 .f32 :=
  VS1.read (Elt F) (VS1.writes (Elt F) VS1.junk (kernelRun1_A c i arg2 harg2 arg3 harg3 arg4 harg4 arg5 harg5 arg6 harg6 arg7 harg7 hc0 hc1 x0 x2).1)

theorem scover1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i) (x0 : Vec F S1024x2048 .f32) (x2 : Vec F S2048x64 .f32) (xs : Vec F S1024x64 .f32) (y : S1024x64.Idx) :
    ∃ pc ∈ (kernelRun1_B c i arg2 harg2 arg3 harg3 arg4 harg4 arg5 harg5 arg6 harg6 arg7 harg7 hc0 hc1 x0 x2 xs).1, y ∈ pc.1.set :=
  View.cover_of_tiledL (kernelRun1_B c i arg2 harg2 arg3 harg3 arg4 harg4 arg5 harg5 arg6 harg6 arg7 harg7 hc0 hc1 x0 x2 xs).1 S1024x64.size (by sl_kernel_rfl) y
/-- What tiles 1 and 2 leave in the accumulator. -/
def sout1_B (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i) (x0 : Vec F S1024x2048 .f32) (x2 : Vec F S2048x64 .f32) (xs : Vec F S1024x64 .f32) : Vec F S1024x64 .f32 :=
  VS1.read (Elt F) (VS1.writes (Elt F) VS1.junk (kernelRun1_B c i arg2 harg2 arg3 harg3 arg4 harg4 arg5 harg5 arg6 harg6 arg7 harg7 hc0 hc1 x0 x2 xs).1)

theorem cover1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) (y : S1024x64.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S1024x64.size (by sl_kernel_rfl) y
/-- What tile 3 leaves in the output block's staging buffer. -/
def out1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) : Vec F S1024x64 .f32 :=
  VO1.read (Elt F) (VO1.writes (Elt F) VO1.junk (kernelRun1_C c i arg2 harg2 arg3 harg3 arg4 harg4 arg5 harg5 arg6 harg6 arg7 harg7 hc0 hc1 x0 x1 x2 x3 xs).1)
theorem scover1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) (y : S1024x64.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S1024x64.size (by sl_kernel_rfl) y
/-- What tile 3 leaves in the accumulator. -/
def sout1_C (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) : Vec F S1024x64 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

section
variable (V : (c : Dev nD) → (b : Ref sig .tc) → Buf (Elt F) ((c : Thread nD τ).loc b))

/-! ## The accumulator after each point -/

/-- THE ACCUMULATION: what the accumulator holds after the body at position `n`. -/
def accAt1 (c : Dev nD) : (n : ℕ) → n < cfg1.N → Vec F S1024x64 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 2 ⟨0, hn⟩)
  | n + 1, hn =>
    if h1 : (n + 1) % 4 = 3 then
      if h0 : (n + 1) % 4 = 0 then False.elim (by omega)
      else sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      if h0 : (n + 1) % 4 = 0 then sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 2 ⟨n + 1, hn⟩)
      else sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 2 ⟨n + 1, hn⟩) (accAt1 c n (Nat.lt_of_succ_lt hn))

theorem accAt1_A (c : Dev nD) (t : Fin cfg1.N) (h0 : t.val % 4 = 0) (h1 : ¬t.val % 4 = 3) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 2 t) := by
  obtain ⟨n, hn⟩ := t
  cases n with
  | zero => exact rfl
  | succ n => exact (dif_neg h1).trans ((dif_pos h0).trans rfl)

theorem accAt1_B (c : Dev nD) (t : Fin cfg1.N) (h0 : ¬t.val % 4 = 0) (h1 : ¬t.val % 4 = 3) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans ((dif_neg h0).trans rfl)

theorem accAt1_C (c : Dev nD) (t : Fin cfg1.N) (h0 : ¬t.val % 4 = 0) (h1 : t.val % 4 = 3) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans ((dif_neg h0).trans rfl)

/-- What the output block's staging buffer holds after the body: at tile 3 what that case stores; elsewhere the window is
    idle and this value is never consulted. -/
def outAt1 (c : Dev nD) (t : Fin cfg1.N) : Vec F S1024x64 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => (fun h0 : t.val % 4 = 0 => by omega) ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt))
  else VO1.read (Elt F) VO1.junk

theorem outAt1_C (c : Dev nD) (t : Fin cfg1.N) (h0 : ¬t.val % 4 = 0) (h1 : t.val % 4 = 3) :
    outAt1 V c t = out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  unfold outAt1; rw [dif_pos h1]

/-! ## The invariant: the accumulator carried from point to point -/

/-- Before position `n`: before the first point the class invariant (the accumulator at anything); afterwards the
    accumulator at what the point before left, the other scoped buffers at anything, the generator register. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ others1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ others1 c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ others1 c ∗ (∃ r, prngReg c r)) := by
  cases n with
  | zero => exact absurd rfl hz
  | succ n => rfl

/-! ## The pipeline's proof data -/

/-- The arrays as the region finds them; after the body each input's buffer at its block, the output's at `outAt1`;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem leaves1_in (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t) := by
  refine ⟨?_, ?_, ?_, ?_⟩
  · unfold Dat.leavesExact; rw [liveAt1_0 t, after1_0]
  · unfold Dat.leavesExact; rw [liveAt1_1 t, after1_1]
  · unfold Dat.leavesExact; rw [liveAt1_2 t, after1_2]
  · unfold Dat.leavesExact; rw [liveAt1_3 t, after1_3]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the tile says which case the point is in; the invariant
    hands the body the accumulator at what the point before left (at anything at the first point) and takes it back at
    this point's contents; at tile 3 the output block's buffer is left at what that case stores, elsewhere as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [(leaves1_in V c t).1, (leaves1_in V c t).2.1, (leaves1_in V c t).2.2.1, (leaves1_in V c t).2.2.2]
  have hN : t.val < 32 := lt_of_lt_of_eq t.isLt (show cfg1.N = 32 from N_1)
  by_cases h1 : t.val % 4 = 3
  · have h0 : ¬t.val % 4 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [outAt1_C V c t h0 h1, accAt1_C V c t h0 h1]
    unfold out1_C sout1_C; (try dsimp only)
    rw [PhiS1_castSucc V c t, PhiS1_pos V c _ _ hz]
    iintro ⟨⟨HS, Hoth, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hoth Hg]
    · isplitl [HS]
      · unfold owns; iexists _; isplitr
        swap; · iexact HS
        ipureintro; exact View.read_writes_of_cover _ _ _ _ _ (scover1_C c _ _ _ _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val % 4 = 0
    · rw [accAt1_A V c t h0 h1]
      unfold sout1_A; (try dsimp only)
      have hPhi : (dat1 V c).Φ t.castSucc ⊢ iprop((∃ d, owns (c : Thread nD τ) scM1 fullShare d) ∗ others1 c ∗ (∃ r, prngReg c r)) := by
        rw [PhiS1_castSucc V c t]
        by_cases hz : t.val = 0
        · rw [PhiS1_zero V c _ _ hz]; exact PhiA1_elim c
        · rw [PhiS1_pos V c _ _ hz]
          iintro ⟨HS, Hoth, Hg⟩
          isplitl [HS]; · iexists _; iexact HS
          isplitl [Hoth]; · iexact Hoth
          iexact Hg
      iintro ⟨HΦ, Ho, ⟨%d0, H0⟩, ⟨%d1, H1⟩, ⟨%d2, H2⟩, ⟨%d3, H3⟩, ⟨%d4, H4⟩⟩
      ihave HΦ' := hPhi $$ HΦ
      icases HΦ' with ⟨HS, Hoth, Hg⟩
      iapply ((kernelRun1_A c (grid1.coords t) _ _ _ _ _ _ _ _ _ _ _ _ ((hcond1_0 t).mpr h0) (fun h => h1 ((hcond1_1 t).mp h)) (iblk1 V c 0 t) (iblk1 V c 2 t)).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover1_A c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4
    · have hz : t.val ≠ 0 := fun e => h0 (by rw [e])
      rw [accAt1_B V c t h0 h1]
      unfold sout1_B; (try dsimp only)
      rw [PhiS1_castSucc V c t, PhiS1_pos V c _ _ hz]
      iintro ⟨⟨HS, Hoth, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 2 t) _).2 Set.univ _)
      isplitl [H0]; · iexact H0
      isplitl [H2]; · iexact H2
      isplitl [HS]; · iexact HS
      iintro ⟨H0, H2, ⟨%es, HS⟩⟩
      isplitl [HS Hoth Hg]
      · isplitl [HS]
        · unfold owns; iexists _; isplitr
          swap; · iexact HS
          ipureintro; exact View.read_writes_of_cover _ _ _ _ _ (scover1_B c _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  have h : (iprop(owns (c : Thread nD τ) scM1 fullShare (accAt1 V c ((Fin.last cfg1.N).val - 1) (by omega)) ∗ others1 c ∗ (∃ r, prngReg c r)) : sProp 𝕄)
      ⊢ iprop((∃ d, owns (c : Thread nD τ) scM1 fullShare d) ∗ others1 c ∗ (∃ r, prngReg c r)) := by
    iintro ⟨HS, Hoth, Hg⟩
    isplitl [HS]; · iexists _; iexact HS
    isplitl [Hoth]; · iexact Hoth
    iexact Hg
  exact h.trans (PhiA1_intro c)

end

end Cert.Kernel.Hand

end
-- ==== Proof.BTwoRegions.lean ====
/-
  The whole program: host operations, the first fused product, host operations, the second fused product, host operations.

  Between @main's items core c holds every unscoped buffer at a valuation: the launch contents, then each host stretch
  applied, then what a region leaves in its output array. What region 0 leaves in its output is the fold of its
  write-backs over the array it found; region 1 is entered from the contents so obtained, and leaves the fold of its own
  write-backs. Every weakly fair execution ends with every unscoped buffer at the last valuation.
-/
import proofs.«112653_j60352880443527_1_alg».proof.Proof.BR0Frame
import proofs.«112653_j60352880443527_1_alg».proof.Proof.BR1Frame
import proofs.«112653_j60352880443527_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- What region 0 is entered from: the launch contents after the first host stretch, read at a TensorCore reference. -/
abbrev entry0 : (c : Dev nD) → (b : Ref sig .tc) → Buf (Elt F) ((c : Thread nD τ).loc b) := fun c b => V1 m c b
/-- What region 0 leaves in its output array: its write-backs folded over what it found there. -/
def left0 (c : Dev nD) : Buf (Elt F) ((c : Thread nD τ).loc main_v8) := (dat0 (entry0 m) c).arrAt 4 cfg0.N
/-- The regions' leavings with only region 0's named. -/
def outs₁ : Outs (F := F) := fun _ r c => Function.update (V1 m c) main_v8 (left0 m c) (Proc.devRef .tc r)
/-- What region 1 is entered from. -/
abbrev entry1 : (c : Dev nD) → (b : Ref sig .tc) → Buf (Elt F) ((c : Thread nD τ).loc b) := fun c b => V5 m (outs₁ m) c b
/-- What region 1 leaves in its output array. -/
def left1 (c : Dev nD) : Buf (Elt F) ((c : Thread nD τ).loc main_v63) := (dat1 (entry1 m) c).arrAt 4 cfg1.N
/-- What the two regions leave. -/
def outs : Outs (F := F) := fun j r c =>
  if j = 6 then Function.update (V5 m (outs₁ m) c) main_v63 (left1 m c) (Proc.devRef .tc r) else outs₁ m j r c

theorem outs₁_2 (c : Dev nD) : outs₁ m 2 main_v8 c = left0 m c := by
  unfold outs₁; exact Function.update_self _ _ _
theorem outs_2 (c : Dev nD) : outs m 2 main_v8 c = left0 m c := by
  unfold outs; rw [if_neg (by decide)]; exact outs₁_2 m c
theorem outs_6 (c : Dev nD) : outs m 6 main_v63 c = left1 m c := by
  unfold outs; rw [if_pos rfl]; exact Function.update_self _ _ _
/-- Up to region 1's entry the valuations read only region 0's leaving. -/
theorem V2_outs (c : Dev nD) : V2 m (outs m) c = V2 m (outs₁ m) c := by
  show Function.update (V1 m c) main_v8 (outs m 2 main_v8 c) = Function.update (V1 m c) main_v8 (outs₁ m 2 main_v8 c)
  rw [outs_2, outs₁_2]
theorem V5_outs (c : Dev nD) : V5 m (outs m) c = V5 m (outs₁ m) c := by
  show StableHlo.after hostOps1_2 (StableHlo.after hostOps1_1 (StableHlo.after hostOps1 (V2 m (outs m) c))) = StableHlo.after hostOps1_2 (StableHlo.after hostOps1_1 (StableHlo.after hostOps1 (V2 m (outs₁ m) c)))
  rw [V2_outs]

/-! ## The regions' arrays at their exits -/

theorem hF0_4 (c : Dev nD) : (dat0 (entry0 m) c).arrAt 4 cfg0.N = V2 m (outs m) c (Pipeline.arrRef spec0 4) := by
  show left0 m c = Function.update (V1 m c) main_v8 (outs m 2 main_v8 c) (Proc.devRef .tc main_v8)
  rw [Function.update_self]; exact (outs_2 m c).symm
theorem hF0 (c : Dev nD) (w : Fin cfg0.W) : (dat0 (entry0 m) c).arrAt w cfg0.N = V2 m (outs m) c (Pipeline.arrRef spec0 w) := by
  match w with
  | ⟨0, _⟩ => exact ((dat0 (entry0 m) c).arrAt_in 0 rfl _).trans ((A_eq0 (entry0 m) c 0).trans (V2_of m (outs m) c _ (by decide)).symm)
  | ⟨1, _⟩ => exact ((dat0 (entry0 m) c).arrAt_in 1 rfl _).trans ((A_eq0 (entry0 m) c 1).trans (V2_of m (outs m) c _ (by decide)).symm)
  | ⟨2, _⟩ => exact ((dat0 (entry0 m) c).arrAt_in 2 rfl _).trans ((A_eq0 (entry0 m) c 2).trans (V2_of m (outs m) c _ (by decide)).symm)
  | ⟨3, _⟩ => exact ((dat0 (entry0 m) c).arrAt_in 3 rfl _).trans ((A_eq0 (entry0 m) c 3).trans (V2_of m (outs m) c _ (by decide)).symm)
  | ⟨4, _⟩ => exact hF0_4 m c
theorem hrest0 (c : Dev nD) : ∀ b, b ∉ Finset.univ.image (Pipeline.arrRef spec0) → V2 m (outs m) c b = entry0 m c b :=
  fun b hb => V2_of m (outs m) c b (fun h => hb (Finset.mem_image.mpr ⟨4, Finset.mem_univ _, (List.mem_singleton.mp h).symm⟩))

theorem hF1_4 (c : Dev nD) : (dat1 (entry1 m) c).arrAt 4 cfg1.N = V6 m (outs m) c (Pipeline.arrRef spec1 4) := by
  show left1 m c = Function.update (V5 m (outs m) c) main_v63 (outs m 6 main_v63 c) (Proc.devRef .tc main_v63)
  rw [Function.update_self]; exact (outs_6 m c).symm
theorem hF1 (c : Dev nD) (w : Fin cfg1.W) : (dat1 (entry1 m) c).arrAt w cfg1.N = V6 m (outs m) c (Pipeline.arrRef spec1 w) := by
  match w with
  | ⟨0, _⟩ => exact ((dat1 (entry1 m) c).arrAt_in 0 rfl _).trans ((A_eq1 (entry1 m) c 0).trans (((V6_of m (outs m) c _ (by decide)).trans (congrFun (V5_outs m c) _)).symm))
  | ⟨1, _⟩ => exact ((dat1 (entry1 m) c).arrAt_in 1 rfl _).trans ((A_eq1 (entry1 m) c 1).trans (((V6_of m (outs m) c _ (by decide)).trans (congrFun (V5_outs m c) _)).symm))
  | ⟨2, _⟩ => exact ((dat1 (entry1 m) c).arrAt_in 2 rfl _).trans ((A_eq1 (entry1 m) c 2).trans (((V6_of m (outs m) c _ (by decide)).trans (congrFun (V5_outs m c) _)).symm))
  | ⟨3, _⟩ => exact ((dat1 (entry1 m) c).arrAt_in 3 rfl _).trans ((A_eq1 (entry1 m) c 3).trans (((V6_of m (outs m) c _ (by decide)).trans (congrFun (V5_outs m c) _)).symm))
  | ⟨4, _⟩ => exact hF1_4 m c
theorem hrest1 (c : Dev nD) : ∀ b, b ∉ Finset.univ.image (Pipeline.arrRef spec1) → V6 m (outs m) c b = entry1 m c b :=
  fun b hb => (V6_of m (outs m) c b (fun h => hb (Finset.mem_image.mpr ⟨4, Finset.mem_univ _, (List.mem_singleton.mp h).symm⟩))).trans (congrFun (V5_outs m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

-- a library lemma stated over `pin pcs a p` unifies with the pinned configuration only when unification may unfold plain
-- definitions in a metavariable's type
set_option backward.isDefEq.respectTransparency.types false in
/-- Region 0 over the thread state: entered from every unscoped buffer at `V1 m`, left at `V2 m (outs m)`. Its arrays are split
    out of the unscoped buffers and put back at the exit contents; the generator register enters the invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (entry0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem entry1_eq (c : Dev nD) : (StableHlo.held (c : Thread nD τ) (Pipeline.ucRefs τ sig) (V5 m (outs m) c) : sProp 𝕄) = StableHlo.held (c : Thread nD τ) (Pipeline.ucRefs τ sig) (V5 m (outs₁ m) c) := by
  rw [V5_outs]

-- a library lemma stated over `pin pcs a p` unifies with the pinned configuration only when unification may unfold plain
-- definitions in a metavariable's type
set_option backward.isDefEq.respectTransparency.types false in
/-- Region 1 over the thread state: entered from every unscoped buffer at `V5 m (outs₁ m)`, left at `V6 m (outs m)`. Its arrays are split
    out of the unscoped buffers and put back at the exit contents; the generator register enters the invariant and comes
    back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V5 m (outs₁ m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (entry1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BWholeRun.lean ====
/-
  The kernel program's run: from any memory with zero counters every weakly fair execution of @main terminates, nothing
  faulting, with every unscoped buffer at the last valuation of the fold through @main's items. Read at the argument
  arrays that is the frame; read at the result array it is the value the last host stretch computes from what the two
  regions left.
-/
import proofs.«112653_j60352880443527_1_alg».proof.Proof.BTwoRegions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at the last valuation, the generator register. -/
abbrev Tend (c : Dev nD) : sProp 𝕄 :=
  iprop(StableHlo.held (c : Thread nD τ) (Pipeline.ucRefs τ sig) (V7 m (outs m) c) ∗ ∃ r, prngReg c r)

-- the library theorem's implicit arguments are found by unifying its conclusion with this one, which takes unfolding
-- plain definitions in a metavariable's type
set_option backward.isDefEq.respectTransparency.types false in
set_option maxHeartbeats 4000000 in
/-- THE RUN. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv ER () (pdats m) (reg0 m) (reg1 m))
    (fun c Q => by
      rewrite [main_chain c, Pipeline.Seg.run_eq_chain,
        show (segs m (outs m) 𝒱₀ L lv ER () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tend m)
    (hch := fun c => ⟨.rfl, .rfl, .rfl, .rfl, .rfl,
      (by
        show (iprop(StableHlo.held (c : Thread nD τ) (Pipeline.ucRefs τ sig) (V5 m (outs m) c) ∗ R c) : sProp 𝕄)
          ⊢ iprop(StableHlo.held (c : Thread nD τ) (Pipeline.ucRefs τ sig) (V5 m (outs₁ m) c) ∗ R c)
        rw [V5_outs]),
      .rfl,
      (by
        show (iprop(StableHlo.held (c : Thread nD τ) (Pipeline.ucRefs τ sig) (V7 m (outs m) c) ∗ R c) : sProp 𝕄)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V7 m (outs m) c) s')
      isplitl [Hh] <;> iassumption)
    (hQ := fun s h c => h c)

/-- THE FRAME: every argument array ends as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c)⟩) (run_all m ρ)

end Cert.Kernel.Hand

end
-- ==== Proof.Frames.lean ====
/-
  The frames of the word-level kernel program and of its idealization, and the idealized kernel program's run with its
  result array named: every weakly fair execution ends with the result at the last valuation's contents and every argument
  array as launched.
-/
import proofs.«112653_j60352880443527_1_alg».proof.Defs
import proofs.«112653_j60352880443527_1_alg».proof.Proof.Gen.Kernel
import proofs.«112653_j60352880443527_1_alg».proof.Proof.Gen.KernelIdeal
import proofs.«112653_j60352880443527_1_alg».proof.Proof.Gen.Pre_finite_inputs
import proofs.«112653_j60352880443527_1_alg».proof.Proof.WholeRun
import proofs.«112653_j60352880443527_1_alg».proof.Proof.BWholeRun

noncomputable section

namespace Cert.Proof.Frames

open Idealize.ShloMosaic Idealize.ShloMosaic.TcCoe Idealize.SL.Sem

/-- The word-level program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealization rewrote no operation. -/
theorem preserves : Cert.preserves_Kernel_KernelIdeal := trivial

open Cert.KernelIdeal Cert.KernelIdeal.Gen Cert.KernelIdeal.Hand in
/-- The idealized kernel program's run, the result array named. -/
theorem run_val (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v85) = V7 m (outs m) c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v85 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c),
     (h c _ (mem_uc main_arg3 (by decide))).trans (V7_main_arg3 m (outs m) c),
     (h c _ (mem_uc main_arg4 (by decide))).trans (V7_main_arg4 m (outs m) c),
     (h c _ (mem_uc main_arg5 (by decide))).trans (V7_main_arg5 m (outs m) c),
     (h c _ (mem_uc main_arg6 (by decide))).trans (V7_main_arg6 m (outs m) c)⟩) (run_all m ρ)

end Cert.Proof.Frames

end
-- ==== Proof.RefRun.lean ====
/-
  The reference program's @main is a straight line of host operations. This module lists them, shows that
  @main is their sequence, and reads the run back: every weakly fair execution terminates, and every final
  memory holds, in each buffer, the fold of the operations' results over the launch contents. The result
  buffer is stated at that fold itself; the argument buffers, which no operation writes, at their launch
  contents. The frame conjunct of the claim is that run with the result clause dropped.
-/
import proofs.«112653_j60352880443527_1_alg».proof.Defs
import proofs.«112653_j60352880443527_1_alg».proof.Proof.Gen.ReferenceIdeal
import proofs.«112653_j60352880443527_1_alg».proof.Proof.Gen.Pre_finite_inputs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; the two outlined selections stand, operation by operation, where they are called. -/
abbrev ops : List (HloOp τ sig (Elt F)) :=
  [ unary main_arg6 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg6 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    binary main_arg0 main_arg1 main_v4 ((fun a b => concatenate S8192x8256 1 [⟨S8192x8192, a⟩, ⟨S8192x64, b⟩] concatenates_S8192x8192_S8192x64_S8192x8256_d1) : (⟨S8192x8192, .f32⟩ : BufTy).Contents (Elt F) → (⟨S8192x64, .f32⟩ : BufTy).Contents (Elt F) → (⟨S8192x8256, .f32⟩ : BufTy).Contents (Elt F)),
    binary main_v4 main_arg2 main_v5 ((fun l r => Host.dotGeneral dot_S8192x8256_S8256x128_S8192x128_1_0_0_1_n_n none l r) : (⟨S8192x8256, .f32⟩ : BufTy).Contents (Elt F) → (⟨S8256x128, .f32⟩ : BufTy).Contents (Elt F) → (⟨S8192x128, .f32⟩ : BufTy).Contents (Elt F)),
    nullary main_v6 (iotaInDim S8192 32 0),
    binary main_v1 main_v6 main_v7 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v6 main_v8 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v9 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v10 (broadcastInDim S8192 ![] bcast_S_S8192 : (⟨S_, .f32⟩ : BufTy).Contents (Elt F) → (⟨S8192, .f32⟩ : BufTy).Contents (Elt F)),
    unary main_v8 main_v11 (broadcastInDim S270336x1 ![0] bcast_S270336_S270336x1_0 : (⟨S270336, .i32⟩ : BufTy).Contents (Elt F) → (⟨S270336x1, .i32⟩ : BufTy).Contents (Elt F)),
    ternary main_v10 main_v11 main_v9 main_v12 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v13 (broadcastInDim S8192 ![] bcast_S_S8192 : (⟨S_, .f32⟩ : BufTy).Contents (Elt F) → (⟨S8192, .f32⟩ : BufTy).Contents (Elt F)),
    binary main_v12 main_v13 main_v14 (cmpf .ogt : (⟨S8192, .f32⟩ : BufTy).Contents (Elt F) → (⟨S8192, .f32⟩ : BufTy).Contents (Elt F) → (⟨S8192, .i1⟩ : BufTy).Contents (Elt F)),
    unary main_v12 main_v15 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v14) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v7 main_v17 main_v18 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v19 (broadcastInDim S270336 ![] bcast_S_S270336 : (⟨S_, .i32⟩ : BufTy).Contents (Elt F) → (⟨S270336, .i32⟩ : BufTy).Contents (Elt F)),
    binary main_v7 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v7 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v24 (broadcastInDim S270336 ![] bcast_S_S270336 : (⟨S_, .i32⟩ : BufTy).Contents (Elt F) → (⟨S270336, .i32⟩ : BufTy).Contents (Elt F)),
    binary main_v8 main_v24 main_v25 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v26 (broadcastInDim S270336 ![] bcast_S_S270336 : (⟨S_, .i32⟩ : BufTy).Contents (Elt F) → (⟨S270336, .i32⟩ : BufTy).Contents (Elt F)),
    binary main_v8 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v8 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    nullary main_c_6 (constantI S_ 32 0#32),
    unary main_c_6 main_v32 (broadcastInDim S270336 ![] bcast_S_S270336 : (⟨S_, .i32⟩ : BufTy).Contents (Elt F) → (⟨S270336, .i32⟩ : BufTy).Contents (Elt F)),
    binary main_v7 main_v32 main_v33 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v34 (broadcastInDim S270336 ![] bcast_S_S270336 : (⟨S_, .i32⟩ : BufTy).Contents (Elt F) → (⟨S270336, .i32⟩ : BufTy).Contents (Elt F)),
    binary main_v7 main_v34 main_v35 (addi : (⟨S270336, .i32⟩ : BufTy).Contents (Elt F) → (⟨S270336, .i32⟩ : BufTy).Contents (Elt F) → (⟨S270336, .i32⟩ : BufTy).Contents (Elt F)),
    ternary main_v33 main_v35 main_v7 main_v36 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v36 main_v37 (broadcastInDim S270336x1 ![0] bcast_S270336_S270336x1_0 : (⟨S270336, .i32⟩ : BufTy).Contents (Elt F) → (⟨S270336x1, .i32⟩ : BufTy).Contents (Elt F)),
    binary main_v5 main_v37 main_v38 ((fun x i => Host.gather gather_S8192x128_S270336x1_S270336x128_1_0_n_n_0_1_1128 x i) : (⟨S8192x128, .f32⟩ : BufTy).Contents (Elt F) → (⟨S270336x1, .i32⟩ : BufTy).Contents (Elt F) → (⟨S270336x128, .f32⟩ : BufTy).Contents (Elt F)),
    unary main_v31 main_v39 (broadcastInDim S270336x1 ![0] bcast_S270336_S270336x1_0 : (⟨S270336, .f32⟩ : BufTy).Contents (Elt F) → (⟨S270336x1, .f32⟩ : BufTy).Contents (Elt F)),
    unary main_v39 main_v40 (broadcastInDim S270336x128 ![0, 1] bcast_S270336x1_S270336x128_0_1 : (⟨S270336x1, .f32⟩ : BufTy).Contents (Elt F) → (⟨S270336x128, .f32⟩ : BufTy).Contents (Elt F)),
    binary main_v38 main_v40 main_v41 (mulf : (⟨S270336x128, .f32⟩ : BufTy).Contents (Elt F) → (⟨S270336x128, .f32⟩ : BufTy).Contents (Elt F) → (⟨S270336x128, .f32⟩ : BufTy).Contents (Elt F)),
    nullary main_cst_8 (constant S_ .f32 0x00000000#32),
    unary main_cst_8 main_v42 (broadcastInDim S8192x128 ![] bcast_S_S8192x128 : (⟨S_, .f32⟩ : BufTy).Contents (Elt F) → (⟨S8192x128, .f32⟩ : BufTy).Contents (Elt F)),
    unary main_v8 main_v43 (broadcastInDim S270336x1 ![0] bcast_S270336_S270336x1_0 : (⟨S270336, .i32⟩ : BufTy).Contents (Elt F) → (⟨S270336x1, .i32⟩ : BufTy).Contents (Elt F)),
    ternary main_v42 main_v43 main_v41 main_v44 ((fun x i u => Host.scatterAdd scatter_S8192x128_S270336x1_S270336x128_1_0_0_1 x i u) : (⟨S8192x128, .f32⟩ : BufTy).Contents (Elt F) → (⟨S270336x1, .i32⟩ : BufTy).Contents (Elt F) → (⟨S270336x128, .f32⟩ : BufTy).Contents (Elt F) → (⟨S8192x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S8192x128 ![0, 1] bcast_S1x128_S8192x128_0_1 : (⟨S1x128, .f32⟩ : BufTy).Contents (Elt F) → (⟨S8192x128, .f32⟩ : BufTy).Contents (Elt F)),
    binary main_v44 main_v46 main_v47 (addf : (⟨S8192x128, .f32⟩ : BufTy).Contents (Elt F) → (⟨S8192x128, .f32⟩ : BufTy).Contents (Elt F) → (⟨S8192x128, .f32⟩ : BufTy).Contents (Elt F)),
    unary main_v47 main_v48 (Host.negf : (⟨S8192x128, .f32⟩ : BufTy).Contents (Elt F) → (⟨S8192x128, .f32⟩ : BufTy).Contents (Elt F)),
    unary main_v48 main_v49 (Host.exp : (⟨S8192x128, .f32⟩ : BufTy).Contents (Elt F) → (⟨S8192x128, .f32⟩ : BufTy).Contents (Elt F)),
    nullary main_cst_9 (constant S_ .f32 0x3F800000#32),
    unary main_cst_9 main_v50 (broadcastInDim S8192x128 ![] bcast_S_S8192x128 : (⟨S_, .f32⟩ : BufTy).Contents (Elt F) → (⟨S8192x128, .f32⟩ : BufTy).Contents (Elt F)),
    binary main_v50 main_v49 main_v51 (addf : (⟨S8192x128, .f32⟩ : BufTy).Contents (Elt F) → (⟨S8192x128, .f32⟩ : BufTy).Contents (Elt F) → (⟨S8192x128, .f32⟩ : BufTy).Contents (Elt F)),
    nullary main_cst_10 (constant S_ .f32 0x3F800000#32),
    unary main_cst_10 main_v52 (broadcastInDim S8192x128 ![] bcast_S_S8192x128 : (⟨S_, .f32⟩ : BufTy).Contents (Elt F) → (⟨S8192x128, .f32⟩ : BufTy).Contents (Elt F)),
    binary main_v52 main_v51 main_v53 (Host.divf : (⟨S8192x128, .f32⟩ : BufTy).Contents (Elt F) → (⟨S8192x128, .f32⟩ : BufTy).Contents (Elt F) → (⟨S8192x128, .f32⟩ : BufTy).Contents (Elt F)),
    reshape main_v53 main_v54 rfl shapeCasts_S8192x128_S1x1048576,
    unary main_v54 main_v55 ((extractStridedSlice S1x524288 ![0, 0] · slices_S1x1048576_S1x524288_0_0) : (⟨S1x1048576, .f32⟩ : BufTy).Contents (Elt F) → (⟨S1x524288, .f32⟩ : BufTy).Contents (Elt F)),
    reshape main_v55 main_v56 rfl shapeCasts_S1x524288_S8192x64,
    unary main_v54 main_v57 ((extractStridedSlice S1x524288 ![0, 524288] · slices_S1x1048576_S1x524288_0_524288) : (⟨S1x1048576, .f32⟩ : BufTy).Contents (Elt F) → (⟨S1x524288, .f32⟩ : BufTy).Contents (Elt F)),
    reshape main_v57 main_v58 rfl shapeCasts_S1x524288_S8192x64,
    binary main_v56 main_arg1 main_v59 (mulf : (⟨S8192x64, .f32⟩ : BufTy).Contents (Elt F) → (⟨S8192x64, .f32⟩ : BufTy).Contents (Elt F) → (⟨S8192x64, .f32⟩ : BufTy).Contents (Elt F)),
    binary main_arg0 main_v59 main_v60 ((fun a b => concatenate S8192x8256 1 [⟨S8192x8192, a⟩, ⟨S8192x64, b⟩] concatenates_S8192x8192_S8192x64_S8192x8256_d1) : (⟨S8192x8192, .f32⟩ : BufTy).Contents (Elt F) → (⟨S8192x64, .f32⟩ : BufTy).Contents (Elt F) → (⟨S8192x8256, .f32⟩ : BufTy).Contents (Elt F)),
    binary main_v60 main_arg4 main_v61 ((fun l r => Host.dotGeneral dot_S8192x8256_S8256x64_S8192x64_1_0_0_1_n_n none l r) : (⟨S8192x8256, .f32⟩ : BufTy).Contents (Elt F) → (⟨S8256x64, .f32⟩ : BufTy).Contents (Elt F) → (⟨S8192x64, .f32⟩ : BufTy).Contents (Elt F)),
    nullary main_v62 (iotaInDim S8192 32 0),
    binary main_v1 main_v62 main_v63 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v62 main_v64 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_11 (constant S_ .f32 0x3F800000#32),
    unary main_cst_11 main_v65 (broadcastInDim S270336 ![] bcast_S_S270336 : (⟨S_, .f32⟩ : BufTy).Contents (Elt F) → (⟨S270336, .f32⟩ : BufTy).Contents (Elt F)),
    nullary main_cst_12 (constant S_ .f32 0x00000000#32),
    unary main_cst_12 main_v66 (broadcastInDim S8192 ![] bcast_S_S8192 : (⟨S_, .f32⟩ : BufTy).Contents (Elt F) → (⟨S8192, .f32⟩ : BufTy).Contents (Elt F)),
    unary main_v64 main_v67 (broadcastInDim S270336x1 ![0] bcast_S270336_S270336x1_0 : (⟨S270336, .i32⟩ : BufTy).Contents (Elt F) → (⟨S270336x1, .i32⟩ : BufTy).Contents (Elt F)),
    ternary main_v66 main_v67 main_v65 main_v68 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_13 (constant S_ .f32 0x00000000#32),
    unary main_cst_13 main_v69 (broadcastInDim S8192 ![] bcast_S_S8192 : (⟨S_, .f32⟩ : BufTy).Contents (Elt F) → (⟨S8192, .f32⟩ : BufTy).Contents (Elt F)),
    binary main_v68 main_v69 main_v70 (cmpf .ogt : (⟨S8192, .f32⟩ : BufTy).Contents (Elt F) → (⟨S8192, .f32⟩ : BufTy).Contents (Elt F) → (⟨S8192, .i1⟩ : BufTy).Contents (Elt F)),
    unary main_v68 main_v71 (Host.rsqrt : (⟨S8192, .f32⟩ : BufTy).Contents (Elt F) → (⟨S8192, .f32⟩ : BufTy).Contents (Elt F)),
    nullary main_cst_14 (constant S_ .f32 0x00000000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S8192, .f32⟩) main_call1_v1) (broadcastInDim S8192 ![] bcast_S_S8192),
    TRef.ternary (TRef.of (T := ⟨S8192, .i1⟩) main_v70) (TRef.of (T := ⟨S8192, .f32⟩) main_v71) (TRef.of (T := ⟨S8192, .f32⟩) main_call1_v1) (TRef.of (T := ⟨S8192, .f32⟩) main_v72) select,
    nullary main_c_15 (constantI S_ 32 0#32),
    unary main_c_15 main_v73 (broadcastInDim S270336 ![] bcast_S_S270336 : (⟨S_, .i32⟩ : BufTy).Contents (Elt F) → (⟨S270336, .i32⟩ : BufTy).Contents (Elt F)),
    binary main_v63 main_v73 main_v74 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v75 (broadcastInDim S270336 ![] bcast_S_S270336 : (⟨S_, .i32⟩ : BufTy).Contents (Elt F) → (⟨S270336, .i32⟩ : BufTy).Contents (Elt F)),
    binary main_v63 main_v75 main_v76 (addi : (⟨S270336, .i32⟩ : BufTy).Contents (Elt F) → (⟨S270336, .i32⟩ : BufTy).Contents (Elt F) → (⟨S270336, .i32⟩ : BufTy).Contents (Elt F)),
    ternary main_v74 main_v76 main_v63 main_v77 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v77 main_v78 (broadcastInDim S270336x1 ![0] bcast_S270336_S270336x1_0 : (⟨S270336, .i32⟩ : BufTy).Contents (Elt F) → (⟨S270336x1, .i32⟩ : BufTy).Contents (Elt F)),
    binary main_v72 main_v78 main_v79 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_17 (constantI S_ 32 0#32),
    unary main_c_17 main_v80 (broadcastInDim S270336 ![] bcast_S_S270336 : (⟨S_, .i32⟩ : BufTy).Contents (Elt F) → (⟨S270336, .i32⟩ : BufTy).Contents (Elt F)),
    binary main_v64 main_v80 main_v81 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v82 (broadcastInDim S270336 ![] bcast_S_S270336 : (⟨S_, .i32⟩ : BufTy).Contents (Elt F) → (⟨S270336, .i32⟩ : BufTy).Contents (Elt F)),
    binary main_v64 main_v82 main_v83 (addi : (⟨S270336, .i32⟩ : BufTy).Contents (Elt F) → (⟨S270336, .i32⟩ : BufTy).Contents (Elt F) → (⟨S270336, .i32⟩ : BufTy).Contents (Elt F)),
    ternary main_v81 main_v83 main_v64 main_v84 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v84 main_v85 (broadcastInDim S270336x1 ![0] bcast_S270336_S270336x1_0 : (⟨S270336, .i32⟩ : BufTy).Contents (Elt F) → (⟨S270336x1, .i32⟩ : BufTy).Contents (Elt F)),
    binary main_v72 main_v85 main_v86 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v79 main_v86 main_v87 (mulf : (⟨S270336, .f32⟩ : BufTy).Contents (Elt F) → (⟨S270336, .f32⟩ : BufTy).Contents (Elt F) → (⟨S270336, .f32⟩ : BufTy).Contents (Elt F)),
    nullary main_c_19 (constantI S_ 32 0#32),
    unary main_c_19 main_v88 (broadcastInDim S270336 ![] bcast_S_S270336 : (⟨S_, .i32⟩ : BufTy).Contents (Elt F) → (⟨S270336, .i32⟩ : BufTy).Contents (Elt F)),
    binary main_v63 main_v88 main_v89 (cmpi .slt : (⟨S270336, .i32⟩ : BufTy).Contents (Elt F) → (⟨S270336, .i32⟩ : BufTy).Contents (Elt F) → (⟨S270336, .i1⟩ : BufTy).Contents (Elt F)),
    nullary main_c_20 (constantI S_ 32 8192#32),
    unary main_c_20 main_v90 (broadcastInDim S270336 ![] bcast_S_S270336 : (⟨S_, .i32⟩ : BufTy).Contents (Elt F) → (⟨S270336, .i32⟩ : BufTy).Contents (Elt F)),
    binary main_v63 main_v90 main_v91 (addi : (⟨S270336, .i32⟩ : BufTy).Contents (Elt F) → (⟨S270336, .i32⟩ : BufTy).Contents (Elt F) → (⟨S270336, .i32⟩ : BufTy).Contents (Elt F)),
    ternary main_v89 main_v91 main_v63 main_v92 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v92 main_v93 (broadcastInDim S270336x1 ![0] bcast_S270336_S270336x1_0 : (⟨S270336, .i32⟩ : BufTy).Contents (Elt F) → (⟨S270336x1, .i32⟩ : BufTy).Contents (Elt F)),
    binary main_v61 main_v93 main_v94 ((fun x i => Host.gather gather_S8192x64_S270336x1_S270336x64_1_0_n_n_0_1_164 x i) : (⟨S8192x64, .f32⟩ : BufTy).Contents (Elt F) → (⟨S270336x1, .i32⟩ : BufTy).Contents (Elt F) → (⟨S270336x64, .f32⟩ : BufTy).Contents (Elt F)),
    unary main_v87 main_v95 (broadcastInDim S270336x1 ![0] bcast_S270336_S270336x1_0 : (⟨S270336, .f32⟩ : BufTy).Contents (Elt F) → (⟨S270336x1, .f32⟩ : BufTy).Contents (Elt F)),
    unary main_v95 main_v96 (broadcastInDim S270336x64 ![0, 1] bcast_S270336x1_S270336x64_0_1 : (⟨S270336x1, .f32⟩ : BufTy).Contents (Elt F) → (⟨S270336x64, .f32⟩ : BufTy).Contents (Elt F)),
    binary main_v94 main_v96 main_v97 (mulf : (⟨S270336x64, .f32⟩ : BufTy).Contents (Elt F) → (⟨S270336x64, .f32⟩ : BufTy).Contents (Elt F) → (⟨S270336x64, .f32⟩ : BufTy).Contents (Elt F)),
    nullary main_cst_21 (constant S_ .f32 0x00000000#32),
    unary main_cst_21 main_v98 (broadcastInDim S8192x64 ![] bcast_S_S8192x64 : (⟨S_, .f32⟩ : BufTy).Contents (Elt F) → (⟨S8192x64, .f32⟩ : BufTy).Contents (Elt F)),
    unary main_v64 main_v99 (broadcastInDim S270336x1 ![0] bcast_S270336_S270336x1_0 : (⟨S270336, .i32⟩ : BufTy).Contents (Elt F) → (⟨S270336x1, .i32⟩ : BufTy).Contents (Elt F)),
    ternary main_v98 main_v99 main_v97 main_v100 ((fun x i u => Host.scatterAdd scatter_S8192x64_S270336x1_S270336x64_1_0_0_1 x i u) : (⟨S8192x64, .f32⟩ : BufTy).Contents (Elt F) → (⟨S270336x1, .i32⟩ : BufTy).Contents (Elt F) → (⟨S270336x64, .f32⟩ : BufTy).Contents (Elt F) → (⟨S8192x64, .f32⟩ : BufTy).Contents (Elt F)),
    unary main_arg5 main_v101 (broadcastInDim S1x64 ![1] bcast_S64_S1x64_1 : (⟨S64, .f32⟩ : BufTy).Contents (Elt F) → (⟨S1x64, .f32⟩ : BufTy).Contents (Elt F)),
    unary main_v101 main_v102 (broadcastInDim S8192x64 ![0, 1] bcast_S1x64_S8192x64_0_1 : (⟨S1x64, .f32⟩ : BufTy).Contents (Elt F) → (⟨S8192x64, .f32⟩ : BufTy).Contents (Elt F)),
    binary main_v100 main_v102 main_v103 (addf : (⟨S8192x64, .f32⟩ : BufTy).Contents (Elt F) → (⟨S8192x64, .f32⟩ : BufTy).Contents (Elt F) → (⟨S8192x64, .f32⟩ : BufTy).Contents (Elt F)),
    unary main_v103 main_v104 (Host.tanh : (⟨S8192x64, .f32⟩ : BufTy).Contents (Elt F) → (⟨S8192x64, .f32⟩ : BufTy).Contents (Elt F)),
    binary main_v58 main_arg1 main_v105 (mulf : (⟨S8192x64, .f32⟩ : BufTy).Contents (Elt F) → (⟨S8192x64, .f32⟩ : BufTy).Contents (Elt F) → (⟨S8192x64, .f32⟩ : BufTy).Contents (Elt F)),
    nullary main_cst_22 (constant S_ .f32 0x3F800000#32),
    unary main_cst_22 main_v106 (broadcastInDim S8192x64 ![] bcast_S_S8192x64 : (⟨S_, .f32⟩ : BufTy).Contents (Elt F) → (⟨S8192x64, .f32⟩ : BufTy).Contents (Elt F)),
    binary main_v106 main_v58 main_v107 (subf : (⟨S8192x64, .f32⟩ : BufTy).Contents (Elt F) → (⟨S8192x64, .f32⟩ : BufTy).Contents (Elt F) → (⟨S8192x64, .f32⟩ : BufTy).Contents (Elt F)),
    binary main_v107 main_v104 main_v108 (mulf : (⟨S8192x64, .f32⟩ : BufTy).Contents (Elt F) → (⟨S8192x64, .f32⟩ : BufTy).Contents (Elt F) → (⟨S8192x64, .f32⟩ : BufTy).Contents (Elt F)),
    binary main_v105 main_v108 main_v109 (addf : (⟨S8192x64, .f32⟩ : BufTy).Contents (Elt F) → (⟨S8192x64, .f32⟩ : BufTy).Contents (Elt F) → (⟨S8192x64, .f32⟩ : BufTy).Contents (Elt F)) ]

set_option maxRecDepth 8192 in
set_option maxHeartbeats 4000000 in
/-- @main is the sequence of those operations. -/
theorem main_eq (c : Dev nD) : main (F := F) c = seq ops := rfl
/-- The signature scopes no buffer ... -/
theorem scopedRefs_eq : (Finset.univ.filter fun b : Ref sig .tc => b.isScoped) = ∅ := by decide
/-- ... and no semaphore. -/
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., unary_bufs_sub .., reshape_bufs_sub .., unary_bufs_sub .., reshape_bufs_sub .., binary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., binary_bufs_sub .., binary_bufs_sub .., binary_bufs_sub ..⟩

set_option maxRecDepth 8192 in
set_option maxHeartbeats 4000000 in
/-- On every device, for any float values, from any memory with zero counters: every weakly fair execution of
    @main terminates; the result buffer ends at the fold of the operations over the launch contents, and each
    argument buffer ends as launched (no operation writes it). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = StableHlo.after ops (fun b => m (c, b)) (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v109,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

/-- The reference's frame: it runs, and its argument arrays end unchanged. The precondition is not used. -/
theorem frame_ri : Cert.frame_ReferenceIdeal := fun m ρ _ =>
  (θ_run Cert.ReferenceIdeal.defs _ _).mono (fun _ h c => (h c).2) (run (F := Ideal) m ρ)

end Cert.ReferenceIdeal.Hand

end
-- ==== Proof.Entries.lean ====
/-
  What the two regions find in the arrays behind their input windows, in terms of the argument arrays: x and the hidden
  state as launched (no host operation before a region writes an argument), and the two halves of each weight matrix as
  the first host stretch slices them: rows 0 to 8191 (the x half) and rows 8192 to 8255 (the hfeat half).
-/
import proofs.«112653_j60352880443527_1_alg».proof.Proof.TwoRegions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo in
section
variable (m : (ℓ : Loc nD τ sig) → Buf (Elt F) ℓ)

theorem V1_arg (c : Dev nD) (r : Ref sig .tc) (h : r ∉ hostOps0_W) : V1 m c r = m ((c : Thread nD τ).loc r) :=
  V1_of m c r h

/-- Before region 1 a buffer the first stretch alone may have written is what region 0 was entered from. -/
theorem V5_early (o : Outs (F := F)) (c : Dev nD) (r : Ref sig .tc) (h5 : r ∉ hostOps1_2_W) (h4 : r ∉ hostOps1_1_W) (h3 : r ∉ hostOps1_W)
    (h2 : r ∉ ([main_v8] : List (Ref sig .tc))) : V5 m o c r = V1 m c r :=
  (V5_of m o c r h5).trans <| (V4_of m o c r h4).trans <| (V3_of m o c r h3).trans (V2_of m o c r h2)

theorem entry0_arg0 (c : Dev nD) : entry0 m c main_arg0 = m ((c : Thread nD τ).loc main_arg0) := V1_arg m c main_arg0 (by decide)
theorem entry0_arg1 (c : Dev nD) : entry0 m c main_arg1 = m ((c : Thread nD τ).loc main_arg1) := V1_arg m c main_arg1 (by decide)
/-- The x half of the first weight matrix. -/
theorem entry0_v4 (c : Dev nD) : entry0 m c main_v4
    = extractStridedSlice S8192x128 ![0, 0] (m ((c : Thread nD τ).loc main_arg2)) slices_S8256x128_S8192x128_0_0 := by
  show StableHlo.after hostOps0 (fun b => m (c, b)) (Proc.devRef .tc main_v4) = _
  after_results
/-- The hfeat half of the first weight matrix. -/
theorem entry0_v5 (c : Dev nD) : entry0 m c main_v5
    = extractStridedSlice S64x128 ![8192, 0] (m ((c : Thread nD τ).loc main_arg2)) slices_S8256x128_S64x128_8192_0 := by
  show StableHlo.after hostOps0 (fun b => m (c, b)) (Proc.devRef .tc main_v5) = _
  after_results

theorem entry1_arg0 (c : Dev nD) : entry1 m c main_arg0 = m ((c : Thread nD τ).loc main_arg0) :=
  (V5_early m (outs₁ m) c main_arg0 (by decide) (by decide) (by decide) (by decide)).trans (V1_arg m c main_arg0 (by decide))
/-- The x half of the second weight matrix. -/
theorem entry1_v6 (c : Dev nD) : entry1 m c main_v6
    = extractStridedSlice S8192x64 ![0, 0] (m ((c : Thread nD τ).loc main_arg4)) slices_S8256x64_S8192x64_0_0 :=
  (V5_early m (outs₁ m) c main_v6 (by decide) (by decide) (by decide) (by decide)).trans (by
    show StableHlo.after hostOps0 (fun b => m (c, b)) (Proc.devRef .tc main_v6) = _
    after_results)
/-- The hfeat half of the second weight matrix. -/
theorem entry1_v7 (c : Dev nD) : entry1 m c main_v7
    = extractStridedSlice S64x64 ![8192, 0] (m ((c : Thread nD τ).loc main_arg4)) slices_S8256x64_S64x64_8192_0 :=
  (V5_early m (outs₁ m) c main_v7 (by decide) (by decide) (by decide) (by decide)).trans (by
    show StableHlo.after hostOps0 (fun b => m (c, b)) (Proc.devRef .tc main_v7) = _
    after_results)
/-- The second region's hfeat operand is the buffer the host code computed it into. -/
theorem entry1_v62 (c : Dev nD) : entry1 m c main_v62 = V5 m (outs m) c main_v62 := (congrFun (V5_outs m c) _).symm

end

end Cert.KernelIdeal.Hand

end
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.TileValue0.lean ====
/-
  The first product's accumulation, read at an index.

  The accumulator starts at zero; each of the four contraction tiles adds to it the product of a 1024 × 2048
  block of the left operand with a 2048 × 128 block of the weights, and at the last tile the product of the
  1024 × 64 block with the 64 × 128 weights is added on top. At the ideal values the changes of float format
  and the same-shape casts are the identity and a matrix product into the zero accumulator is the plain sum of
  products, so element (r, c) of the result is zero plus the four tile sums plus the last sum, added from the
  left in exactly that order.
-/
import proofs.«112653_j60352880443527_1_alg».proof.Proof.Gen.KernelIdeal.Skeleton
import proofs.«112653_j60352880443527_1_alg».proof.Proof.LibPlainDot
import Idealize.ShloMosaic.Lib.Pipeline.Value

noncomputable section

open scoped BigOperators

namespace Cert.KernelIdeal.TileValue

open Idealize.ShloMosaic Idealize.ShloMosaic.ValueIdx Cert.KernelIdeal Cert.KernelIdeal.Gen

/-- One accumulation step over plain dimension numbers, at an index: the accumulator there plus the sum of
    products along the contraction. The operands pass through a change of float format (and the right one
    through a same-shape cast first), the result through a same-shape cast: all the identity here. -/
theorem accStep_apply {M K N : Nat} (D : DotDims ⟨2, ![M, K]⟩ ⟨2, ![K, N]⟩ ⟨2, ![M, N]⟩) (hD : D = DotDims.plain M K N)
    (hb : FTy.bits .bf16 < FTy.bits .f32)
    (hcO : (⟨2, ![M, N]⟩ : Shape).ShapeCasts ⟨2, ![M, N]⟩) (hcR : (⟨2, ![K, N]⟩ : Shape).ShapeCasts ⟨2, ![K, N]⟩)
    (x : FVec Ideal ⟨2, ![M, K]⟩ .f32) (w : FVec Ideal ⟨2, ![K, N]⟩ .f32) (acc : FVec Ideal ⟨2, ![M, N]⟩ .f32)
    (j : (⟨2, ![M, N]⟩ : Shape).Idx) :
    shapeCast ⟨2, ![M, N]⟩
        (addf acc (matmul (F := Ideal) D none (truncf .bf16 x hb) (truncf .bf16 (shapeCast ⟨2, ![K, N]⟩ w hcR) hb)
          (constant ⟨2, ![M, N]⟩ .f32 0x00000000#32))) hcO j
      = acc j + ∑ k : Fin K, x (ix2 (j 0) k) * w (ix2 k (j 1)) := by
  subst hD
  rw [shapeCast_self, shapeCast_self]
  show acc j + matmul (F := Ideal) (DotDims.plain M K N) none (truncf .bf16 x hb) (truncf .bf16 w hb)
      (constant ⟨2, ![M, N]⟩ .f32 0x00000000#32) j = _
  rw [PlainDot.matmulZero_apply]
  rfl

/-- The dimension numbers of the tile product are the plain ones: 1024 × 2048 by 2048 × 128. -/
theorem dotTile_plain : dot_S1024x2048_S2048x128_S1024x128_1_0_0_1_n_n = DotDims.plain 1024 2048 128 := rfl

/-- The dimension numbers of the last product are the plain ones: 1024 × 64 by 64 × 128. -/
theorem dotLast_plain : dot_S1024x64_S64x128_S1024x128_1_0_0_1_n_n = DotDims.plain 1024 64 128 := rfl

/-- The accumulator's first contents: zero everywhere. -/
theorem pay1_apply (r : Fin 1024) (c : Fin 128) : k0_pay1 (F := Ideal) (ix2 r c) = 0 := by
  unfold k0_pay1
  refine (congrFun (shapeCast_self _ _) (ix2 r c)).trans ?_
  exact Ideal.ofBits_zero_f32

/-- One contraction tile: the accumulator at (r, c) plus the tile's sum of products. -/
theorem pay2_apply (v3 : FVec Ideal S1024x2048 .f32) (v5 : FVec Ideal S2048x128 .f32) (v8 : FVec Ideal S1024x128 .f32)
    (r : Fin 1024) (c : Fin 128) :
    k0_pay2 (F := Ideal) v3 v5 v8 (ix2 r c) = v8 (ix2 r c) + ∑ k : Fin 2048, v3 (ix2 r k) * v5 (ix2 k c) :=
  accStep_apply _ dotTile_plain _ _ _ v3 v5 v8 (ix2 r c)

/-- The last product: the accumulator at (r, c) plus the sum of the 64 products. -/
theorem pay3_apply (v17 : FVec Ideal S1024x64 .f32) (v19 : FVec Ideal S64x128 .f32) (v22 : FVec Ideal S1024x128 .f32)
    (r : Fin 1024) (c : Fin 128) :
    k0_pay3 (F := Ideal) v17 v19 v22 (ix2 r c) = v22 (ix2 r c) + ∑ k : Fin 64, v17 (ix2 r k) * v19 (ix2 k c) :=
  accStep_apply _ dotLast_plain _ _ _ v17 v19 v22 (ix2 r c)

/-- THE WHOLE CHAIN at (r, c), the eight tile blocks named one by one: zero, the four tiles in order, then the
    last product, added from the left. -/
theorem tile0_blocks (x0 x1 x2 x3 : FVec Ideal S1024x2048 .f32) (w0 w1 w2 w3 : FVec Ideal S2048x128 .f32)
    (hb : FVec Ideal S1024x64 .f32) (whb : FVec Ideal S64x128 .f32) (r : Fin 1024) (c : Fin 128) :
    k0_pay3 (F := Ideal) hb whb
        (k0_pay2 (F := Ideal) x3 w3 (k0_pay2 (F := Ideal) x2 w2
          (k0_pay2 (F := Ideal) x1 w1 (k0_pay2 (F := Ideal) x0 w0 (k0_pay1 (F := Ideal)))))) (ix2 r c)
      = ((((0 + ∑ k : Fin 2048, x0 (ix2 r k) * w0 (ix2 k c)) + ∑ k : Fin 2048, x1 (ix2 r k) * w1 (ix2 k c))
            + ∑ k : Fin 2048, x2 (ix2 r k) * w2 (ix2 k c)) + ∑ k : Fin 2048, x3 (ix2 r k) * w3 (ix2 k c))
          + ∑ k : Fin 64, hb (ix2 r k) * whb (ix2 k c) := by
  rw [pay3_apply, pay2_apply, pay2_apply, pay2_apply, pay2_apply, pay1_apply]

/-- THE WHOLE CHAIN at (r, c): zero, the four tiles in order, then the last product, added from the left. -/
theorem tile0 (xb : Fin 4 → FVec Ideal S1024x2048 .f32) (wb : Fin 4 → FVec Ideal S2048x128 .f32)
    (hb : FVec Ideal S1024x64 .f32) (whb : FVec Ideal S64x128 .f32) (r : Fin 1024) (c : Fin 128) :
    k0_pay3 (F := Ideal) hb whb
        (k0_pay2 (F := Ideal) (xb 3) (wb 3) (k0_pay2 (F := Ideal) (xb 2) (wb 2)
          (k0_pay2 (F := Ideal) (xb 1) (wb 1) (k0_pay2 (F := Ideal) (xb 0) (wb 0) (k0_pay1 (F := Ideal)))))) (ix2 r c)
      = ((((0 + ∑ k : Fin 2048, xb 0 (ix2 r k) * wb 0 (ix2 k c)) + ∑ k : Fin 2048, xb 1 (ix2 r k) * wb 1 (ix2 k c))
            + ∑ k : Fin 2048, xb 2 (ix2 r k) * wb 2 (ix2 k c)) + ∑ k : Fin 2048, xb 3 (ix2 r k) * wb 3 (ix2 k c))
          + ∑ k : Fin 64, hb (ix2 r k) * whb (ix2 k c) := by
  rw [pay3_apply, pay2_apply, pay2_apply, pay2_apply, pay2_apply, pay1_apply]

end Cert.KernelIdeal.TileValue

end
-- ==== Proof.SumSplit.lean ====
/-
  A sum over 8256 = 4 * 2048 + 64 consecutive terms, cut into four stretches of 2048 and a tail of 64 and added
  up from the left starting at zero: the grouping in which a contraction tiled four times, followed by one
  more product, accumulates the same terms. Only associativity of the addition of a commutative monoid is used.
-/
import Mathlib.Algebra.BigOperators.Fin

open scoped BigOperators

namespace Cert.SumSplit

variable {M : Type*} [AddCommMonoid M]

/-- A sum of `a + b` consecutive terms is the first `a` terms plus the next `b`. -/
theorem sum_nat_add (a b : Nat) (f : Nat → M) :
    ∑ k : Fin (a + b), f k.val = ∑ k : Fin a, f k.val + ∑ k : Fin b, f (a + k.val) := by
  rw [Fin.sum_univ_add]
  rfl

/-- The 8256 terms `f 0, …, f 8255`: the 8192 first, then the 64 last. -/
theorem sum_8256_two (f : Nat → M) :
    ∑ k : Fin 8256, f k.val = ∑ k : Fin 8192, f k.val + ∑ k : Fin 64, f (8192 + k.val) :=
  sum_nat_add 8192 64 f

/-- The 8192 first terms in four stretches of 2048, added from the left. -/
theorem sum_8192_four (f : Nat → M) :
    ∑ k : Fin 8192, f k.val
      = ((∑ k : Fin 2048, f k.val + ∑ k : Fin 2048, f (2048 + k.val)) + ∑ k : Fin 2048, f (4096 + k.val))
          + ∑ k : Fin 2048, f (6144 + k.val) := by
  have h3 : ∑ k : Fin 8192, f k.val = ∑ k : Fin 6144, f k.val + ∑ k : Fin 2048, f (6144 + k.val) := sum_nat_add 6144 2048 f
  have h2 : ∑ k : Fin 6144, f k.val = ∑ k : Fin 4096, f k.val + ∑ k : Fin 2048, f (4096 + k.val) := sum_nat_add 4096 2048 f
  have h1 : ∑ k : Fin 4096, f k.val = ∑ k : Fin 2048, f k.val + ∑ k : Fin 2048, f (2048 + k.val) := sum_nat_add 2048 2048 f
  rw [h3, h2, h1]

/-- THE SPLIT: the 8256 terms as zero plus four stretches of 2048 plus a tail of 64, added from the left. -/
theorem sum_split (f : Nat → M) :
    ∑ k : Fin 8256, f k.val
      = ((((0 + ∑ k : Fin 2048, f k.val) + ∑ k : Fin 2048, f (2048 + k.val)) + ∑ k : Fin 2048, f (4096 + k.val))
          + ∑ k : Fin 2048, f (6144 + k.val)) + ∑ k : Fin 64, f (8192 + k.val) := by
  rw [sum_8256_two, sum_8192_four, zero_add]

/-- The first 8192 terms alone, in the same grouping started at zero. -/
theorem sum_split_8192 (f : Nat → M) :
    ∑ k : Fin 8192, f k.val
      = (((0 + ∑ k : Fin 2048, f k.val) + ∑ k : Fin 2048, f (2048 + k.val)) + ∑ k : Fin 2048, f (4096 + k.val))
          + ∑ k : Fin 2048, f (6144 + k.val) := by
  rw [sum_8192_four, zero_add]

/-- A function on `Fin n` continued by zero to all naturals. -/
def ext0 {n : Nat} (f : Fin n → M) (m : Nat) : M := if h : m < n then f ⟨m, h⟩ else 0

/-- Inside the range the continuation is the function. -/
theorem ext0_of_lt {n : Nat} (f : Fin n → M) (m : Nat) (h : m < n) : ext0 f m = f ⟨m, h⟩ := dif_pos h

/-- THE SPLIT for a function of `Fin 8256`: the terms named by their positions `⟨2048 * t + k, _⟩` and `⟨8192 + k, _⟩`. -/
theorem sum_split_fin (f : Fin 8256 → M) :
    ∑ k : Fin 8256, f k
      = ((((0 + ∑ k : Fin 2048, f ⟨k.val, by omega⟩) + ∑ k : Fin 2048, f ⟨2048 + k.val, by omega⟩)
            + ∑ k : Fin 2048, f ⟨4096 + k.val, by omega⟩) + ∑ k : Fin 2048, f ⟨6144 + k.val, by omega⟩)
          + ∑ k : Fin 64, f ⟨8192 + k.val, by omega⟩ := by
  have h := sum_split (ext0 f)
  have e0 : ∑ k : Fin 8256, ext0 f k.val = ∑ k : Fin 8256, f k :=
    Finset.sum_congr rfl fun k _ => ext0_of_lt f k.val k.isLt
  have e1 : ∑ k : Fin 2048, ext0 f k.val = ∑ k : Fin 2048, f ⟨k.val, by omega⟩ :=
    Finset.sum_congr rfl fun k _ => ext0_of_lt f _ _
  have e2 : ∑ k : Fin 2048, ext0 f (2048 + k.val) = ∑ k : Fin 2048, f ⟨2048 + k.val, by omega⟩ :=
    Finset.sum_congr rfl fun k _ => ext0_of_lt f _ _
  have e3 : ∑ k : Fin 2048, ext0 f (4096 + k.val) = ∑ k : Fin 2048, f ⟨4096 + k.val, by omega⟩ :=
    Finset.sum_congr rfl fun k _ => ext0_of_lt f _ _
  have e4 : ∑ k : Fin 2048, ext0 f (6144 + k.val) = ∑ k : Fin 2048, f ⟨6144 + k.val, by omega⟩ :=
    Finset.sum_congr rfl fun k _ => ext0_of_lt f _ _
  have e5 : ∑ k : Fin 64, ext0 f (8192 + k.val) = ∑ k : Fin 64, f ⟨8192 + k.val, by omega⟩ :=
    Finset.sum_congr rfl fun k _ => ext0_of_lt f _ _
  rw [e0, e1, e2, e3, e4, e5] at h
  exact h

/-- The two-part cut for a function of `Fin 8256`: the 8192 first positions, then the 64 last. -/
theorem sum_two_fin (f : Fin 8256 → M) :
    ∑ k : Fin 8256, f k = ∑ k : Fin 8192, f ⟨k.val, by omega⟩ + ∑ k : Fin 64, f ⟨8192 + k.val, by omega⟩ := by
  have h := sum_8256_two (ext0 f)
  have e0 : ∑ k : Fin 8256, ext0 f k.val = ∑ k : Fin 8256, f k :=
    Finset.sum_congr rfl fun k _ => ext0_of_lt f k.val k.isLt
  have e1 : ∑ k : Fin 8192, ext0 f k.val = ∑ k : Fin 8192, f ⟨k.val, by omega⟩ :=
    Finset.sum_congr rfl fun k _ => ext0_of_lt f _ _
  have e2 : ∑ k : Fin 64, ext0 f (8192 + k.val) = ∑ k : Fin 64, f ⟨8192 + k.val, by omega⟩ :=
    Finset.sum_congr rfl fun k _ => ext0_of_lt f _ _
  rw [e0, e1, e2] at h
  exact h

/-- The same for a function of `Fin 8192`: four stretches of 2048 from zero. -/
theorem sum_split_fin_8192 (f : Fin 8192 → M) :
    ∑ k : Fin 8192, f k
      = (((0 + ∑ k : Fin 2048, f ⟨k.val, by omega⟩) + ∑ k : Fin 2048, f ⟨2048 + k.val, by omega⟩)
            + ∑ k : Fin 2048, f ⟨4096 + k.val, by omega⟩) + ∑ k : Fin 2048, f ⟨6144 + k.val, by omega⟩ := by
  have h := sum_split_8192 (ext0 f)
  have e0 : ∑ k : Fin 8192, ext0 f k.val = ∑ k : Fin 8192, f k :=
    Finset.sum_congr rfl fun k _ => ext0_of_lt f k.val k.isLt
  have e1 : ∑ k : Fin 2048, ext0 f k.val = ∑ k : Fin 2048, f ⟨k.val, by omega⟩ :=
    Finset.sum_congr rfl fun k _ => ext0_of_lt f _ _
  have e2 : ∑ k : Fin 2048, ext0 f (2048 + k.val) = ∑ k : Fin 2048, f ⟨2048 + k.val, by omega⟩ :=
    Finset.sum_congr rfl fun k _ => ext0_of_lt f _ _
  have e3 : ∑ k : Fin 2048, ext0 f (4096 + k.val) = ∑ k : Fin 2048, f ⟨4096 + k.val, by omega⟩ :=
    Finset.sum_congr rfl fun k _ => ext0_of_lt f _ _
  have e4 : ∑ k : Fin 2048, ext0 f (6144 + k.val) = ∑ k : Fin 2048, f ⟨6144 + k.val, by omega⟩ :=
    Finset.sum_congr rfl fun k _ => ext0_of_lt f _ _
  rw [e0, e1, e2, e3, e4] at h
  exact h

end Cert.SumSplit
-- ==== Proof.RefDot.lean ====
/-
  The reference's product, read at an index.

  The reference joins the 8192 × 8192 operand and the 8192 × 64 operand along the columns and multiplies the
  8192 × 8256 result with the whole weight matrix in one product. Element (R, c) of that product is the sum
  over the 8256 joined columns; a joined column below 8192 reads the first operand, a joined column 8192 + k
  reads column k of the second. Cut into four stretches of 2048 columns and the tail of 64 and added from the
  left starting at zero, this is term by term the sum a contraction tiled four times, with one more product on
  top, accumulates.
-/
import proofs.«112653_j60352880443527_1_alg».proof.ReferenceIdeal
import proofs.«112653_j60352880443527_1_alg».proof.Proof.LibPlainDot
import proofs.«112653_j60352880443527_1_alg».proof.Proof.SumSplit
import Idealize.ShloMosaic.Lib.Pipeline.Value

noncomputable section

open scoped BigOperators

namespace Cert.ReferenceIdeal.RefDot

open Idealize.ShloMosaic Idealize.ShloMosaic.ValueIdx Cert.ReferenceIdeal

/-- A joined column below 8192 reads the first operand at that column. -/
theorem concat_left (hc : Shape.Concatenates [S8192x8192, S8192x64] S8192x8256 1)
    (X : FVec Ideal S8192x8192 .f32) (H : FVec Ideal S8192x64 .f32) (R : Fin 8192) (n : Nat) (hn : n < 8192) :
    concatenate S8192x8256 1 [⟨S8192x8192, X⟩, ⟨S8192x64, H⟩] hc (ix2 R ⟨n, by omega⟩) = X (ix2 R ⟨n, hn⟩) :=
  concatenate_pair_apply_left 1 X H hc (ix2 R ⟨n, by omega⟩) rfl (ix2 R ⟨n, hn⟩) fun b =>
    match b with
    | ⟨0, _⟩ => rfl
    | ⟨1, _⟩ => rfl

/-- The joined column 8192 + k reads column k of the second operand. -/
theorem concat_right (hc : Shape.Concatenates [S8192x8192, S8192x64] S8192x8256 1)
    (X : FVec Ideal S8192x8192 .f32) (H : FVec Ideal S8192x64 .f32) (R : Fin 8192) (k : Fin 64) :
    concatenate S8192x8256 1 [⟨S8192x8192, X⟩, ⟨S8192x64, H⟩] hc (ix2 R ⟨8192 + k.val, by omega⟩) = H (ix2 R k) :=
  concatenate_pair_apply_right 1 X H hc (ix2 R ⟨8192 + k.val, by omega⟩) rfl rfl (ix2 R k)
    (fun b hb =>
      match b, hb with
      | ⟨0, _⟩, _ => rfl
      | ⟨1, _⟩, hb => absurd rfl hb)
    (by show k.val + 8192 = 8192 + k.val; omega)

/-- One stretch of 2048 joined columns starting at `o` (inside the first 8192): the products read the first operand. -/
theorem stretch_sum {N : Nat} (hc : Shape.Concatenates [S8192x8192, S8192x64] S8192x8256 1)
    (X : FVec Ideal S8192x8192 .f32) (H : FVec Ideal S8192x64 .f32) (W : FVec Ideal ⟨2, ![8256, N]⟩ .f32)
    (R : Fin 8192) (c : Fin N) (o : Nat) (ho : o + 2048 ≤ 8192) :
    ∑ k : Fin 2048, concatenate S8192x8256 1 [⟨S8192x8192, X⟩, ⟨S8192x64, H⟩] hc (ix2 R ⟨o + k.val, by omega⟩)
          * W (ix2 ⟨o + k.val, by omega⟩ c)
      = ∑ k : Fin 2048, X (ix2 R ⟨o + k.val, by omega⟩) * W (ix2 ⟨o + k.val, by omega⟩ c) :=
  Finset.sum_congr rfl fun k _ =>
    congrArg (· * W (ix2 ⟨o + k.val, by omega⟩ c)) (concat_left hc X H R (o + k.val) (by omega))

/-- THE PRODUCT AT AN INDEX, TILED: for plain dimension numbers with any number `N` of output columns, element
    (R, c) of the joined operand times the weights is zero plus the four stretches of 2048 products of the first
    operand plus the 64 products of the second, added from the left. -/
theorem dot_concat_tiled {N : Nat} (D : DotDims S8192x8256 ⟨2, ![8256, N]⟩ ⟨2, ![8192, N]⟩) (hD : D = DotDims.plain 8192 8256 N)
    (hc : Shape.Concatenates [S8192x8192, S8192x64] S8192x8256 1)
    (X : FVec Ideal S8192x8192 .f32) (H : FVec Ideal S8192x64 .f32) (W : FVec Ideal ⟨2, ![8256, N]⟩ .f32)
    (R : Fin 8192) (c : Fin N) :
    Host.dotGeneral (F := Ideal) D none (concatenate S8192x8256 1 [⟨S8192x8192, X⟩, ⟨S8192x64, H⟩] hc) W (ix2 R c)
      = ((((0 + ∑ k : Fin 2048, X (ix2 R ⟨k.val, by omega⟩) * W (ix2 ⟨k.val, by omega⟩ c))
              + ∑ k : Fin 2048, X (ix2 R ⟨2048 + k.val, by omega⟩) * W (ix2 ⟨2048 + k.val, by omega⟩ c))
            + ∑ k : Fin 2048, X (ix2 R ⟨4096 + k.val, by omega⟩) * W (ix2 ⟨4096 + k.val, by omega⟩ c))
          + ∑ k : Fin 2048, X (ix2 R ⟨6144 + k.val, by omega⟩) * W (ix2 ⟨6144 + k.val, by omega⟩ c))
        + ∑ k : Fin 64, H (ix2 R k) * W (ix2 ⟨8192 + k.val, by omega⟩ c) := by
  subst hD
  refine (PlainDot.hostDot_apply _ W (ix2 R c)).trans ?_
  refine (Cert.SumSplit.sum_split_fin fun k : Fin 8256 =>
    concatenate S8192x8256 1 [⟨S8192x8192, X⟩, ⟨S8192x64, H⟩] hc (ix2 R k) * W (ix2 k c)).trans ?_
  have e0 : ∑ k : Fin 2048, concatenate S8192x8256 1 [⟨S8192x8192, X⟩, ⟨S8192x64, H⟩] hc (ix2 R ⟨k.val, by omega⟩)
        * W (ix2 ⟨k.val, by omega⟩ c)
      = ∑ k : Fin 2048, X (ix2 R ⟨k.val, by omega⟩) * W (ix2 ⟨k.val, by omega⟩ c) :=
    Finset.sum_congr rfl fun k _ =>
      congrArg (· * W (ix2 ⟨k.val, by omega⟩ c)) (concat_left hc X H R k.val (by omega))
  have e5 : ∑ k : Fin 64, concatenate S8192x8256 1 [⟨S8192x8192, X⟩, ⟨S8192x64, H⟩] hc (ix2 R ⟨8192 + k.val, by omega⟩)
        * W (ix2 ⟨8192 + k.val, by omega⟩ c)
      = ∑ k : Fin 64, H (ix2 R k) * W (ix2 ⟨8192 + k.val, by omega⟩ c) :=
    Finset.sum_congr rfl fun k _ =>
      congrArg (· * W (ix2 ⟨8192 + k.val, by omega⟩ c)) (concat_right hc X H R k)
  exact congrArg₂ (· + ·)
    (congrArg₂ (· + ·)
      (congrArg₂ (· + ·)
        (congrArg₂ (· + ·) (congrArg (0 + ·) e0) (stretch_sum hc X H W R c 2048 (by omega)))
        (stretch_sum hc X H W R c 4096 (by omega)))
      (stretch_sum hc X H W R c 6144 (by omega)))
    e5

/-- THE PRODUCT AT AN INDEX, IN TWO PARTS: the 8192 products of the first operand plus the 64 of the second. -/
theorem dot_concat_two {N : Nat} (D : DotDims S8192x8256 ⟨2, ![8256, N]⟩ ⟨2, ![8192, N]⟩) (hD : D = DotDims.plain 8192 8256 N)
    (hc : Shape.Concatenates [S8192x8192, S8192x64] S8192x8256 1)
    (X : FVec Ideal S8192x8192 .f32) (H : FVec Ideal S8192x64 .f32) (W : FVec Ideal ⟨2, ![8256, N]⟩ .f32)
    (R : Fin 8192) (c : Fin N) :
    Host.dotGeneral (F := Ideal) D none (concatenate S8192x8256 1 [⟨S8192x8192, X⟩, ⟨S8192x64, H⟩] hc) W (ix2 R c)
      = (∑ k : Fin 8192, X (ix2 R k) * W (ix2 ⟨k.val, by omega⟩ c))
        + ∑ k : Fin 64, H (ix2 R k) * W (ix2 ⟨8192 + k.val, by omega⟩ c) := by
  subst hD
  refine (PlainDot.hostDot_apply _ W (ix2 R c)).trans ?_
  refine (Cert.SumSplit.sum_two_fin fun k : Fin 8256 =>
    concatenate S8192x8256 1 [⟨S8192x8192, X⟩, ⟨S8192x64, H⟩] hc (ix2 R k) * W (ix2 k c)).trans ?_
  have e0 : ∑ k : Fin 8192, concatenate S8192x8256 1 [⟨S8192x8192, X⟩, ⟨S8192x64, H⟩] hc (ix2 R ⟨k.val, by omega⟩)
        * W (ix2 ⟨k.val, by omega⟩ c)
      = ∑ k : Fin 8192, X (ix2 R k) * W (ix2 ⟨k.val, by omega⟩ c) :=
    Finset.sum_congr rfl fun k _ =>
      congrArg (· * W (ix2 ⟨k.val, by omega⟩ c)) (concat_left hc X H R k.val k.isLt)
  have e5 : ∑ k : Fin 64, concatenate S8192x8256 1 [⟨S8192x8192, X⟩, ⟨S8192x64, H⟩] hc (ix2 R ⟨8192 + k.val, by omega⟩)
        * W (ix2 ⟨8192 + k.val, by omega⟩ c)
      = ∑ k : Fin 64, H (ix2 R k) * W (ix2 ⟨8192 + k.val, by omega⟩ c) :=
    Finset.sum_congr rfl fun k _ =>
      congrArg (· * W (ix2 ⟨8192 + k.val, by omega⟩ c)) (concat_right hc X H R k)
  exact congrArg₂ (· + ·) e0 e5

/-- THE TILE BLOCKS MEET THE PRODUCT: if four 2048-column blocks `xb t`, read at row `r`, are the first operand's
    row `R` at columns `2048 * t + k`, four 2048-row blocks `wb t`, read at column `c`, are the weights' rows
    `2048 * t + k`, a block `hb` at row `r` is the second operand's row `R`, and a 64-row block `whb` is the
    weights' rows `8192 + k`, then the sums over the blocks, added from the left from zero, are element (R, c) of
    the reference's product. -/
theorem blocks_eq_dot {N Mb : Nat} (D : DotDims S8192x8256 ⟨2, ![8256, N]⟩ ⟨2, ![8192, N]⟩) (hD : D = DotDims.plain 8192 8256 N)
    (hc : Shape.Concatenates [S8192x8192, S8192x64] S8192x8256 1)
    (X : FVec Ideal S8192x8192 .f32) (H : FVec Ideal S8192x64 .f32) (W : FVec Ideal ⟨2, ![8256, N]⟩ .f32)
    (R : Fin 8192) (c : Fin N) (r : Fin Mb)
    (xb : Fin 4 → FVec Ideal ⟨2, ![Mb, 2048]⟩ .f32) (wb : Fin 4 → FVec Ideal ⟨2, ![2048, N]⟩ .f32)
    (hb : FVec Ideal ⟨2, ![Mb, 64]⟩ .f32) (whb : FVec Ideal ⟨2, ![64, N]⟩ .f32)
    (hx : ∀ (t : Fin 4) (k : Fin 2048) (n : Fin 8192), n.val = 2048 * t.val + k.val → xb t (ix2 r k) = X (ix2 R n))
    (hw : ∀ (t : Fin 4) (k : Fin 2048) (n : Fin 8256), n.val = 2048 * t.val + k.val → wb t (ix2 k c) = W (ix2 n c))
    (hh : ∀ k : Fin 64, hb (ix2 r k) = H (ix2 R k))
    (hwh : ∀ (k : Fin 64) (n : Fin 8256), n.val = 8192 + k.val → whb (ix2 k c) = W (ix2 n c)) :
    ((((0 + ∑ k : Fin 2048, xb 0 (ix2 r k) * wb 0 (ix2 k c)) + ∑ k : Fin 2048, xb 1 (ix2 r k) * wb 1 (ix2 k c))
            + ∑ k : Fin 2048, xb 2 (ix2 r k) * wb 2 (ix2 k c)) + ∑ k : Fin 2048, xb 3 (ix2 r k) * wb 3 (ix2 k c))
          + ∑ k : Fin 64, hb (ix2 r k) * whb (ix2 k c)
      = Host.dotGeneral (F := Ideal) D none (concatenate S8192x8256 1 [⟨S8192x8192, X⟩, ⟨S8192x64, H⟩] hc) W (ix2 R c) := by
  refine Eq.trans ?_ (dot_concat_tiled D hD hc X H W R c).symm
  have e0 : ∑ k : Fin 2048, xb 0 (ix2 r k) * wb 0 (ix2 k c)
      = ∑ k : Fin 2048, X (ix2 R ⟨k.val, by omega⟩) * W (ix2 ⟨k.val, by omega⟩ c) :=
    Finset.sum_congr rfl fun k _ => congrArg₂ (· * ·) (hx 0 k _ (by show k.val = 2048 * 0 + k.val; omega))
      (hw 0 k _ (by show k.val = 2048 * 0 + k.val; omega))
  have e1 : ∑ k : Fin 2048, xb 1 (ix2 r k) * wb 1 (ix2 k c)
      = ∑ k : Fin 2048, X (ix2 R ⟨2048 + k.val, by omega⟩) * W (ix2 ⟨2048 + k.val, by omega⟩ c) :=
    Finset.sum_congr rfl fun k _ => congrArg₂ (· * ·) (hx 1 k _ (by show 2048 + k.val = 2048 * 1 + k.val; omega))
      (hw 1 k _ (by show 2048 + k.val = 2048 * 1 + k.val; omega))
  have e2 : ∑ k : Fin 2048, xb 2 (ix2 r k) * wb 2 (ix2 k c)
      = ∑ k : Fin 2048, X (ix2 R ⟨4096 + k.val, by omega⟩) * W (ix2 ⟨4096 + k.val, by omega⟩ c) :=
    Finset.sum_congr rfl fun k _ => congrArg₂ (· * ·) (hx 2 k _ (by show 4096 + k.val = 2048 * 2 + k.val; omega))
      (hw 2 k _ (by show 4096 + k.val = 2048 * 2 + k.val; omega))
  have e3 : ∑ k : Fin 2048, xb 3 (ix2 r k) * wb 3 (ix2 k c)
      = ∑ k : Fin 2048, X (ix2 R ⟨6144 + k.val, by omega⟩) * W (ix2 ⟨6144 + k.val, by omega⟩ c) :=
    Finset.sum_congr rfl fun k _ => congrArg₂ (· * ·) (hx 3 k _ (by show 6144 + k.val = 2048 * 3 + k.val; omega))
      (hw 3 k _ (by show 6144 + k.val = 2048 * 3 + k.val; omega))
  have e4 : ∑ k : Fin 64, hb (ix2 r k) * whb (ix2 k c)
      = ∑ k : Fin 64, H (ix2 R k) * W (ix2 ⟨8192 + k.val, by omega⟩ c) :=
    Finset.sum_congr rfl fun k _ => congrArg₂ (· * ·) (hh k) (hwh k _ rfl)
  rw [e0, e1, e2, e3, e4]

/-! ## The two products of the program, with its own dimension numbers -/

section
variable [Facts₀]
open Facts₀

/-- The first product's dimension numbers are the plain ones: 8192 × 8256 by 8256 × 128. -/
theorem dot128_plain : dot_S8192x8256_S8256x128_S8192x128_1_0_0_1_n_n = DotDims.plain 8192 8256 128 := rfl

/-- The second product's dimension numbers are the plain ones: 8192 × 8256 by 8256 × 64. -/
theorem dot64_plain : dot_S8192x8256_S8256x64_S8192x64_1_0_0_1_n_n = DotDims.plain 8192 8256 64 := rfl

/-- The first product (128 output columns) at (R, c), tiled. -/
theorem dot128_tiled (X : FVec Ideal S8192x8192 .f32) (H : FVec Ideal S8192x64 .f32) (W : FVec Ideal S8256x128 .f32)
    (R : Fin 8192) (c : Fin 128) :
    Host.dotGeneral (F := Ideal) dot_S8192x8256_S8256x128_S8192x128_1_0_0_1_n_n none
        (concatenate S8192x8256 1 [⟨S8192x8192, X⟩, ⟨S8192x64, H⟩] concatenates_S8192x8192_S8192x64_S8192x8256_d1) W (ix2 R c)
      = ((((0 + ∑ k : Fin 2048, X (ix2 R ⟨k.val, by omega⟩) * W (ix2 ⟨k.val, by omega⟩ c))
              + ∑ k : Fin 2048, X (ix2 R ⟨2048 + k.val, by omega⟩) * W (ix2 ⟨2048 + k.val, by omega⟩ c))
            + ∑ k : Fin 2048, X (ix2 R ⟨4096 + k.val, by omega⟩) * W (ix2 ⟨4096 + k.val, by omega⟩ c))
          + ∑ k : Fin 2048, X (ix2 R ⟨6144 + k.val, by omega⟩) * W (ix2 ⟨6144 + k.val, by omega⟩ c))
        + ∑ k : Fin 64, H (ix2 R k) * W (ix2 ⟨8192 + k.val, by omega⟩ c) :=
  dot_concat_tiled _ dot128_plain _ X H W R c

/-- The first product at (R, c), in two parts. -/
theorem dot128_two (X : FVec Ideal S8192x8192 .f32) (H : FVec Ideal S8192x64 .f32) (W : FVec Ideal S8256x128 .f32)
    (R : Fin 8192) (c : Fin 128) :
    Host.dotGeneral (F := Ideal) dot_S8192x8256_S8256x128_S8192x128_1_0_0_1_n_n none
        (concatenate S8192x8256 1 [⟨S8192x8192, X⟩, ⟨S8192x64, H⟩] concatenates_S8192x8192_S8192x64_S8192x8256_d1) W (ix2 R c)
      = (∑ k : Fin 8192, X (ix2 R k) * W (ix2 ⟨k.val, by omega⟩ c))
        + ∑ k : Fin 64, H (ix2 R k) * W (ix2 ⟨8192 + k.val, by omega⟩ c) :=
  dot_concat_two _ dot128_plain _ X H W R c

/-- The second product (64 output columns) at (R, c), tiled. -/
theorem dot64_tiled (X : FVec Ideal S8192x8192 .f32) (H : FVec Ideal S8192x64 .f32) (W : FVec Ideal S8256x64 .f32)
    (R : Fin 8192) (c : Fin 64) :
    Host.dotGeneral (F := Ideal) dot_S8192x8256_S8256x64_S8192x64_1_0_0_1_n_n none
        (concatenate S8192x8256 1 [⟨S8192x8192, X⟩, ⟨S8192x64, H⟩] concatenates_S8192x8192_S8192x64_S8192x8256_d1) W (ix2 R c)
      = ((((0 + ∑ k : Fin 2048, X (ix2 R ⟨k.val, by omega⟩) * W (ix2 ⟨k.val, by omega⟩ c))
              + ∑ k : Fin 2048, X (ix2 R ⟨2048 + k.val, by omega⟩) * W (ix2 ⟨2048 + k.val, by omega⟩ c))
            + ∑ k : Fin 2048, X (ix2 R ⟨4096 + k.val, by omega⟩) * W (ix2 ⟨4096 + k.val, by omega⟩ c))
          + ∑ k : Fin 2048, X (ix2 R ⟨6144 + k.val, by omega⟩) * W (ix2 ⟨6144 + k.val, by omega⟩ c))
        + ∑ k : Fin 64, H (ix2 R k) * W (ix2 ⟨8192 + k.val, by omega⟩ c) :=
  dot_concat_tiled _ dot64_plain _ X H W R c

/-- The second product at (R, c), in two parts. -/
theorem dot64_two (X : FVec Ideal S8192x8192 .f32) (H : FVec Ideal S8192x64 .f32) (W : FVec Ideal S8256x64 .f32)
    (R : Fin 8192) (c : Fin 64) :
    Host.dotGeneral (F := Ideal) dot_S8192x8256_S8256x64_S8192x64_1_0_0_1_n_n none
        (concatenate S8192x8256 1 [⟨S8192x8192, X⟩, ⟨S8192x64, H⟩] concatenates_S8192x8192_S8192x64_S8192x8256_d1) W (ix2 R c)
      = (∑ k : Fin 8192, X (ix2 R k) * W (ix2 ⟨k.val, by omega⟩ c))
        + ∑ k : Fin 64, H (ix2 R k) * W (ix2 ⟨8192 + k.val, by omega⟩ c) :=
  dot_concat_two _ dot64_plain _ X H W R c

end

end Cert.ReferenceIdeal.RefDot

end
-- ==== Proof.WSlices.lean ====
/-
  The two row slices of a weight matrix with 8256 rows, read at an index: rows 0 to 8191 (the part multiplied
  with the first 8192 columns of the joined operand) and rows 8192 to 8255 (the part multiplied with the last
  64). Row k of the upper slice is row k of the matrix, row k of the lower slice is row 8192 + k; the column
  is kept.
-/
import Idealize.ShloMosaic.Lib.ValueIdx
import Idealize.ShloMosaic.Lib.Pipeline.Value

noncomputable section

namespace Cert.KernelIdeal.RefDot

open Idealize.ShloMosaic Idealize.ShloMosaic.ValueIdx

variable {α : Type}

/-- The upper slice, any number of columns: row `k` of the slice is row `k` of the matrix. -/
theorem sliceTop_apply {N : Nat} (W : (⟨2, ![8256, N]⟩ : Shape).Idx → α)
    (h : (⟨2, ![8256, N]⟩ : Shape).Slices ![0, 0] ⟨2, ![8192, N]⟩) (k : Fin 8192) (c : Fin N) :
    extractStridedSlice ⟨2, ![8192, N]⟩ ![0, 0] W h (ix2 k c) = W (ix2 ⟨k.val, by omega⟩ c) :=
  extractStridedSlice_apply ![0, 0] W h (ix2 k c) (ix2 ⟨k.val, by omega⟩ c) fun a =>
    match a with
    | ⟨0, _⟩ => by show k.val = 0 + k.val; omega
    | ⟨1, _⟩ => by show c.val = 0 + c.val; omega

/-- The lower slice, any number of columns: row `k` of the slice is row `8192 + k` of the matrix. -/
theorem sliceBot_apply {N : Nat} (W : (⟨2, ![8256, N]⟩ : Shape).Idx → α)
    (h : (⟨2, ![8256, N]⟩ : Shape).Slices ![8192, 0] ⟨2, ![64, N]⟩) (k : Fin 64) (c : Fin N) :
    extractStridedSlice ⟨2, ![64, N]⟩ ![8192, 0] W h (ix2 k c) = W (ix2 ⟨8192 + k.val, by omega⟩ c) :=
  extractStridedSlice_apply ![8192, 0] W h (ix2 k c) (ix2 ⟨8192 + k.val, by omega⟩ c) fun a =>
    match a with
    | ⟨0, _⟩ => by show 8192 + k.val = 8192 + k.val; rfl
    | ⟨1, _⟩ => by show c.val = 0 + c.val; omega

/-- The upper slice of the 128-column weights. -/
theorem slice128Top_apply (W : (⟨2, ![8256, 128]⟩ : Shape).Idx → α)
    (h : (⟨2, ![8256, 128]⟩ : Shape).Slices ![0, 0] ⟨2, ![8192, 128]⟩) (k : Fin 8192) (c : Fin 128) :
    extractStridedSlice ⟨2, ![8192, 128]⟩ ![0, 0] W h (ix2 k c) = W (ix2 ⟨k.val, by omega⟩ c) :=
  sliceTop_apply W h k c

/-- The lower slice of the 128-column weights. -/
theorem slice128Bot_apply (W : (⟨2, ![8256, 128]⟩ : Shape).Idx → α)
    (h : (⟨2, ![8256, 128]⟩ : Shape).Slices ![8192, 0] ⟨2, ![64, 128]⟩) (k : Fin 64) (c : Fin 128) :
    extractStridedSlice ⟨2, ![64, 128]⟩ ![8192, 0] W h (ix2 k c) = W (ix2 ⟨8192 + k.val, by omega⟩ c) :=
  sliceBot_apply W h k c

/-- The upper slice of the 64-column weights. -/
theorem slice64Top_apply (W : (⟨2, ![8256, 64]⟩ : Shape).Idx → α)
    (h : (⟨2, ![8256, 64]⟩ : Shape).Slices ![0, 0] ⟨2, ![8192, 64]⟩) (k : Fin 8192) (c : Fin 64) :
    extractStridedSlice ⟨2, ![8192, 64]⟩ ![0, 0] W h (ix2 k c) = W (ix2 ⟨k.val, by omega⟩ c) :=
  sliceTop_apply W h k c

/-- The lower slice of the 64-column weights. -/
theorem slice64Bot_apply (W : (⟨2, ![8256, 64]⟩ : Shape).Idx → α)
    (h : (⟨2, ![8256, 64]⟩ : Shape).Slices ![8192, 0] ⟨2, ![64, 64]⟩) (k : Fin 64) (c : Fin 64) :
    extractStridedSlice ⟨2, ![64, 64]⟩ ![8192, 0] W h (ix2 k c) = W (ix2 ⟨8192 + k.val, by omega⟩ c) :=
  sliceBot_apply W h k c

end Cert.KernelIdeal.RefDot

end
-- ==== Proof.R0Value.lean ====
/-
  Region 0 (the first fused product), read as values.

  What each control case of the body leaves in the accumulator and in the output block is one store's payload
  over the blocks the body loaded: at tile 0 the tile's product added to the zero block, at tiles 1 and 2 the
  tile's product added to what the point before left, at tile 3 that and the last product on top, and the
  output block is stored from the accumulator. Unrolled four points back from a tile-3 point, the output block
  at (r, c) is zero plus the four tile sums plus the last sum, over the blocks of the four points; read off the
  arrays the region finds, those blocks are the rows and columns of the whole operands, so the output array
  ends holding, at every (R, c), the split sum over the whole operands; with the two weights the row slices of one
  matrix, that is the reference's one product of the joined operands with the whole matrix.
-/
import proofs.«112653_j60352880443527_1_alg».proof.Proof.R0Frame
import proofs.«112653_j60352880443527_1_alg».proof.Proof.TileValue0
import proofs.«112653_j60352880443527_1_alg».proof.Proof.RefDot
import proofs.«112653_j60352880443527_1_alg».proof.Proof.WSlices
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## What each case leaves: one store's payload -/

section Pieces
variable {F : FTy → Type} [FloatOps F]

/-- The offsets of every load and store of the body: none. -/
theorem hz0 : (![0, 0] : Fin 2 → Nat) = fun _ => 0 := funext fun a => by fin_cases a <;> rfl

/-- A load through the whole buffer after stores the last of which filled it reads that store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Tiles 1 and 2: the accumulator ends at the tile's product added to what it held. -/
theorem sout0_B_eq (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x2048 .f32) (x2 : Vec F S2048x128 .f32) (xs : Vec F S1024x128 .f32) :
    sout0_B c i arg2 harg2 arg3 harg3 arg4 harg4 arg5 harg5 arg6 harg6 arg7 harg7 hc0 hc1 x0 x2 xs = k0_pay2 x0 x2 xs := by
  unfold sout0_B
  rw [View.read_writes_eq_canon _ _ _ (scover0_B c i arg2 harg2 arg3 harg3 arg4 harg4 arg5 harg5 arg6 harg6 arg7 harg7 hc0 hc1 x0 x2 xs)]
  unfold kernelRun0_B
  dsimp only
  sl_unfold_words
  rw [View.canon_unit_zero hz0]
  simp only [View.readAt_eq_ld, harg2.read_unread, harg4.read_unread, harg7.read_unread,
    View.ld_unit_zero (S := S1024x2048) hz0, View.ld_unit_zero (S := S2048x128) hz0, View.ld_unit_zero (S := S1024x128) hz0]

/-- Tile 0: the accumulator is zeroed, read back, and ends at the tile's product added to the zero block. -/
theorem sout0_A_eq (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x2048 .f32) (x2 : Vec F S2048x128 .f32) :
    sout0_A c i arg2 harg2 arg3 harg3 arg4 harg4 arg5 harg5 arg6 harg6 arg7 harg7 hc0 hc1 x0 x2 = k0_pay2 x0 x2 k0_pay1 := by
  unfold sout0_A
  rw [View.read_writes_eq_canon _ _ _ (scover0_A c i arg2 harg2 arg3 harg3 arg4 harg4 arg5 harg5 arg6 harg6 arg7 harg7 hc0 hc1 x0 x2)]
  unfold kernelRun0_A
  dsimp only
  sl_unfold_words
  rw [View.canon_cons_unit_zero (S := S1024x128) hz0, View.readCov_unit_zero (S := S1024x128) _ hz0]
  simp only [View.readAt_eq_ld, harg2.read_unread, harg4.read_unread,
    View.ld_unit_zero (S := S1024x2048) hz0, View.ld_unit_zero (S := S2048x128) hz0]

/-- Tile 3, the accumulator: the tile's product added to what it held, then the last product on top. -/
theorem sout0_C_eq (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) :
    sout0_C c i arg2 harg2 arg3 harg3 arg4 harg4 arg5 harg5 arg6 harg6 arg7 harg7 hc0 hc1 x0 x1 x2 x3 xs = k0_pay3 x1 x3 (k0_pay2 x0 x2 xs) := by
  unfold sout0_C
  rw [View.read_writes_eq_canon _ _ _ (scover0_C c i arg2 harg2 arg3 harg3 arg4 harg4 arg5 harg5 arg6 harg6 arg7 harg7 hc0 hc1 x0 x1 x2 x3 xs)]
  unfold kernelRun0_C
  dsimp only
  sl_unfold_words
  rw [View.canon_cons_unit_zero (S := S1024x128) hz0, View.readCov_unit_zero (S := S1024x128) _ hz0]
  simp only [View.readAt_eq_ld, harg2.read_unread, harg3.read_unread, harg4.read_unread, harg5.read_unread, harg7.read_unread,
    View.ld_unit_zero (S := S1024x2048) hz0, View.ld_unit_zero (S := S2048x128) hz0, View.ld_unit_zero (S := S1024x128) hz0,
    View.ld_unit_zero (S := S1024x64) hz0, View.ld_unit_zero (S := S64x128) hz0]

/-- Tile 3, the output block: the accumulator's final contents, stored. -/
theorem out0_C_eq (c : Dev nD) (i : grid0.Coords) (arg2 : Memref sig .tc .vmem S1024x2048 .f32) (harg2 : arg2.IsWhole) (arg3 : Memref sig .tc .vmem S1024x64 .f32) (harg3 : arg3.IsWhole) (arg4 : Memref sig .tc .vmem S2048x128 .f32) (harg4 : arg4.IsWhole) (arg5 : Memref sig .tc .vmem S64x128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x2048 .f32) (x1 : Vec F S1024x64 .f32) (x2 : Vec F S2048x128 .f32) (x3 : Vec F S64x128 .f32) (xs : Vec F S1024x128 .f32) :
    out0_C c i arg2 harg2 arg3 harg3 arg4 harg4 arg5 harg5 arg6 harg6 arg7 harg7 hc0 hc1 x0 x1 x2 x3 xs = k0_pay3 x1 x3 (k0_pay2 x0 x2 xs) := by
  unfold out0_C
  rw [View.read_writes_eq_canon _ _ _ (cover0_C c i arg2 harg2 arg3 harg3 arg4 harg4 arg5 harg5 arg6 harg6 arg7 harg7 hc0 hc1 x0 x1 x2 x3 xs)]
  unfold kernelRun0_C
  dsimp only
  sl_unfold_words
  rw [View.canon_unit_zero hz0, readCov_cons_unit_zero (S := S1024x128) _ hz0, View.readCov_unit_zero (S := S1024x128) _ hz0]
  simp only [View.readAt_eq_ld, harg2.read_unread, harg3.read_unread, harg4.read_unread, harg5.read_unread, harg7.read_unread,
    View.ld_unit_zero (S := S1024x2048) hz0, View.ld_unit_zero (S := S2048x128) hz0, View.ld_unit_zero (S := S1024x128) hz0,
    View.ld_unit_zero (S := S1024x64) hz0, View.ld_unit_zero (S := S64x128) hz0]

end Pieces

/-! ## The accumulator unrolled over one row block's four points -/

section Chain
variable {F : FTy → Type} [FloatOps F]
variable (V : (c : Dev nD) → (b : Ref sig .tc) → Buf (Elt F) ((c : Thread nD τ).loc b))

/-- The accumulator after a point depends on the point's position only. -/
theorem accAt0_congr (c : Dev nD) {n n' : ℕ} (e : n = n') (h : n < cfg0.N) (h' : n' < cfg0.N) :
    accAt0 V c n h = accAt0 V c n' h' := by
  subst e; rfl

/-- After a tile-0 point: the tile's product added to the zero block. -/
theorem accAt0_first (c : Dev nD) (n : ℕ) (hn : n % 4 = 0) (h : n < cfg0.N) :
    accAt0 V c n h = k0_pay2 (iblk0 V c 0 ⟨n, h⟩) (iblk0 V c 2 ⟨n, h⟩) k0_pay1 :=
  (accAt0_A V c ⟨n, h⟩ hn (fun h3 : n % 4 = 3 => by omega)).trans
    (sout0_A_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0 (Memref.isWhole_whole _) _ _ (iblk0 V c 0 ⟨n, h⟩) (iblk0 V c 2 ⟨n, h⟩))

/-- After a point of tile 1 or 2: the tile's product added to what the point before left. -/
theorem accAt0_next (c : Dev nD) (n : ℕ) (h : n + 1 < cfg0.N) (hn0 : ¬(n + 1) % 4 = 0) (hn3 : ¬(n + 1) % 4 = 3) :
    accAt0 V c (n + 1) h
      = k0_pay2 (iblk0 V c 0 ⟨n + 1, h⟩) (iblk0 V c 2 ⟨n + 1, h⟩) (accAt0 V c n (Nat.lt_of_succ_lt h)) :=
  ((dif_neg hn3).trans ((dif_neg hn0).trans rfl)).trans
    (sout0_B_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0 (Memref.isWhole_whole _) (fun hh => hn0 ((hcond0_0 ⟨n + 1, h⟩).mp hh)) (fun hh => hn3 ((hcond0_1 ⟨n + 1, h⟩).mp hh))
      (iblk0 V c 0 ⟨n + 1, h⟩) (iblk0 V c 2 ⟨n + 1, h⟩) (accAt0 V c n (Nat.lt_of_succ_lt h)))

/-- THE OUTPUT BLOCK AT A TILE-3 POINT, unrolled: the last product on top of the four tiles' products on top of
    the zero block, over the blocks of the four points of the row block. -/
theorem outAt0_chain (c : Dev nD) (n : ℕ) (hn : n % 4 = 0) (h : n + 3 < cfg0.N) :
    outAt0 V c ⟨n + 3, h⟩
      = k0_pay3 (iblk0 V c 1 ⟨n + 3, h⟩) (iblk0 V c 3 ⟨n + 3, h⟩)
          (k0_pay2 (iblk0 V c 0 ⟨n + 3, h⟩) (iblk0 V c 2 ⟨n + 3, h⟩)
            (k0_pay2 (iblk0 V c 0 ⟨n + 2, Nat.lt_of_succ_lt h⟩) (iblk0 V c 2 ⟨n + 2, Nat.lt_of_succ_lt h⟩)
              (k0_pay2 (iblk0 V c 0 ⟨n + 1, Nat.lt_of_succ_lt (Nat.lt_of_succ_lt h)⟩) (iblk0 V c 2 ⟨n + 1, Nat.lt_of_succ_lt (Nat.lt_of_succ_lt h)⟩)
                (k0_pay2 (iblk0 V c 0 ⟨n, Nat.lt_of_succ_lt (Nat.lt_of_succ_lt (Nat.lt_of_succ_lt h))⟩)
                  (iblk0 V c 2 ⟨n, Nat.lt_of_succ_lt (Nat.lt_of_succ_lt (Nat.lt_of_succ_lt h))⟩) k0_pay1)))) := by
  have h2 : n + 2 < cfg0.N := Nat.lt_of_succ_lt h
  have h1 : n + 1 < cfg0.N := Nat.lt_of_succ_lt h2
  have h0 : n < cfg0.N := Nat.lt_of_succ_lt h1
  have e0 := accAt0_first V c n hn h0
  have e1 := accAt0_next V c n h1 (by omega) (by omega)
  have e2 : accAt0 V c (n + 2) h2
      = k0_pay2 (iblk0 V c 0 ⟨n + 2, h2⟩) (iblk0 V c 2 ⟨n + 2, h2⟩) (accAt0 V c (n + 1) h1) :=
    accAt0_next V c (n + 1) h2 (by omega) (by omega)
  have e3 : (n + 3) % 4 = 3 := by omega
  have e4 : ¬(n + 3) % 4 = 0 := by omega
  refine (outAt0_C V c ⟨n + 3, h⟩ e4 e3).trans ?_
  refine (out0_C_eq c (grid0.coords ⟨n + 3, h⟩) (ms0_0 ⟨n + 3, h⟩) (hs0_0 ⟨n + 3, h⟩) (ms0_1 ⟨n + 3, h⟩) (hs0_1 ⟨n + 3, h⟩) (ms0_2 ⟨n + 3, h⟩) (hs0_2 ⟨n + 3, h⟩) (ms0_3 ⟨n + 3, h⟩) (hs0_3 ⟨n + 3, h⟩) (ms0_4 ⟨n + 3, h⟩) (hs0_4 ⟨n + 3, h⟩) scM0 (Memref.isWhole_whole _) _ _ (iblk0 V c 0 ⟨n + 3, h⟩) (iblk0 V c 1 ⟨n + 3, h⟩) (iblk0 V c 2 ⟨n + 3, h⟩) (iblk0 V c 3 ⟨n + 3, h⟩) _).trans ?_
  rw [accAt0_congr V c (show (⟨n + 3, h⟩ : Fin cfg0.N).val - 1 = n + 2 from by show n + 3 - 1 = n + 2; omega) _ h2, e2, e1, e0]

end Chain

/-! ## The blocks are rows and columns of the whole arrays -/

/-- The printed index maps over the grid: point t is row block t / 4 and contraction tile t % 4. -/
theorem idx_facts0 : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = t.val % 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

/-- The arrays behind the region's five windows. -/
theorem arrRef0 : Pipeline.arrRef spec0 0 = main_arg0 ∧ Pipeline.arrRef spec0 1 = main_arg1 ∧ Pipeline.arrRef spec0 2 = main_v4
    ∧ Pipeline.arrRef spec0 3 = main_v5 ∧ Pipeline.arrRef spec0 4 = main_v8 := ⟨rfl, rfl, rfl, rfl, rfl⟩

section Blocks
variable {F : FTy → Type} [FloatOps F]
variable (V : (c : Dev nD) → (b : Ref sig .tc) → Buf (Elt F) ((c : Thread nD τ).loc b))

/-- A block of the first operand at (r, k): row (t / 4) * 1024 + r, column (t % 4) * 2048 + k of the array. -/
theorem blk0_0 (c : Dev nD) (t : Fin cfg0.N) (r : Fin 1024) (k : Fin 2048) (R n : Fin 8192)
    (hR : R.val = t.val / 4 * 1024 + r.val) (hn : n.val = t.val % 4 * 2048 + k.val) :
    (iblk0 V c 0 t : Vec F S1024x2048 .f32) (ix2 r k) = (V c main_arg0 : S8192x8192.Idx → Elt F .f32) (ix2 R n) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * r.val = R.val; rw [e0, hR]; omega
  | ⟨1, _⟩ => show win0_0.index t (1 : Fin 2) * 2048 + 1 * k.val = n.val; rw [e1, hn]; omega

/-- A block of the second operand at (r, k): row (t / 4) * 1024 + r, column k of the array. -/
theorem blk0_1 (c : Dev nD) (t : Fin cfg0.N) (r : Fin 1024) (k : Fin 64) (R : Fin 8192)
    (hR : R.val = t.val / 4 * 1024 + r.val) :
    (iblk0 V c 1 t : Vec F S1024x64 .f32) (ix2 r k) = (V c main_arg1 : S8192x64.Idx → Elt F .f32) (ix2 R k) := by
  obtain ⟨-, -, e0, e1, -⟩ := idx_facts0 t
  unfold iblk0
  rw [View.read_apply]
  show V c main_arg1 _ = V c main_arg1 _
  refine congrArg (V c main_arg1) (funext fun a => Fin.ext ?_)
  match a with
  | ⟨0, _⟩ => show win0_1.index t (0 : Fin 2) * 1024 + 1 * r.val = R.val; rw [e0, hR]; omega
  | ⟨1, _⟩ => show win0_1.index t (1 : Fin 2) * 64 + 1 * k.val = k.val; rw [e1]; omega

/-- A block of the upper weights at (k, col): row (t % 4) * 2048 + k, column col of the array. -/
theorem blk0_2 (c : Dev nD) (t : Fin cfg0.N) (k : Fin 2048) (col : Fin 128) (n : Fin 8192)
    (hn : n.val = t.val % 4 * 2048 + k.val) :
    (iblk0 V c 2 t : Vec F S2048x128 .f32) (ix2 k col) = (V c main_v4 : S8192x128.Idx → Elt F .f32) (ix2 n col) := by
  obtain ⟨-, -, -, -, e0, e1, -⟩ := idx_facts0 t
  unfold iblk0
  rw [View.read_apply]
  show V c main_v4 _ = V c main_v4 _
  refine congrArg (V c main_v4) (funext fun a => Fin.ext ?_)
  match a with
  | ⟨0, _⟩ => show win0_2.index t (0 : Fin 2) * 2048 + 1 * k.val = n.val; rw [e0, hn]; omega
  | ⟨1, _⟩ => show win0_2.index t (1 : Fin 2) * 128 + 1 * col.val = col.val; rw [e1]; omega

/-- The one block of the lower weights is the array. -/
theorem blk0_3 (c : Dev nD) (t : Fin cfg0.N) (k : Fin 64) (col : Fin 128) :
    (iblk0 V c 3 t : Vec F S64x128 .f32) (ix2 k col) = (V c main_v5 : S64x128.Idx → Elt F .f32) (ix2 k col) := by
  obtain ⟨-, -, -, -, -, -, e0, e1, -⟩ := idx_facts0 t
  unfold iblk0
  rw [View.read_apply]
  show V c main_v5 _ = V c main_v5 _
  refine congrArg (V c main_v5) (funext fun a => Fin.ext ?_)
  match a with
  | ⟨0, _⟩ => show win0_3.index t (0 : Fin 2) * 64 + 1 * k.val = k.val; rw [e0]; omega
  | ⟨1, _⟩ => show win0_3.index t (1 : Fin 2) * 128 + 1 * col.val = col.val; rw [e1]; omega

end Blocks

/-! ## The output array -/

/-- Element (R, col) of the result: zero, the four stretches of 2048 products of the first operand's row R with
    the upper weights' column col, then the 64 products of the second operand's row R with the lower weights'
    column col, added from the left. -/
def G0at (X : S8192x8192.Idx → EReal) (H : S8192x64.Idx → EReal) (Wx : S8192x128.Idx → EReal) (Wh : S64x128.Idx → EReal)
    (R : Fin 8192) (col : Fin 128) : EReal :=
  ((((0 + ∑ k : Fin 2048, X (ix2 R ⟨k.val, by omega⟩) * Wx (ix2 ⟨k.val, by omega⟩ col))
        + ∑ k : Fin 2048, X (ix2 R ⟨2048 + k.val, by omega⟩) * Wx (ix2 ⟨2048 + k.val, by omega⟩ col))
      + ∑ k : Fin 2048, X (ix2 R ⟨4096 + k.val, by omega⟩) * Wx (ix2 ⟨4096 + k.val, by omega⟩ col))
    + ∑ k : Fin 2048, X (ix2 R ⟨6144 + k.val, by omega⟩) * Wx (ix2 ⟨6144 + k.val, by omega⟩ col))
  + ∑ k : Fin 64, H (ix2 R k) * Wh (ix2 k col)

/-- THE RESULT ARRAY as one function of the four arrays the region reads. -/
def G0 (X : S8192x8192.Idx → EReal) (H : S8192x64.Idx → EReal) (Wx : S8192x128.Idx → EReal) (Wh : S64x128.Idx → EReal) :
    S8192x128.Idx → EReal :=
  fun j => G0at X H Wx Wh (j 0) (j 1)

/-- At an index given by its coordinates. -/
theorem G0_ix2 (X : S8192x8192.Idx → EReal) (H : S8192x64.Idx → EReal) (Wx : S8192x128.Idx → EReal) (Wh : S64x128.Idx → EReal)
    (R : Fin 8192) (col : Fin 128) : G0 X H Wx Wh (ix2 R col) = G0at X H Wx Wh R col := rfl

/-- THE TILE BLOCKS MEET THE WHOLE ARRAYS: if the four 1024 × 2048 blocks at row r are the first operand's row R at
    the four stretches of columns, the four 2048 × 128 blocks at column col the upper weights' rows of the same
    stretches, the 1024 × 64 block at row r the second operand's row R and the 64 × 128 block the lower weights,
    then the accumulation's value at (r, col) is the result's element (R, col). -/
theorem tiles_eq_G0at (X : S8192x8192.Idx → EReal) (H : S8192x64.Idx → EReal) (Wx : S8192x128.Idx → EReal) (Wh : S64x128.Idx → EReal)
    (R : Fin 8192) (col : Fin 128) (r : Fin 1024)
    (x0 x1 x2 x3 : FVec Ideal S1024x2048 .f32) (w0 w1 w2 w3 : FVec Ideal S2048x128 .f32)
    (hb : FVec Ideal S1024x64 .f32) (whb : FVec Ideal S64x128 .f32)
    (hx0 : ∀ k : Fin 2048, x0 (ix2 r k) = X (ix2 R ⟨k.val, by omega⟩))
    (hx1 : ∀ k : Fin 2048, x1 (ix2 r k) = X (ix2 R ⟨2048 + k.val, by omega⟩))
    (hx2 : ∀ k : Fin 2048, x2 (ix2 r k) = X (ix2 R ⟨4096 + k.val, by omega⟩))
    (hx3 : ∀ k : Fin 2048, x3 (ix2 r k) = X (ix2 R ⟨6144 + k.val, by omega⟩))
    (hw0 : ∀ k : Fin 2048, w0 (ix2 k col) = Wx (ix2 ⟨k.val, by omega⟩ col))
    (hw1 : ∀ k : Fin 2048, w1 (ix2 k col) = Wx (ix2 ⟨2048 + k.val, by omega⟩ col))
    (hw2 : ∀ k : Fin 2048, w2 (ix2 k col) = Wx (ix2 ⟨4096 + k.val, by omega⟩ col))
    (hw3 : ∀ k : Fin 2048, w3 (ix2 k col) = Wx (ix2 ⟨6144 + k.val, by omega⟩ col))
    (hh : ∀ k : Fin 64, hb (ix2 r k) = H (ix2 R k))
    (hwh : ∀ k : Fin 64, whb (ix2 k col) = Wh (ix2 k col)) :
    k0_pay3 (F := Ideal) hb whb
        (k0_pay2 (F := Ideal) x3 w3 (k0_pay2 (F := Ideal) x2 w2
          (k0_pay2 (F := Ideal) x1 w1 (k0_pay2 (F := Ideal) x0 w0 (k0_pay1 (F := Ideal)))))) (ix2 r col)
      = G0at X H Wx Wh R col := by
  refine (TileValue.tile0_blocks x0 x1 x2 x3 w0 w1 w2 w3 hb whb r col).trans ?_
  unfold G0at
  exact congrArg₂ (· + ·)
    (congrArg₂ (· + ·)
      (congrArg₂ (· + ·)
        (congrArg₂ (· + ·)
          (congrArg (0 + ·) (Finset.sum_congr rfl fun k _ => congrArg₂ (· * ·) (hx0 k) (hw0 k)))
          (Finset.sum_congr rfl fun k _ => congrArg₂ (· * ·) (hx1 k) (hw1 k)))
        (Finset.sum_congr rfl fun k _ => congrArg₂ (· * ·) (hx2 k) (hw2 k)))
      (Finset.sum_congr rfl fun k _ => congrArg₂ (· * ·) (hx3 k) (hw3 k)))
    (Finset.sum_congr rfl fun k _ => congrArg₂ (· * ·) (hh k) (hwh k))

section Final
variable (V : (c : Dev nD) → (b : Ref sig .tc) → Buf (Elt Ideal) ((c : Thread nD τ).loc b))

/-- WHAT A TILE-3 POINT WRITES BACK is its block of the result. -/
theorem flushed0_eq (c : Dev nD) (t : Fin cfg0.N) (hf : (cfg0.win 4).flush t = true) :
    (dat0 V c).flushed 4 t
      = ((cfg0.win 4).blk t).view.read (Elt Ideal) (G0 (V c main_arg0) (V c main_arg1) (V c main_v4) (V c main_v5)) := by
  have h3 : t.val % 4 = 3 := (flush0_4 t).mp hf
  obtain ⟨tv, ht⟩ := t
  obtain ⟨n, rfl⟩ : ∃ n, tv = n + 3 := ⟨tv - 3, by dsimp only at h3; omega⟩
  have hn : n % 4 = 0 := by dsimp only at h3; omega
  have hN : n + 3 < 32 := lt_of_lt_of_eq ht N_0
  have h2 : n + 2 < cfg0.N := Nat.lt_of_succ_lt ht
  have h1 : n + 1 < cfg0.N := Nat.lt_of_succ_lt h2
  have h0 : n < cfg0.N := Nat.lt_of_succ_lt h1
  obtain ⟨-, -, -, -, -, -, -, -, e40, e41⟩ := idx_facts0 ⟨n + 3, ht⟩
  have e40' : win0_4.index ⟨n + 3, ht⟩ (0 : Fin 2) = (n + 3) / 4 := e40
  show (cfg0.win 4).cut (grid0.coords ⟨n + 3, ht⟩) ((dat0 V c).after 4 ⟨n + 3, ht⟩) = _
  rw [after0_4, outAt0_chain V c n hn ht]
  funext j
  have hj0 : (j 0).val < 1024 := (j 0).isLt
  have hj1 : (j 1).val < 128 := (j 1).isLt
  have hR : (n + 3) / 4 * 1024 + (j 0).val < 8192 := by omega
  have eL : (cfg0.win 4).xinj (grid0.coords ⟨n + 3, ht⟩) j = ix2 (⟨(j 0).val, hj0⟩ : Fin 1024) (⟨(j 1).val, hj1⟩ : Fin 128) :=
    funext fun a => match a with
      | ⟨0, _⟩ => rfl
      | ⟨1, _⟩ => rfl
  have eR : ((cfg0.win 4).blk ⟨n + 3, ht⟩).view.emb j = ix2 (⟨(n + 3) / 4 * 1024 + (j 0).val, hR⟩ : Fin 8192) (⟨(j 1).val, hj1⟩ : Fin 128) :=
    funext fun a => Fin.ext (by
      match a with
      | ⟨0, _⟩ => show win0_4.index ⟨n + 3, ht⟩ (0 : Fin 2) * 1024 + 1 * (j 0).val = (n + 3) / 4 * 1024 + (j 0).val; rw [e40', Nat.one_mul]
      | ⟨1, _⟩ => show win0_4.index ⟨n + 3, ht⟩ (1 : Fin 2) * 128 + 1 * (j 1).val = (j 1).val; rw [e41, Nat.zero_mul, Nat.zero_add, Nat.one_mul])
  rw [View.read_apply]
  show k0_pay3 (F := Ideal) _ _ _ ((cfg0.win 4).xinj (grid0.coords ⟨n + 3, ht⟩) j)
    = G0 (V c main_arg0) (V c main_arg1) (V c main_v4) (V c main_v5) (((cfg0.win 4).blk ⟨n + 3, ht⟩).view.emb j)
  rw [eL, eR, G0_ix2]
  exact tiles_eq_G0at (V c main_arg0) (V c main_arg1) (V c main_v4) (V c main_v5) (⟨(n + 3) / 4 * 1024 + (j 0).val, hR⟩ : Fin 8192) (⟨(j 1).val, hj1⟩ : Fin 128) (⟨(j 0).val, hj0⟩ : Fin 1024)
    (iblk0 V c 0 ⟨n, h0⟩) (iblk0 V c 0 ⟨n + 1, h1⟩) (iblk0 V c 0 ⟨n + 2, h2⟩) (iblk0 V c 0 ⟨n + 3, ht⟩)
    (iblk0 V c 2 ⟨n, h0⟩) (iblk0 V c 2 ⟨n + 1, h1⟩) (iblk0 V c 2 ⟨n + 2, h2⟩) (iblk0 V c 2 ⟨n + 3, ht⟩)
    (iblk0 V c 1 ⟨n + 3, ht⟩) (iblk0 V c 3 ⟨n + 3, ht⟩)
    (fun k => blk0_0 V c ⟨n, h0⟩ (⟨(j 0).val, hj0⟩ : Fin 1024) k (⟨(n + 3) / 4 * 1024 + (j 0).val, hR⟩ : Fin 8192) ⟨k.val, by omega⟩
      (by show (n + 3) / 4 * 1024 + (j 0).val = n / 4 * 1024 + (j 0).val; omega) (by show k.val = n % 4 * 2048 + k.val; omega))
    (fun k => blk0_0 V c ⟨n + 1, h1⟩ (⟨(j 0).val, hj0⟩ : Fin 1024) k (⟨(n + 3) / 4 * 1024 + (j 0).val, hR⟩ : Fin 8192) ⟨2048 + k.val, by omega⟩
      (by show (n + 3) / 4 * 1024 + (j 0).val = (n + 1) / 4 * 1024 + (j 0).val; omega) (by show 2048 + k.val = (n + 1) % 4 * 2048 + k.val; omega))
    (fun k => blk0_0 V c ⟨n + 2, h2⟩ (⟨(j 0).val, hj0⟩ : Fin 1024) k (⟨(n + 3) / 4 * 1024 + (j 0).val, hR⟩ : Fin 8192) ⟨4096 + k.val, by omega⟩
      (by show (n + 3) / 4 * 1024 + (j 0).val = (n + 2) / 4 * 1024 + (j 0).val; omega) (by show 4096 + k.val = (n + 2) % 4 * 2048 + k.val; omega))
    (fun k => blk0_0 V c ⟨n + 3, ht⟩ (⟨(j 0).val, hj0⟩ : Fin 1024) k (⟨(n + 3) / 4 * 1024 + (j 0).val, hR⟩ : Fin 8192) ⟨6144 + k.val, by omega⟩
      (by show (n + 3) / 4 * 1024 + (j 0).val = (n + 3) / 4 * 1024 + (j 0).val; omega) (by show 6144 + k.val = (n + 3) % 4 * 2048 + k.val; omega))
    (fun k => blk0_2 V c ⟨n, h0⟩ k (⟨(j 1).val, hj1⟩ : Fin 128) ⟨k.val, by omega⟩
      (by show k.val = n % 4 * 2048 + k.val; omega))
    (fun k => blk0_2 V c ⟨n + 1, h1⟩ k (⟨(j 1).val, hj1⟩ : Fin 128) ⟨2048 + k.val, by omega⟩
      (by show 2048 + k.val = (n + 1) % 4 * 2048 + k.val; omega))
    (fun k => blk0_2 V c ⟨n + 2, h2⟩ k (⟨(j 1).val, hj1⟩ : Fin 128) ⟨4096 + k.val, by omega⟩
      (by show 4096 + k.val = (n + 2) % 4 * 2048 + k.val; omega))
    (fun k => blk0_2 V c ⟨n + 3, ht⟩ k (⟨(j 1).val, hj1⟩ : Fin 128) ⟨6144 + k.val, by omega⟩
      (by show 6144 + k.val = (n + 3) % 4 * 2048 + k.val; omega))
    (fun k => blk0_1 V c ⟨n + 3, ht⟩ (⟨(j 0).val, hj0⟩ : Fin 1024) k (⟨(n + 3) / 4 * 1024 + (j 0).val, hR⟩ : Fin 8192) rfl)
    (fun k => blk0_3 V c ⟨n + 3, ht⟩ k (⟨(j 1).val, hj1⟩ : Fin 128))

/-- Every index of the result is in the block of the tile-3 point of its row block. -/
theorem cover0 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 32 := N_0
  have ht : 4 * ((i 0).val / 1024) + 3 < cfg0.N := by rw [hN]; omega
  refine ⟨⟨4 * ((i 0).val / 1024) + 3, ht⟩, (flush0_4 _).mpr (by show (4 * ((i 0).val / 1024) + 3) % 4 = 3; omega), ?_⟩
  obtain ⟨-, -, -, -, -, -, -, -, e40, e41⟩ := idx_facts0 ⟨4 * ((i 0).val / 1024) + 3, ht⟩
  show i ∈ ((View.whole main_v8).slice (win0_4.rect ⟨4 * ((i 0).val / 1024) + 3, ht⟩)).set
  rw [View.set_slice_whole, Rect.mem_set_unit]
  intro a
  match a with
  | ⟨0, _⟩ =>
    show win0_4.index ⟨4 * ((i 0).val / 1024) + 3, ht⟩ (0 : Fin 2) * 1024 ≤ (i 0).val
      ∧ (i 0).val < win0_4.index ⟨4 * ((i 0).val / 1024) + 3, ht⟩ (0 : Fin 2) * 1024 + 1024
    rw [show win0_4.index ⟨4 * ((i 0).val / 1024) + 3, ht⟩ (0 : Fin 2) = (4 * ((i 0).val / 1024) + 3) / 4 from e40]; omega
  | ⟨1, _⟩ =>
    show win0_4.index ⟨4 * ((i 0).val / 1024) + 3, ht⟩ (1 : Fin 2) * 128 ≤ (i 1).val
      ∧ (i 1).val < win0_4.index ⟨4 * ((i 0).val / 1024) + 3, ht⟩ (1 : Fin 2) * 128 + 128
    rw [e41]; omega

/-- THE RESULT ARRAY after the region: the split sum of the four arrays the region reads, at every index. -/
theorem final0 (c : Dev nD) :
    (dat0 V c).arrAt 4 cfg0.N = G0 (V c main_arg0) (V c main_arg1) (V c main_v4) (V c main_v5) :=
  (dat0 V c).arrAt_eq_of_cover 4 (G0 (V c main_arg0) (V c main_arg1) (V c main_v4) (V c main_v5))
    (flushed0_eq V c) (cover0)

end Final

/-! ## The result is the reference's product -/

section Reference
variable [Cert.ReferenceIdeal.Facts₀]

/-- With the upper and lower row slices of one weight matrix for the two weights, the result array is the one
    product of the two operands joined along the columns with the whole weight matrix. -/
theorem G0_eq_dot (X : FVec Ideal S8192x8192 .f32) (H : FVec Ideal S8192x64 .f32) (W : FVec Ideal S8256x128 .f32)
    (hs1 : S8256x128.Slices ![0, 0] S8192x128) (hs2 : S8256x128.Slices ![8192, 0] S64x128) :
    G0 X H (extractStridedSlice S8192x128 ![0, 0] W hs1) (extractStridedSlice S64x128 ![8192, 0] W hs2)
      = Host.dotGeneral (F := Ideal) Cert.ReferenceIdeal.dot_S8192x8256_S8256x128_S8192x128_1_0_0_1_n_n none
          (concatenate Cert.ReferenceIdeal.S8192x8256 1 [⟨Cert.ReferenceIdeal.S8192x8192, X⟩, ⟨Cert.ReferenceIdeal.S8192x64, H⟩]
            Cert.ReferenceIdeal.Facts₀.concatenates_S8192x8192_S8192x64_S8192x8256_d1) W := by
  funext j
  obtain ⟨R, col, rfl⟩ : ∃ (R : Fin 8192) (col : Fin 128), j = ix2 R col := ⟨j 0, j 1, eq_ix2 j⟩
  rw [G0_ix2]
  refine Eq.trans ?_ (Cert.ReferenceIdeal.RefDot.dot128_tiled X H W R col).symm
  unfold G0at
  exact congrArg₂ (· + ·)
    (congrArg₂ (· + ·)
      (congrArg₂ (· + ·)
        (congrArg₂ (· + ·)
          (congrArg (0 + ·) (Finset.sum_congr rfl fun k _ => congrArg (X (ix2 R ⟨k.val, by omega⟩) * ·)
            (Cert.KernelIdeal.RefDot.slice128Top_apply W hs1 ⟨k.val, by omega⟩ col)))
          (Finset.sum_congr rfl fun k _ => congrArg (X (ix2 R ⟨2048 + k.val, by omega⟩) * ·)
            (Cert.KernelIdeal.RefDot.slice128Top_apply W hs1 ⟨2048 + k.val, by omega⟩ col)))
        (Finset.sum_congr rfl fun k _ => congrArg (X (ix2 R ⟨4096 + k.val, by omega⟩) * ·)
          (Cert.KernelIdeal.RefDot.slice128Top_apply W hs1 ⟨4096 + k.val, by omega⟩ col)))
      (Finset.sum_congr rfl fun k _ => congrArg (X (ix2 R ⟨6144 + k.val, by omega⟩) * ·)
        (Cert.KernelIdeal.RefDot.slice128Top_apply W hs1 ⟨6144 + k.val, by omega⟩ col)))
    (Finset.sum_congr rfl fun k _ => congrArg (H (ix2 R k) * ·)
      (Cert.KernelIdeal.RefDot.slice128Bot_apply W hs2 k col))

end Reference

end Cert.KernelIdeal.Hand

end
-- ==== Proof.TileValue1.lean ====
/-
  The second product's accumulation, read at an index.

  The same accumulation as for the first product, with 64 output columns: zero, then the four contraction
  tiles' products of a 1024 × 2048 block with a 2048 × 64 block of the weights, then the product of the
  1024 × 64 block with the 64 × 64 weights. Here the left operand of the last product also passes through a
  same-shape cast, which is the identity as well, so element (r, c) is again the sums added from the left.
-/
import proofs.«112653_j60352880443527_1_alg».proof.Proof.TileValue0

noncomputable section

open scoped BigOperators

namespace Cert.KernelIdeal.TileValue

open Idealize.ShloMosaic Idealize.ShloMosaic.ValueIdx Cert.KernelIdeal Cert.KernelIdeal.Gen

/-- One accumulation step whose left operand, too, passes through a same-shape cast before the change of
    float format: the accumulator at the index plus the sum of products along the contraction. -/
theorem accStepCast_apply {M K N : Nat} (D : DotDims ⟨2, ![M, K]⟩ ⟨2, ![K, N]⟩ ⟨2, ![M, N]⟩) (hD : D = DotDims.plain M K N)
    (hb : FTy.bits .bf16 < FTy.bits .f32)
    (hcO : (⟨2, ![M, N]⟩ : Shape).ShapeCasts ⟨2, ![M, N]⟩) (hcL : (⟨2, ![M, K]⟩ : Shape).ShapeCasts ⟨2, ![M, K]⟩)
    (hcR : (⟨2, ![K, N]⟩ : Shape).ShapeCasts ⟨2, ![K, N]⟩)
    (x : FVec Ideal ⟨2, ![M, K]⟩ .f32) (w : FVec Ideal ⟨2, ![K, N]⟩ .f32) (acc : FVec Ideal ⟨2, ![M, N]⟩ .f32)
    (j : (⟨2, ![M, N]⟩ : Shape).Idx) :
    shapeCast ⟨2, ![M, N]⟩
        (addf acc (matmul (F := Ideal) D none (truncf .bf16 (shapeCast ⟨2, ![M, K]⟩ x hcL) hb)
          (truncf .bf16 (shapeCast ⟨2, ![K, N]⟩ w hcR) hb) (constant ⟨2, ![M, N]⟩ .f32 0x00000000#32))) hcO j
      = acc j + ∑ k : Fin K, x (ix2 (j 0) k) * w (ix2 k (j 1)) := by
  rw [shapeCast_self x hcL]
  exact accStep_apply D hD hb hcO hcR x w acc j

/-- The dimension numbers of the tile product are the plain ones: 1024 × 2048 by 2048 × 64. -/
theorem dotTile1_plain : dot_S1024x2048_S2048x64_S1024x64_1_0_0_1_n_n = DotDims.plain 1024 2048 64 := rfl

/-- The dimension numbers of the last product are the plain ones: 1024 × 64 by 64 × 64. -/
theorem dotLast1_plain : dot_S1024x64_S64x64_S1024x64_1_0_0_1_n_n = DotDims.plain 1024 64 64 := rfl

/-- The accumulator's first contents: zero everywhere. -/
theorem pay1_apply1 (r : Fin 1024) (c : Fin 64) : k1_pay1 (F := Ideal) (ix2 r c) = 0 := by
  unfold k1_pay1
  refine (congrFun (shapeCast_self _ _) (ix2 r c)).trans ?_
  exact Ideal.ofBits_zero_f32

/-- One contraction tile: the accumulator at (r, c) plus the tile's sum of products. -/
theorem pay2_apply1 (v3 : FVec Ideal S1024x2048 .f32) (v5 : FVec Ideal S2048x64 .f32) (v8 : FVec Ideal S1024x64 .f32)
    (r : Fin 1024) (c : Fin 64) :
    k1_pay2 (F := Ideal) v3 v5 v8 (ix2 r c) = v8 (ix2 r c) + ∑ k : Fin 2048, v3 (ix2 r k) * v5 (ix2 k c) :=
  accStep_apply _ dotTile1_plain _ _ _ v3 v5 v8 (ix2 r c)

/-- The last product: the accumulator at (r, c) plus the sum of the 64 products. -/
theorem pay3_apply1 (v17 : FVec Ideal S1024x64 .f32) (v20 : FVec Ideal S64x64 .f32) (v23 : FVec Ideal S1024x64 .f32)
    (r : Fin 1024) (c : Fin 64) :
    k1_pay3 (F := Ideal) v17 v20 v23 (ix2 r c) = v23 (ix2 r c) + ∑ k : Fin 64, v17 (ix2 r k) * v20 (ix2 k c) :=
  accStepCast_apply _ dotLast1_plain _ _ _ _ v17 v20 v23 (ix2 r c)

/-- THE WHOLE CHAIN at (r, c), the eight tile blocks named one by one: zero, the four tiles in order, then the
    last product, added from the left. -/
theorem tile1_blocks (x0 x1 x2 x3 : FVec Ideal S1024x2048 .f32) (w0 w1 w2 w3 : FVec Ideal S2048x64 .f32)
    (hb : FVec Ideal S1024x64 .f32) (whb : FVec Ideal S64x64 .f32) (r : Fin 1024) (c : Fin 64) :
    k1_pay3 (F := Ideal) hb whb
        (k1_pay2 (F := Ideal) x3 w3 (k1_pay2 (F := Ideal) x2 w2
          (k1_pay2 (F := Ideal) x1 w1 (k1_pay2 (F := Ideal) x0 w0 (k1_pay1 (F := Ideal)))))) (ix2 r c)
      = ((((0 + ∑ k : Fin 2048, x0 (ix2 r k) * w0 (ix2 k c)) + ∑ k : Fin 2048, x1 (ix2 r k) * w1 (ix2 k c))
            + ∑ k : Fin 2048, x2 (ix2 r k) * w2 (ix2 k c)) + ∑ k : Fin 2048, x3 (ix2 r k) * w3 (ix2 k c))
          + ∑ k : Fin 64, hb (ix2 r k) * whb (ix2 k c) := by
  rw [pay3_apply1, pay2_apply1, pay2_apply1, pay2_apply1, pay2_apply1, pay1_apply1]

/-- THE WHOLE CHAIN at (r, c): zero, the four tiles in order, then the last product, added from the left. -/
theorem tile1 (xb : Fin 4 → FVec Ideal S1024x2048 .f32) (wb : Fin 4 → FVec Ideal S2048x64 .f32)
    (hb : FVec Ideal S1024x64 .f32) (whb : FVec Ideal S64x64 .f32) (r : Fin 1024) (c : Fin 64) :
    k1_pay3 (F := Ideal) hb whb
        (k1_pay2 (F := Ideal) (xb 3) (wb 3) (k1_pay2 (F := Ideal) (xb 2) (wb 2)
          (k1_pay2 (F := Ideal) (xb 1) (wb 1) (k1_pay2 (F := Ideal) (xb 0) (wb 0) (k1_pay1 (F := Ideal)))))) (ix2 r c)
      = ((((0 + ∑ k : Fin 2048, xb 0 (ix2 r k) * wb 0 (ix2 k c)) + ∑ k : Fin 2048, xb 1 (ix2 r k) * wb 1 (ix2 k c))
            + ∑ k : Fin 2048, xb 2 (ix2 r k) * wb 2 (ix2 k c)) + ∑ k : Fin 2048, xb 3 (ix2 r k) * wb 3 (ix2 k c))
          + ∑ k : Fin 64, hb (ix2 r k) * whb (ix2 k c) := by
  rw [pay3_apply1, pay2_apply1, pay2_apply1, pay2_apply1, pay2_apply1, pay1_apply1]

end Cert.KernelIdeal.TileValue

end
-- ==== Proof.R1Value.lean ====
/-
  Region 1 (the second fused product), read as values.

  What each control case of the body leaves in the accumulator and in the output block is one store's payload
  over the blocks the body loaded: at tile 0 the tile's product added to the zero block, at tiles 1 and 2 the
  tile's product added to what the point before left, at tile 3 that and the last product on top, and the
  output block is stored from the accumulator. Unrolled four points back from a tile-3 point, the output block
  at (r, c) is zero plus the four tile sums plus the last sum, over the blocks of the four points; read off the
  arrays the region finds, those blocks are the rows and columns of the whole operands, so the output array
  ends holding, at every (R, c), the split sum over the whole operands; with the two weights the row slices of one
  matrix, that is the reference's one product of the joined operands with the whole matrix.
-/
import proofs.«112653_j60352880443527_1_alg».proof.Proof.R1Frame
import proofs.«112653_j60352880443527_1_alg».proof.Proof.TileValue1
import proofs.«112653_j60352880443527_1_alg».proof.Proof.RefDot
import proofs.«112653_j60352880443527_1_alg».proof.Proof.WSlices
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## What each case leaves: one store's payload -/

section Pieces
variable {F : FTy → Type} [FloatOps F]

/-- The offsets of every load and store of the body: none. -/
theorem hz1 : (![0, 0] : Fin 2 → Nat) = fun _ => 0 := funext fun a => by fin_cases a <;> rfl

/-- A load through the whole buffer after stores the last of which filled it reads that store's payload. -/
theorem readCov_cons_unit_zero1 {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Tiles 1 and 2: the accumulator ends at the tile's product added to what it held. -/
theorem sout1_B_eq (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : ¬cond1_1 i) (x0 : Vec F S1024x2048 .f32) (x2 : Vec F S2048x64 .f32) (xs : Vec F S1024x64 .f32) :
    sout1_B c i arg2 harg2 arg3 harg3 arg4 harg4 arg5 harg5 arg6 harg6 arg7 harg7 hc0 hc1 x0 x2 xs = k1_pay2 x0 x2 xs := by
  unfold sout1_B
  rw [View.read_writes_eq_canon _ _ _ (scover1_B c i arg2 harg2 arg3 harg3 arg4 harg4 arg5 harg5 arg6 harg6 arg7 harg7 hc0 hc1 x0 x2 xs)]
  unfold kernelRun1_B
  dsimp only
  sl_unfold_words
  rw [View.canon_unit_zero hz1]
  simp only [View.readAt_eq_ld, harg2.read_unread, harg4.read_unread, harg7.read_unread,
    View.ld_unit_zero (S := S1024x2048) hz1, View.ld_unit_zero (S := S2048x64) hz1, View.ld_unit_zero (S := S1024x64) hz1]

/-- Tile 0: the accumulator is zeroed, read back, and ends at the tile's product added to the zero block. -/
theorem sout1_A_eq (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : cond1_0 i) (hc1 : ¬cond1_1 i) (x0 : Vec F S1024x2048 .f32) (x2 : Vec F S2048x64 .f32) :
    sout1_A c i arg2 harg2 arg3 harg3 arg4 harg4 arg5 harg5 arg6 harg6 arg7 harg7 hc0 hc1 x0 x2 = k1_pay2 x0 x2 k1_pay1 := by
  unfold sout1_A
  rw [View.read_writes_eq_canon _ _ _ (scover1_A c i arg2 harg2 arg3 harg3 arg4 harg4 arg5 harg5 arg6 harg6 arg7 harg7 hc0 hc1 x0 x2)]
  unfold kernelRun1_A
  dsimp only
  sl_unfold_words
  rw [View.canon_cons_unit_zero (S := S1024x64) hz1, View.readCov_unit_zero (S := S1024x64) _ hz1]
  simp only [View.readAt_eq_ld, harg2.read_unread, harg4.read_unread,
    View.ld_unit_zero (S := S1024x2048) hz1, View.ld_unit_zero (S := S2048x64) hz1]

/-- Tile 3, the accumulator: the tile's product added to what it held, then the last product on top. -/
theorem sout1_C_eq (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) :
    sout1_C c i arg2 harg2 arg3 harg3 arg4 harg4 arg5 harg5 arg6 harg6 arg7 harg7 hc0 hc1 x0 x1 x2 x3 xs = k1_pay3 x1 x3 (k1_pay2 x0 x2 xs) := by
  unfold sout1_C
  rw [View.read_writes_eq_canon _ _ _ (scover1_C c i arg2 harg2 arg3 harg3 arg4 harg4 arg5 harg5 arg6 harg6 arg7 harg7 hc0 hc1 x0 x1 x2 x3 xs)]
  unfold kernelRun1_C
  dsimp only
  sl_unfold_words
  rw [View.canon_cons_unit_zero (S := S1024x64) hz1, View.readCov_unit_zero (S := S1024x64) _ hz1]
  simp only [View.readAt_eq_ld, harg2.read_unread, harg3.read_unread, harg4.read_unread, harg5.read_unread, harg7.read_unread,
    View.ld_unit_zero (S := S1024x2048) hz1, View.ld_unit_zero (S := S2048x64) hz1, View.ld_unit_zero (S := S1024x64) hz1,
    View.ld_unit_zero (S := S1024x64) hz1, View.ld_unit_zero (S := S64x64) hz1]

/-- Tile 3, the output block: the accumulator's final contents, stored. -/
theorem out1_C_eq (c : Dev nD) (i : grid1.Coords) (arg2 : Memref sig .tc .vmem S1024x2048 .f32) (harg2 : arg2.IsWhole) (arg3 : Memref sig .tc .vmem S1024x64 .f32) (harg3 : arg3.IsWhole) (arg4 : Memref sig .tc .vmem S2048x64 .f32) (harg4 : arg4.IsWhole) (arg5 : Memref sig .tc .vmem S64x64 .f32) (harg5 : arg5.IsWhole) (arg6 : Memref sig .tc .vmem S1024x64 .f32) (harg6 : arg6.IsWhole) (arg7 : Memref sig .tc .vmem S1024x64 .f32) (harg7 : arg7.IsWhole) (hc0 : ¬cond1_0 i) (hc1 : cond1_1 i) (x0 : Vec F S1024x2048 .f32) (x1 : Vec F S1024x64 .f32) (x2 : Vec F S2048x64 .f32) (x3 : Vec F S64x64 .f32) (xs : Vec F S1024x64 .f32) :
    out1_C c i arg2 harg2 arg3 harg3 arg4 harg4 arg5 harg5 arg6 harg6 arg7 harg7 hc0 hc1 x0 x1 x2 x3 xs = k1_pay3 x1 x3 (k1_pay2 x0 x2 xs) := by
  unfold out1_C
  rw [View.read_writes_eq_canon _ _ _ (cover1_C c i arg2 harg2 arg3 harg3 arg4 harg4 arg5 harg5 arg6 harg6 arg7 harg7 hc0 hc1 x0 x1 x2 x3 xs)]
  unfold kernelRun1_C
  dsimp only
  sl_unfold_words
  rw [View.canon_unit_zero hz1, readCov_cons_unit_zero1 (S := S1024x64) _ hz1, View.readCov_unit_zero (S := S1024x64) _ hz1]
  simp only [View.readAt_eq_ld, harg2.read_unread, harg3.read_unread, harg4.read_unread, harg5.read_unread, harg7.read_unread,
    View.ld_unit_zero (S := S1024x2048) hz1, View.ld_unit_zero (S := S2048x64) hz1, View.ld_unit_zero (S := S1024x64) hz1,
    View.ld_unit_zero (S := S1024x64) hz1, View.ld_unit_zero (S := S64x64) hz1]

end Pieces

/-! ## The accumulator unrolled over one row block's four points -/

section Chain
variable {F : FTy → Type} [FloatOps F]
variable (V : (c : Dev nD) → (b : Ref sig .tc) → Buf (Elt F) ((c : Thread nD τ).loc b))

/-- The accumulator after a point depends on the point's position only. -/
theorem accAt1_congr (c : Dev nD) {n n' : ℕ} (e : n = n') (h : n < cfg1.N) (h' : n' < cfg1.N) :
    accAt1 V c n h = accAt1 V c n' h' := by
  subst e; rfl

/-- After a tile-0 point: the tile's product added to the zero block. -/
theorem accAt1_first (c : Dev nD) (n : ℕ) (hn : n % 4 = 0) (h : n < cfg1.N) :
    accAt1 V c n h = k1_pay2 (iblk1 V c 0 ⟨n, h⟩) (iblk1 V c 2 ⟨n, h⟩) k1_pay1 :=
  (accAt1_A V c ⟨n, h⟩ hn (fun h3 : n % 4 = 3 => by omega)).trans
    (sout1_A_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) scM1 (Memref.isWhole_whole _) _ _ (iblk1 V c 0 ⟨n, h⟩) (iblk1 V c 2 ⟨n, h⟩))

/-- After a point of tile 1 or 2: the tile's product added to what the point before left. -/
theorem accAt1_next (c : Dev nD) (n : ℕ) (h : n + 1 < cfg1.N) (hn0 : ¬(n + 1) % 4 = 0) (hn3 : ¬(n + 1) % 4 = 3) :
    accAt1 V c (n + 1) h
      = k1_pay2 (iblk1 V c 0 ⟨n + 1, h⟩) (iblk1 V c 2 ⟨n + 1, h⟩) (accAt1 V c n (Nat.lt_of_succ_lt h)) :=
  ((dif_neg hn3).trans ((dif_neg hn0).trans rfl)).trans
    (sout1_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1 (Memref.isWhole_whole _) (fun hh => hn0 ((hcond1_0 ⟨n + 1, h⟩).mp hh)) (fun hh => hn3 ((hcond1_1 ⟨n + 1, h⟩).mp hh))
      (iblk1 V c 0 ⟨n + 1, h⟩) (iblk1 V c 2 ⟨n + 1, h⟩) (accAt1 V c n (Nat.lt_of_succ_lt h)))

/-- THE OUTPUT BLOCK AT A TILE-3 POINT, unrolled: the last product on top of the four tiles' products on top of
    the zero block, over the blocks of the four points of the row block. -/
theorem outAt1_chain (c : Dev nD) (n : ℕ) (hn : n % 4 = 0) (h : n + 3 < cfg1.N) :
    outAt1 V c ⟨n + 3, h⟩
      = k1_pay3 (iblk1 V c 1 ⟨n + 3, h⟩) (iblk1 V c 3 ⟨n + 3, h⟩)
          (k1_pay2 (iblk1 V c 0 ⟨n + 3, h⟩) (iblk1 V c 2 ⟨n + 3, h⟩)
            (k1_pay2 (iblk1 V c 0 ⟨n + 2, Nat.lt_of_succ_lt h⟩) (iblk1 V c 2 ⟨n + 2, Nat.lt_of_succ_lt h⟩)
              (k1_pay2 (iblk1 V c 0 ⟨n + 1, Nat.lt_of_succ_lt (Nat.lt_of_succ_lt h)⟩) (iblk1 V c 2 ⟨n + 1, Nat.lt_of_succ_lt (Nat.lt_of_succ_lt h)⟩)
                (k1_pay2 (iblk1 V c 0 ⟨n, Nat.lt_of_succ_lt (Nat.lt_of_succ_lt (Nat.lt_of_succ_lt h))⟩)
                  (iblk1 V c 2 ⟨n, Nat.lt_of_succ_lt (Nat.lt_of_succ_lt (Nat.lt_of_succ_lt h))⟩) k1_pay1)))) := by
  have h2 : n + 2 < cfg1.N := Nat.lt_of_succ_lt h
  have h1 : n + 1 < cfg1.N := Nat.lt_of_succ_lt h2
  have h0 : n < cfg1.N := Nat.lt_of_succ_lt h1
  have e0 := accAt1_first V c n hn h0
  have e1 := accAt1_next V c n h1 (by omega) (by omega)
  have e2 : accAt1 V c (n + 2) h2
      = k1_pay2 (iblk1 V c 0 ⟨n + 2, h2⟩) (iblk1 V c 2 ⟨n + 2, h2⟩) (accAt1 V c (n + 1) h1) :=
    accAt1_next V c (n + 1) h2 (by omega) (by omega)
  have e3 : (n + 3) % 4 = 3 := by omega
  have e4 : ¬(n + 3) % 4 = 0 := by omega
  refine (outAt1_C V c ⟨n + 3, h⟩ e4 e3).trans ?_
  refine (out1_C_eq c (grid1.coords ⟨n + 3, h⟩) (ms1_0 ⟨n + 3, h⟩) (hs1_0 ⟨n + 3, h⟩) (ms1_1 ⟨n + 3, h⟩) (hs1_1 ⟨n + 3, h⟩) (ms1_2 ⟨n + 3, h⟩) (hs1_2 ⟨n + 3, h⟩) (ms1_3 ⟨n + 3, h⟩) (hs1_3 ⟨n + 3, h⟩) (ms1_4 ⟨n + 3, h⟩) (hs1_4 ⟨n + 3, h⟩) scM1 (Memref.isWhole_whole _) _ _ (iblk1 V c 0 ⟨n + 3, h⟩) (iblk1 V c 1 ⟨n + 3, h⟩) (iblk1 V c 2 ⟨n + 3, h⟩) (iblk1 V c 3 ⟨n + 3, h⟩) _).trans ?_
  rw [accAt1_congr V c (show (⟨n + 3, h⟩ : Fin cfg1.N).val - 1 = n + 2 from by show n + 3 - 1 = n + 2; omega) _ h2, e2, e1, e0]

end Chain

/-! ## The blocks are rows and columns of the whole arrays -/

/-- The printed index maps over the grid: point t is row block t / 4 and contraction tile t % 4. -/
theorem idx_facts1 : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = t.val % 4 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

/-- The arrays behind the region's five windows. -/
theorem arrRef1 : Pipeline.arrRef spec1 0 = main_arg0 ∧ Pipeline.arrRef spec1 1 = main_v62 ∧ Pipeline.arrRef spec1 2 = main_v6
    ∧ Pipeline.arrRef spec1 3 = main_v7 ∧ Pipeline.arrRef spec1 4 = main_v63 := ⟨rfl, rfl, rfl, rfl, rfl⟩

section Blocks
variable {F : FTy → Type} [FloatOps F]
variable (V : (c : Dev nD) → (b : Ref sig .tc) → Buf (Elt F) ((c : Thread nD τ).loc b))

/-- A block of the first operand at (r, k): row (t / 4) * 1024 + r, column (t % 4) * 2048 + k of the array. -/
theorem blk1_0 (c : Dev nD) (t : Fin cfg1.N) (r : Fin 1024) (k : Fin 2048) (R n : Fin 8192)
    (hR : R.val = t.val / 4 * 1024 + r.val) (hn : n.val = t.val % 4 * 2048 + k.val) :
    (iblk1 V c 0 t : Vec F S1024x2048 .f32) (ix2 r k) = (V c main_arg0 : S8192x8192.Idx → Elt F .f32) (ix2 R n) := by
  obtain ⟨e0, e1, -⟩ := idx_facts1 t
  unfold iblk1
  rw [View.read_apply]
  show V c main_arg0 _ = V c main_arg0 _
  refine congrArg (V c main_arg0) (funext fun a => Fin.ext ?_)
  match a with
  | ⟨0, _⟩ => show win1_0.index t (0 : Fin 2) * 1024 + 1 * r.val = R.val; rw [e0, hR]; omega
  | ⟨1, _⟩ => show win1_0.index t (1 : Fin 2) * 2048 + 1 * k.val = n.val; rw [e1, hn]; omega

/-- A block of the second operand at (r, k): row (t / 4) * 1024 + r, column k of the array. -/
theorem blk1_1 (c : Dev nD) (t : Fin cfg1.N) (r : Fin 1024) (k : Fin 64) (R : Fin 8192)
    (hR : R.val = t.val / 4 * 1024 + r.val) :
    (iblk1 V c 1 t : Vec F S1024x64 .f32) (ix2 r k) = (V c main_v62 : S8192x64.Idx → Elt F .f32) (ix2 R k) := by
  obtain ⟨-, -, e0, e1, -⟩ := idx_facts1 t
  unfold iblk1
  rw [View.read_apply]
  show V c main_v62 _ = V c main_v62 _
  refine congrArg (V c main_v62) (funext fun a => Fin.ext ?_)
  match a with
  | ⟨0, _⟩ => show win1_1.index t (0 : Fin 2) * 1024 + 1 * r.val = R.val; rw [e0, hR]; omega
  | ⟨1, _⟩ => show win1_1.index t (1 : Fin 2) * 64 + 1 * k.val = k.val; rw [e1]; omega

/-- A block of the upper weights at (k, col): row (t % 4) * 2048 + k, column col of the array. -/
theorem blk1_2 (c : Dev nD) (t : Fin cfg1.N) (k : Fin 2048) (col : Fin 64) (n : Fin 8192)
    (hn : n.val = t.val % 4 * 2048 + k.val) :
    (iblk1 V c 2 t : Vec F S2048x64 .f32) (ix2 k col) = (V c main_v6 : S8192x64.Idx → Elt F .f32) (ix2 n col) := by
  obtain ⟨-, -, -, -, e0, e1, -⟩ := idx_facts1 t
  unfold iblk1
  rw [View.read_apply]
  show V c main_v6 _ = V c main_v6 _
  refine congrArg (V c main_v6) (funext fun a => Fin.ext ?_)
  match a with
  | ⟨0, _⟩ => show win1_2.index t (0 : Fin 2) * 2048 + 1 * k.val = n.val; rw [e0, hn]; omega
  | ⟨1, _⟩ => show win1_2.index t (1 : Fin 2) * 64 + 1 * col.val = col.val; rw [e1]; omega

/-- The one block of the lower weights is the array. -/
theorem blk1_3 (c : Dev nD) (t : Fin cfg1.N) (k : Fin 64) (col : Fin 64) :
    (iblk1 V c 3 t : Vec F S64x64 .f32) (ix2 k col) = (V c main_v7 : S64x64.Idx → Elt F .f32) (ix2 k col) := by
  obtain ⟨-, -, -, -, -, -, e0, e1, -⟩ := idx_facts1 t
  unfold iblk1
  rw [View.read_apply]
  show V c main_v7 _ = V c main_v7 _
  refine congrArg (V c main_v7) (funext fun a => Fin.ext ?_)
  match a with
  | ⟨0, _⟩ => show win1_3.index t (0 : Fin 2) * 64 + 1 * k.val = k.val; rw [e0]; omega
  | ⟨1, _⟩ => show win1_3.index t (1 : Fin 2) * 64 + 1 * col.val = col.val; rw [e1]; omega

end Blocks

/-! ## The output array -/

/-- Element (R, col) of the result: zero, the four stretches of 2048 products of the first operand's row R with
    the upper weights' column col, then the 64 products of the second operand's row R with the lower weights'
    column col, added from the left. -/
def G1at (X : S8192x8192.Idx → EReal) (H : S8192x64.Idx → EReal) (Wx : S8192x64.Idx → EReal) (Wh : S64x64.Idx → EReal)
    (R : Fin 8192) (col : Fin 64) : EReal :=
  ((((0 + ∑ k : Fin 2048, X (ix2 R ⟨k.val, by omega⟩) * Wx (ix2 ⟨k.val, by omega⟩ col))
        + ∑ k : Fin 2048, X (ix2 R ⟨2048 + k.val, by omega⟩) * Wx (ix2 ⟨2048 + k.val, by omega⟩ col))
      + ∑ k : Fin 2048, X (ix2 R ⟨4096 + k.val, by omega⟩) * Wx (ix2 ⟨4096 + k.val, by omega⟩ col))
    + ∑ k : Fin 2048, X (ix2 R ⟨6144 + k.val, by omega⟩) * Wx (ix2 ⟨6144 + k.val, by omega⟩ col))
  + ∑ k : Fin 64, H (ix2 R k) * Wh (ix2 k col)

/-- THE RESULT ARRAY as one function of the four arrays the region reads. -/
def G1 (X : S8192x8192.Idx → EReal) (H : S8192x64.Idx → EReal) (Wx : S8192x64.Idx → EReal) (Wh : S64x64.Idx → EReal) :
    S8192x64.Idx → EReal :=
  fun j => G1at X H Wx Wh (j 0) (j 1)

/-- At an index given by its coordinates. -/
theorem G1_ix2 (X : S8192x8192.Idx → EReal) (H : S8192x64.Idx → EReal) (Wx : S8192x64.Idx → EReal) (Wh : S64x64.Idx → EReal)
    (R : Fin 8192) (col : Fin 64) : G1 X H Wx Wh (ix2 R col) = G1at X H Wx Wh R col := rfl

/-- THE TILE BLOCKS MEET THE WHOLE ARRAYS: if the four 1024 × 2048 blocks at row r are the first operand's row R at
    the four stretches of columns, the four 2048 × 64 blocks at column col the upper weights' rows of the same
    stretches, the 1024 × 64 block at row r the second operand's row R and the 64 × 64 block the lower weights,
    then the accumulation's value at (r, col) is the result's element (R, col). -/
theorem tiles_eq_G1at (X : S8192x8192.Idx → EReal) (H : S8192x64.Idx → EReal) (Wx : S8192x64.Idx → EReal) (Wh : S64x64.Idx → EReal)
    (R : Fin 8192) (col : Fin 64) (r : Fin 1024)
    (x0 x1 x2 x3 : FVec Ideal S1024x2048 .f32) (w0 w1 w2 w3 : FVec Ideal S2048x64 .f32)
    (hb : FVec Ideal S1024x64 .f32) (whb : FVec Ideal S64x64 .f32)
    (hx0 : ∀ k : Fin 2048, x0 (ix2 r k) = X (ix2 R ⟨k.val, by omega⟩))
    (hx1 : ∀ k : Fin 2048, x1 (ix2 r k) = X (ix2 R ⟨2048 + k.val, by omega⟩))
    (hx2 : ∀ k : Fin 2048, x2 (ix2 r k) = X (ix2 R ⟨4096 + k.val, by omega⟩))
    (hx3 : ∀ k : Fin 2048, x3 (ix2 r k) = X (ix2 R ⟨6144 + k.val, by omega⟩))
    (hw0 : ∀ k : Fin 2048, w0 (ix2 k col) = Wx (ix2 ⟨k.val, by omega⟩ col))
    (hw1 : ∀ k : Fin 2048, w1 (ix2 k col) = Wx (ix2 ⟨2048 + k.val, by omega⟩ col))
    (hw2 : ∀ k : Fin 2048, w2 (ix2 k col) = Wx (ix2 ⟨4096 + k.val, by omega⟩ col))
    (hw3 : ∀ k : Fin 2048, w3 (ix2 k col) = Wx (ix2 ⟨6144 + k.val, by omega⟩ col))
    (hh : ∀ k : Fin 64, hb (ix2 r k) = H (ix2 R k))
    (hwh : ∀ k : Fin 64, whb (ix2 k col) = Wh (ix2 k col)) :
    k1_pay3 (F := Ideal) hb whb
        (k1_pay2 (F := Ideal) x3 w3 (k1_pay2 (F := Ideal) x2 w2
          (k1_pay2 (F := Ideal) x1 w1 (k1_pay2 (F := Ideal) x0 w0 (k1_pay1 (F := Ideal)))))) (ix2 r col)
      = G1at X H Wx Wh R col := by
  refine (TileValue.tile1_blocks x0 x1 x2 x3 w0 w1 w2 w3 hb whb r col).trans ?_
  unfold G1at
  exact congrArg₂ (· + ·)
    (congrArg₂ (· + ·)
      (congrArg₂ (· + ·)
        (congrArg₂ (· + ·)
          (congrArg (0 + ·) (Finset.sum_congr rfl fun k _ => congrArg₂ (· * ·) (hx0 k) (hw0 k)))
          (Finset.sum_congr rfl fun k _ => congrArg₂ (· * ·) (hx1 k) (hw1 k)))
        (Finset.sum_congr rfl fun k _ => congrArg₂ (· * ·) (hx2 k) (hw2 k)))
      (Finset.sum_congr rfl fun k _ => congrArg₂ (· * ·) (hx3 k) (hw3 k)))
    (Finset.sum_congr rfl fun k _ => congrArg₂ (· * ·) (hh k) (hwh k))

section Final
variable (V : (c : Dev nD) → (b : Ref sig .tc) → Buf (Elt Ideal) ((c : Thread nD τ).loc b))

/-- WHAT A TILE-3 POINT WRITES BACK is its block of the result. -/
theorem flushed1_eq (c : Dev nD) (t : Fin cfg1.N) (hf : (cfg1.win 4).flush t = true) :
    (dat1 V c).flushed 4 t
      = ((cfg1.win 4).blk t).view.read (Elt Ideal) (G1 (V c main_arg0) (V c main_v62) (V c main_v6) (V c main_v7)) := by
  have h3 : t.val % 4 = 3 := (flush1_4 t).mp hf
  obtain ⟨tv, ht⟩ := t
  obtain ⟨n, rfl⟩ : ∃ n, tv = n + 3 := ⟨tv - 3, by dsimp only at h3; omega⟩
  have hn : n % 4 = 0 := by dsimp only at h3; omega
  have hN : n + 3 < 32 := lt_of_lt_of_eq ht N_1
  have h2 : n + 2 < cfg1.N := Nat.lt_of_succ_lt ht
  have h1 : n + 1 < cfg1.N := Nat.lt_of_succ_lt h2
  have h0 : n < cfg1.N := Nat.lt_of_succ_lt h1
  obtain ⟨-, -, -, -, -, -, -, -, e40, e41⟩ := idx_facts1 ⟨n + 3, ht⟩
  have e40' : win1_4.index ⟨n + 3, ht⟩ (0 : Fin 2) = (n + 3) / 4 := e40
  show (cfg1.win 4).cut (grid1.coords ⟨n + 3, ht⟩) ((dat1 V c).after 4 ⟨n + 3, ht⟩) = _
  rw [after1_4, outAt1_chain V c n hn ht]
  funext j
  have hj0 : (j 0).val < 1024 := (j 0).isLt
  have hj1 : (j 1).val < 64 := (j 1).isLt
  have hR : (n + 3) / 4 * 1024 + (j 0).val < 8192 := by omega
  have eL : (cfg1.win 4).xinj (grid1.coords ⟨n + 3, ht⟩) j = ix2 (⟨(j 0).val, hj0⟩ : Fin 1024) (⟨(j 1).val, hj1⟩ : Fin 64) :=
    funext fun a => match a with
      | ⟨0, _⟩ => rfl
      | ⟨1, _⟩ => rfl
  have eR : ((cfg1.win 4).blk ⟨n + 3, ht⟩).view.emb j = ix2 (⟨(n + 3) / 4 * 1024 + (j 0).val, hR⟩ : Fin 8192) (⟨(j 1).val, hj1⟩ : Fin 64) :=
    funext fun a => Fin.ext (by
      match a with
      | ⟨0, _⟩ => show win1_4.index ⟨n + 3, ht⟩ (0 : Fin 2) * 1024 + 1 * (j 0).val = (n + 3) / 4 * 1024 + (j 0).val; rw [e40', Nat.one_mul]
      | ⟨1, _⟩ => show win1_4.index ⟨n + 3, ht⟩ (1 : Fin 2) * 64 + 1 * (j 1).val = (j 1).val; rw [e41, Nat.zero_mul, Nat.zero_add, Nat.one_mul])
  rw [View.read_apply]
  show k1_pay3 (F := Ideal) _ _ _ ((cfg1.win 4).xinj (grid1.coords ⟨n + 3, ht⟩) j)
    = G1 (V c main_arg0) (V c main_v62) (V c main_v6) (V c main_v7) (((cfg1.win 4).blk ⟨n + 3, ht⟩).view.emb j)
  rw [eL, eR, G1_ix2]
  exact tiles_eq_G1at (V c main_arg0) (V c main_v62) (V c main_v6) (V c main_v7) (⟨(n + 3) / 4 * 1024 + (j 0).val, hR⟩ : Fin 8192) (⟨(j 1).val, hj1⟩ : Fin 64) (⟨(j 0).val, hj0⟩ : Fin 1024)
    (iblk1 V c 0 ⟨n, h0⟩) (iblk1 V c 0 ⟨n + 1, h1⟩) (iblk1 V c 0 ⟨n + 2, h2⟩) (iblk1 V c 0 ⟨n + 3, ht⟩)
    (iblk1 V c 2 ⟨n, h0⟩) (iblk1 V c 2 ⟨n + 1, h1⟩) (iblk1 V c 2 ⟨n + 2, h2⟩) (iblk1 V c 2 ⟨n + 3, ht⟩)
    (iblk1 V c 1 ⟨n + 3, ht⟩) (iblk1 V c 3 ⟨n + 3, ht⟩)
    (fun k => blk1_0 V c ⟨n, h0⟩ (⟨(j 0).val, hj0⟩ : Fin 1024) k (⟨(n + 3) / 4 * 1024 + (j 0).val, hR⟩ : Fin 8192) ⟨k.val, by omega⟩
      (by show (n + 3) / 4 * 1024 + (j 0).val = n / 4 * 1024 + (j 0).val; omega) (by show k.val = n % 4 * 2048 + k.val; omega))
    (fun k => blk1_0 V c ⟨n + 1, h1⟩ (⟨(j 0).val, hj0⟩ : Fin 1024) k (⟨(n + 3) / 4 * 1024 + (j 0).val, hR⟩ : Fin 8192) ⟨2048 + k.val, by omega⟩
      (by show (n + 3) / 4 * 1024 + (j 0).val = (n + 1) / 4 * 1024 + (j 0).val; omega) (by show 2048 + k.val = (n + 1) % 4 * 2048 + k.val; omega))
    (fun k => blk1_0 V c ⟨n + 2, h2⟩ (⟨(j 0).val, hj0⟩ : Fin 1024) k (⟨(n + 3) / 4 * 1024 + (j 0).val, hR⟩ : Fin 8192) ⟨4096 + k.val, by omega⟩
      (by show (n + 3) / 4 * 1024 + (j 0).val = (n + 2) / 4 * 1024 + (j 0).val; omega) (by show 4096 + k.val = (n + 2) % 4 * 2048 + k.val; omega))
    (fun k => blk1_0 V c ⟨n + 3, ht⟩ (⟨(j 0).val, hj0⟩ : Fin 1024) k (⟨(n + 3) / 4 * 1024 + (j 0).val, hR⟩ : Fin 8192) ⟨6144 + k.val, by omega⟩
      (by show (n + 3) / 4 * 1024 + (j 0).val = (n + 3) / 4 * 1024 + (j 0).val; omega) (by show 6144 + k.val = (n + 3) % 4 * 2048 + k.val; omega))
    (fun k => blk1_2 V c ⟨n, h0⟩ k (⟨(j 1).val, hj1⟩ : Fin 64) ⟨k.val, by omega⟩
      (by show k.val = n % 4 * 2048 + k.val; omega))
    (fun k => blk1_2 V c ⟨n + 1, h1⟩ k (⟨(j 1).val, hj1⟩ : Fin 64) ⟨2048 + k.val, by omega⟩
      (by show 2048 + k.val = (n + 1) % 4 * 2048 + k.val; omega))
    (fun k => blk1_2 V c ⟨n + 2, h2⟩ k (⟨(j 1).val, hj1⟩ : Fin 64) ⟨4096 + k.val, by omega⟩
      (by show 4096 + k.val = (n + 2) % 4 * 2048 + k.val; omega))
    (fun k => blk1_2 V c ⟨n + 3, ht⟩ k (⟨(j 1).val, hj1⟩ : Fin 64) ⟨6144 + k.val, by omega⟩
      (by show 6144 + k.val = (n + 3) % 4 * 2048 + k.val; omega))
    (fun k => blk1_1 V c ⟨n + 3, ht⟩ (⟨(j 0).val, hj0⟩ : Fin 1024) k (⟨(n + 3) / 4 * 1024 + (j 0).val, hR⟩ : Fin 8192) rfl)
    (fun k => blk1_3 V c ⟨n + 3, ht⟩ k (⟨(j 1).val, hj1⟩ : Fin 64))

/-- Every index of the result is in the block of the tile-3 point of its row block. -/
theorem cover1 (i : S8192x64.Idx) :
    ∃ t : Fin cfg1.N, (cfg1.win 4).flush t = true ∧ i ∈ ((cfg1.win 4).blk t).view.set := by
  have hi0 : (i 0).val < 8192 := (i 0).isLt
  have hi1 : (i 1).val < 64 := (i 1).isLt
  have hN : cfg1.N = 32 := N_1
  have ht : 4 * ((i 0).val / 1024) + 3 < cfg1.N := by rw [hN]; omega
  refine ⟨⟨4 * ((i 0).val / 1024) + 3, ht⟩, (flush1_4 _).mpr (by show (4 * ((i 0).val / 1024) + 3) % 4 = 3; omega), ?_⟩
  obtain ⟨-, -, -, -, -, -, -, -, e40, e41⟩ := idx_facts1 ⟨4 * ((i 0).val / 1024) + 3, ht⟩
  show i ∈ ((View.whole main_v63).slice (win1_4.rect ⟨4 * ((i 0).val / 1024) + 3, ht⟩)).set
  rw [View.set_slice_whole, Rect.mem_set_unit]
  intro a
  match a with
  | ⟨0, _⟩ =>
    show win1_4.index ⟨4 * ((i 0).val / 1024) + 3, ht⟩ (0 : Fin 2) * 1024 ≤ (i 0).val
      ∧ (i 0).val < win1_4.index ⟨4 * ((i 0).val / 1024) + 3, ht⟩ (0 : Fin 2) * 1024 + 1024
    rw [show win1_4.index ⟨4 * ((i 0).val / 1024) + 3, ht⟩ (0 : Fin 2) = (4 * ((i 0).val / 1024) + 3) / 4 from e40]; omega
  | ⟨1, _⟩ =>
    show win1_4.index ⟨4 * ((i 0).val / 1024) + 3, ht⟩ (1 : Fin 2) * 64 ≤ (i 1).val
      ∧ (i 1).val < win1_4.index ⟨4 * ((i 0).val / 1024) + 3, ht⟩ (1 : Fin 2) * 64 + 64
    rw [e41]; omega

/-- THE RESULT ARRAY after the region: the split sum of the four arrays the region reads, at every index. -/
theorem final1 (c : Dev nD) :
    (dat1 V c).arrAt 4 cfg1.N = G1 (V c main_arg0) (V c main_v62) (V c main_v6) (V c main_v7) :=
  (dat1 V c).arrAt_eq_of_cover 4 (G1 (V c main_arg0) (V c main_v62) (V c main_v6) (V c main_v7))
    (flushed1_eq V c) (cover1)

end Final

/-! ## The result is the reference's product -/

section Reference
variable [Cert.ReferenceIdeal.Facts₀]

/-- With the upper and lower row slices of one weight matrix for the two weights, the result array is the one
    product of the two operands joined along the columns with the whole weight matrix. -/
theorem G1_eq_dot (X : FVec Ideal S8192x8192 .f32) (H : FVec Ideal S8192x64 .f32) (W : FVec Ideal S8256x64 .f32)
    (hs1 : S8256x64.Slices ![0, 0] S8192x64) (hs2 : S8256x64.Slices ![8192, 0] S64x64) :
    G1 X H (extractStridedSlice S8192x64 ![0, 0] W hs1) (extractStridedSlice S64x64 ![8192, 0] W hs2)
      = Host.dotGeneral (F := Ideal) Cert.ReferenceIdeal.dot_S8192x8256_S8256x64_S8192x64_1_0_0_1_n_n none
          (concatenate Cert.ReferenceIdeal.S8192x8256 1 [⟨Cert.ReferenceIdeal.S8192x8192, X⟩, ⟨Cert.ReferenceIdeal.S8192x64, H⟩]
            Cert.ReferenceIdeal.Facts₀.concatenates_S8192x8192_S8192x64_S8192x8256_d1) W := by
  funext j
  obtain ⟨R, col, rfl⟩ : ∃ (R : Fin 8192) (col : Fin 64), j = ix2 R col := ⟨j 0, j 1, eq_ix2 j⟩
  rw [G1_ix2]
  refine Eq.trans ?_ (Cert.ReferenceIdeal.RefDot.dot64_tiled X H W R col).symm
  unfold G1at
  exact congrArg₂ (· + ·)
    (congrArg₂ (· + ·)
      (congrArg₂ (· + ·)
        (congrArg₂ (· + ·)
          (congrArg (0 + ·) (Finset.sum_congr rfl fun k _ => congrArg (X (ix2 R ⟨k.val, by omega⟩) * ·)
            (Cert.KernelIdeal.RefDot.slice64Top_apply W hs1 ⟨k.val, by omega⟩ col)))
          (Finset.sum_congr rfl fun k _ => congrArg (X (ix2 R ⟨2048 + k.val, by omega⟩) * ·)
            (Cert.KernelIdeal.RefDot.slice64Top_apply W hs1 ⟨2048 + k.val, by omega⟩ col)))
        (Finset.sum_congr rfl fun k _ => congrArg (X (ix2 R ⟨4096 + k.val, by omega⟩) * ·)
          (Cert.KernelIdeal.RefDot.slice64Top_apply W hs1 ⟨4096 + k.val, by omega⟩ col)))
      (Finset.sum_congr rfl fun k _ => congrArg (X (ix2 R ⟨6144 + k.val, by omega⟩) * ·)
        (Cert.KernelIdeal.RefDot.slice64Top_apply W hs1 ⟨6144 + k.val, by omega⟩ col)))
    (Finset.sum_congr rfl fun k _ => congrArg (H (ix2 R k) * ·)
      (Cert.KernelIdeal.RefDot.slice64Bot_apply W hs2 k col))

end Reference

end Cert.KernelIdeal.Hand

end
-- ==== Proof.Leavings.lean ====
/-
  What the two fused products leave, as the reference's own terms.

  Region 0 leaves in its output array the product of the concatenation [x, hidden state] with the first weight matrix;
  region 1 the product of [x, hfeat2] with the second, where hfeat2 is the buffer the host code computed between the
  regions. Each is the region's final array (the fold of its write-backs: every output block stored once, at the last
  contraction tile of its row block, from the accumulator), read at the arrays the region was entered from, and the
  kernel's split sum is the reference's single sum regrouped.
-/
import proofs.«112653_j60352880443527_1_alg».proof.Proof.Entries
import proofs.«112653_j60352880443527_1_alg».proof.Proof.R0Value
import proofs.«112653_j60352880443527_1_alg».proof.Proof.R1Value

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The first product. -/
theorem left0_eq [Cert.ReferenceIdeal.Facts₀] (c : Dev nD) :
    outs m 2 main_v8 c
      = Host.dotGeneral (F := Ideal) (φ₁ := .f32) (φ₂ := .f32) Cert.ReferenceIdeal.dot_S8192x8256_S8256x128_S8192x128_1_0_0_1_n_n none
          (concatenate Cert.ReferenceIdeal.S8192x8256 1
            [⟨Cert.ReferenceIdeal.S8192x8192, m ((c : Thread nD τ).loc main_arg0)⟩, ⟨Cert.ReferenceIdeal.S8192x64, m ((c : Thread nD τ).loc main_arg1)⟩]
            Cert.ReferenceIdeal.Facts₀.concatenates_S8192x8192_S8192x64_S8192x8256_d1)
          (m ((c : Thread nD τ).loc main_arg2)) := by
  rw [outs_2]
  show (dat0 (entry0 m) c).arrAt 4 cfg0.N = _
  rw [final0 (entry0 m) c, entry0_arg0, entry0_arg1, entry0_v4, entry0_v5]
  exact G0_eq_dot _ _ _ _ _

/-- The second product, over the hfeat2 buffer as the host code left it. -/
theorem left1_eq [Cert.ReferenceIdeal.Facts₀] (c : Dev nD) :
    outs m 6 main_v63 c
      = Host.dotGeneral (F := Ideal) (φ₁ := .f32) (φ₂ := .f32) Cert.ReferenceIdeal.dot_S8192x8256_S8256x64_S8192x64_1_0_0_1_n_n none
          (concatenate Cert.ReferenceIdeal.S8192x8256 1
            [⟨Cert.ReferenceIdeal.S8192x8192, m ((c : Thread nD τ).loc main_arg0)⟩, ⟨Cert.ReferenceIdeal.S8192x64, V5 m (outs m) c (Proc.devRef .tc main_v62)⟩]
            Cert.ReferenceIdeal.Facts₀.concatenates_S8192x8192_S8192x64_S8192x8256_d1)
          (m ((c : Thread nD τ).loc main_arg4)) := by
  rw [outs_6]
  show (dat1 (entry1 m) c).arrAt 4 cfg1.N = _
  rw [final1 (entry1 m) c, entry1_arg0, entry1_v62, entry1_v6, entry1_v7]
  exact G1_eq_dot _ _ _ _ _

end Cert.KernelIdeal.Hand

end
-- ==== Proof.HostBridge.lean ====
/-
  Both programs run the same host operations around two matrix products. Read as terms of the argument
  arrays and of the two products, the kernel program's result and the reference's result are one tree:
  the reference builds the normalisation vector twice where the kernel program builds it once and reads
  it twice, which as a term is the same subtree. This module turns each program's fold of host operations
  into that term and identifies the two, given that the buffers the two kernel regions leave hold the
  reference's two products.
-/
import proofs.«112653_j60352880443527_1_alg».proof.Defs
import proofs.«112653_j60352880443527_1_alg».proof.Proof.Gen.KernelIdeal.Regions
import proofs.«112653_j60352880443527_1_alg».proof.Proof.RefRun
import Idealize.ShloMosaic.Lib.StableHlo.Run

set_option maxRecDepth 16384

noncomputable section

namespace Cert.HostBridge

open Idealize.ShloMosaic Idealize.ShloMosaic.TcCoe Idealize.SL.Sem Idealize.ShloMosaic.StableHlo

section Upd
variable {τ : Topo} {sig : RefSig} {Val : EltTy → Type}

/-- A valuation changed at one buffer, read at that buffer. -/
theorem upd_self (V : Valuation τ sig Val) (y : Ref sig .tc) (v : (Proc.devRef (τ := τ) .tc y).ty.Contents Val) :
    Function.update V (no_index (Proc.devRef .tc y)) v (no_index (Proc.devRef .tc y)) = v := Function.update_self ..

/-- A valuation changed at one buffer, read at another. -/
theorem upd_ne (V : Valuation τ sig Val) (y : Ref sig .tc) (v : (Proc.devRef (τ := τ) .tc y).ty.Contents Val)
    {r : Ref sig .tc} (h : r ≠ y) :
    Function.update V (no_index (Proc.devRef .tc y)) v (no_index (Proc.devRef .tc r)) = V (Proc.devRef .tc r) :=
  Function.update_of_ne (devRef_ne_of_ne h) ..
end Upd

section Cat
variable {α : Type}

/-- Two arrays joined along one axis, with the two pieces as plain arguments (so that a rewrite can reach them:
    in `concatenate` the shape fact depends on the list of pieces). -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem cat2_eq (t : Shape) (a : Fin t.rank) (s1 s2 : Shape) (h : Shape.Concatenates [s1, s2] t a)
    (x : s1.Idx → α) (y : s2.Idx → α) :
    concatenate t a [⟨s1, x⟩, ⟨s2, y⟩] h = cat2 t a s1 s2 h x y := rfl
end Cat

open Cert.KernelIdeal.Gen in
set_option maxHeartbeats 40000000 in
/-- The kernel program's result is the reference's result, on core `c`, from memories that agree on the arguments,
    when region 0 leaves in its output the reference's first product `[x | hfeat] · W1` and region 1 the second,
    `[x | hfeat2] · W2`, with `hfeat2` the kernel program's own second operand (which the proof shows to be the
    reference's). No property of the extended reals is used: the two sides are the same term. -/
theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Cert.KernelIdeal.Gen.Outs (F := Ideal)) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h1 : outs 2 Cert.KernelIdeal.main_v8 c
      = (Host.dotGeneral (F := Ideal) (φ₁ := .f32) (φ₂ := .f32) Cert.ReferenceIdeal.dot_S8192x8256_S8256x128_S8192x128_1_0_0_1_n_n none
          (concatenate (α := Ideal .f32) Cert.ReferenceIdeal.S8192x8256 1
            [⟨Cert.ReferenceIdeal.S8192x8192, (m ((c.tc : Thread Cert.KernelIdeal.nD Cert.KernelIdeal.τ).loc Cert.KernelIdeal.main_arg0) : (⟨Cert.ReferenceIdeal.S8192x8192, .f32⟩ : BufTy).Contents (Elt Ideal))⟩,
             ⟨Cert.ReferenceIdeal.S8192x64, (m ((c.tc : Thread Cert.KernelIdeal.nD Cert.KernelIdeal.τ).loc Cert.KernelIdeal.main_arg1) : (⟨Cert.ReferenceIdeal.S8192x64, .f32⟩ : BufTy).Contents (Elt Ideal))⟩]
            Cert.ReferenceIdeal.Facts₀.concatenates_S8192x8192_S8192x64_S8192x8256_d1)
          (m ((c.tc : Thread Cert.KernelIdeal.nD Cert.KernelIdeal.τ).loc Cert.KernelIdeal.main_arg2) : (⟨Cert.ReferenceIdeal.S8256x128, .f32⟩ : BufTy).Contents (Elt Ideal)) : (⟨Cert.ReferenceIdeal.S8192x128, .f32⟩ : BufTy).Contents (Elt Ideal)))
    (h2 : outs 6 Cert.KernelIdeal.main_v63 c
      = (Host.dotGeneral (F := Ideal) (φ₁ := .f32) (φ₂ := .f32) Cert.ReferenceIdeal.dot_S8192x8256_S8256x64_S8192x64_1_0_0_1_n_n none
          (concatenate (α := Ideal .f32) Cert.ReferenceIdeal.S8192x8256 1
            [⟨Cert.ReferenceIdeal.S8192x8192, (m ((c.tc : Thread Cert.KernelIdeal.nD Cert.KernelIdeal.τ).loc Cert.KernelIdeal.main_arg0) : (⟨Cert.ReferenceIdeal.S8192x8192, .f32⟩ : BufTy).Contents (Elt Ideal))⟩,
             ⟨Cert.ReferenceIdeal.S8192x64, (Cert.KernelIdeal.Gen.V5 m outs c (Proc.devRef .tc Cert.KernelIdeal.main_v62) : (⟨Cert.ReferenceIdeal.S8192x64, .f32⟩ : BufTy).Contents (Elt Ideal))⟩]
            Cert.ReferenceIdeal.Facts₀.concatenates_S8192x8192_S8192x64_S8192x8256_d1)
          (m ((c.tc : Thread Cert.KernelIdeal.nD Cert.KernelIdeal.τ).loc Cert.KernelIdeal.main_arg4) : (⟨Cert.ReferenceIdeal.S8256x64, .f32⟩ : BufTy).Contents (Elt Ideal)) : (⟨Cert.ReferenceIdeal.S8192x64, .f32⟩ : BufTy).Contents (Elt Ideal))) :
    Cert.KernelIdeal.Gen.V7 m outs c (Proc.devRef .tc Cert.KernelIdeal.main_v85)
      = StableHlo.after Cert.ReferenceIdeal.Hand.ops (fun b => m' (c, b)) (Proc.devRef .tc Cert.ReferenceIdeal.main_v109) := by
  obtain ⟨e0, e1, e2, e3, e4, e5, e6⟩ := hagree
  -- locations as (core, buffer) pairs, the form the folds read them in
  simp only [Dev.tc_loc] at e0 e1 e2 e3 e4 e5 e6 h1 h2
  -- the kernel program's last valuation, opened item by item; the two products go in where the regions left them
  dsimp only [V7, V6]
  rw [h2]
  dsimp only [V5, V4, V3, V2]
  rw [h1]
  dsimp only [V1, hostOps0, hostOps1, hostOps1_1, hostOps1_2, hostOps2]
  -- both folds as terms of the arguments; the reference's arguments are the kernel program's
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', upd_self, upd_ne, cat2_eq, V0, e0, e1, e2, e3, e4, e5, e6]
  -- one tree, up to the two programs' own names for the same shapes and dimension records
  rfl

end Cert.HostBridge

end
-- ==== Proof.Algebraic.lean ====
/-
  The two idealized programs end with equal results.

  The kernel program's result array ends at the last valuation of the fold through @main: the last host stretch applied
  to what the two fused products left. Each product left the reference's own product of a concatenation with a weight
  matrix (one sum over 8256 terms, regrouped as four tiles of 2048 and a tail of 64: addition on the extended reals is
  associative and commutative, so no finiteness is used and the precondition is never opened), and around the products
  the two programs apply the same host operations to the same arguments; so the kernel program's last valuation at its
  result is the fold of the reference's operations at its result, which is where the reference's run ends.
-/
import proofs.«112653_j60352880443527_1_alg».proof.Proof.Frames
import proofs.«112653_j60352880443527_1_alg».proof.Proof.Leavings
import proofs.«112653_j60352880443527_1_alg».proof.Proof.RefRun
import proofs.«112653_j60352880443527_1_alg».proof.Proof.HostBridge

noncomputable section

namespace Cert.Proof.Algebraic

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V7 m (Cert.KernelIdeal.Hand.outs m) c (Proc.devRef .tc Cert.KernelIdeal.main_v85),
    Cert.Proof.Frames.run_val m ρ, ?_⟩
  refine (θ_run Cert.ReferenceIdeal.defs _ _).mono (fun _ h c => ⟨(h c).1.trans ?_, (h c).2⟩)
    (Cert.ReferenceIdeal.Hand.run (F := Ideal) m' ρ')
  exact (Cert.HostBridge.bridge m m' (Cert.KernelIdeal.Hand.outs m) c (hagree c)
    (Cert.KernelIdeal.Hand.left0_eq m c) (Cert.KernelIdeal.Hand.left1_eq m c)).symm

end Cert.Proof.Algebraic

end
-- ==== Proof.lean ====
/-
  The certificate of the fused GCN-GRU cell: a kernel program whose two graph-convolution products
  x @ Wx + hfeat @ Wh run as Pallas kernels, the contraction over x tiled four times 2048 into an f32 accumulator that is
  zeroed at the first tile and stored, with the hfeat product added, at the last, against a reference that forms
  concatenate([x, hfeat]) @ W in one product, the same host code around both.

  Frames: both kernel programs (word level and idealized) run through @main's items, host stretches and the two regions,
  each region's body run once per control case (first tile, middle tiles, last tile), the accumulator carried from point
  to point in the region's invariant; the reference is a straight line of host operations. The idealization rewrote
  nothing. At the ideal values the accumulated tiles are the single sum regrouped, and the host code around the products
  is the same function on both sides.
-/
import proofs.«112653_j60352880443527_1_alg».proof.Defs
import proofs.«112653_j60352880443527_1_alg».proof.Proof.Gen.Kernel
import proofs.«112653_j60352880443527_1_alg».proof.Proof.Gen.KernelIdeal
import proofs.«112653_j60352880443527_1_alg».proof.Proof.Gen.ReferenceIdeal
import proofs.«112653_j60352880443527_1_alg».proof.Proof.Gen.Pre_finite_inputs
import proofs.«112653_j60352880443527_1_alg».proof.Proof.Frames
import proofs.«112653_j60352880443527_1_alg».proof.Proof.RefRun
import proofs.«112653_j60352880443527_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.ReferenceIdeal.Hand.frame_ri,
    Cert.Proof.Frames.preserves, Cert.Proof.Algebraic.algebraic⟩

end Cert.Proof

end
